-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S10000x1 : Shape := ⟨2, ![10000, 1]⟩
abbrev S1x128 : Shape := ⟨2, ![1, 128]⟩
abbrev S64 : Shape := ⟨1, ![64]⟩
abbrev S100000x1 : Shape := ⟨2, ![100000, 1]⟩
abbrev S64x1 : Shape := ⟨2, ![64, 1]⟩
abbrev S64x128 : Shape := ⟨2, ![64, 128]⟩
abbrev S10000x64 : Shape := ⟨2, ![10000, 64]⟩

abbrev nBuf : Space → Nat
  | .hbm => 143
  | .vmem => 41
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S100000x1, .i32⟩
  | 12 => ⟨S64x1, .f32⟩
  | 13 => ⟨S1x128, .f32⟩
  | 14 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x1, .i32⟩
  | .local _ .vmem, ⟨35, _⟩ => ⟨S10000x1, .i32⟩
  | .local _ .vmem, ⟨36, _⟩ => ⟨S64x1, .f32⟩
  | .local _ .vmem, ⟨37, _⟩ => ⟨S128x128, .f32⟩
  | .local _ .vmem, ⟨38, _⟩ => ⟨S1x128, .f32⟩
  | .local _ .vmem, ⟨39, _⟩ => ⟨S64x128, .f32⟩
  | .local _ .vmem, ⟨40, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_22 : Ref sig .tc := ⟨.hbm, 130, rfl⟩
abbrev main_v92 : Ref sig .tc := ⟨.hbm, 131, rfl⟩
abbrev main_cst_23 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_24 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg4_0 : Ref sig .tc := ⟨.vmem, 38, rfl⟩
abbrev cc6_stg5_0 : Ref sig .tc := ⟨.vmem, 39, rfl⟩
abbrev cc6_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem3_0 : DmaSem sig := 37
abbrev cc6_sem4_0 : DmaSem sig := 38
abbrev cc6_sem5_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64 : S_.BroadcastsInDim S64 (![] : Fin 0 → Fin S64.rank)
  bcast_S100000_S100000x1_0 : S100000.BroadcastsInDim S100000x1 (![0] : Fin 1 → Fin S100000x1.rank)
  shapeCasts_S100000_S100000x1 : S100000.ShapeCasts S100000x1
  shapeCasts_S64_S64x1 : S64.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S10000x64_d1_w32 : S10000x64.Iotas .tc 32 [1]
  broadcasts_S10000x1_S10000x64 : S10000x1.Broadcasts S10000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  broadcasts_S1x128_S64x128 : S1x128.Broadcasts S64x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  dot_S10000x64_S10000x128_S64x128_0_0_1_1_n_n_wf : DotDims.WF S10000x64 S10000x128 S64x128 [0] [0] [1] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x128.size a ≤ S64x128.size a
  hwx6_5 : ∀ i : grid6.Coords, EltTy.bits .f32 = 32 ∨ (Rect.block (s := S64x128) S64x128.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v89) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S64x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000, .i32⟩
  | 78 => ⟨S1700000, .i32⟩
  | 79 => ⟨S1700000, .i32⟩
  | 80 => ⟨S_, .f32⟩
  | 81 => ⟨S100000, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S_, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S64x128, .f32⟩
  | 11 => ⟨S100000x1, .i32⟩
  | 12 => ⟨S64x128, .f32⟩
  | 13 => ⟨S_, .f32⟩
  | 14 => ⟨S100000, .f32⟩
  | 15 => ⟨S_, .f32⟩
  | 16 => ⟨S64, .f32⟩
  | 17 => ⟨S100000x1, .i32⟩
  | 18 => ⟨S64, .f32⟩
  | 19 => ⟨S_, .f32⟩
  | 20 => ⟨S64, .f32⟩
  | 21 => ⟨S64, .f32⟩
  | 22 => ⟨S64x1, .f32⟩
  | 23 => ⟨S64x128, .f32⟩
  | 24 => ⟨S64x128, .f32⟩
  | 25 => ⟨S64x128, .f32⟩
  | 26 => ⟨S1x128, .f32⟩
  | 27 => ⟨S64x128, .f32⟩
  | 28 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_c_20 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_23 : Ref sig .tc := ⟨.hbm, 141, rfl⟩
abbrev main_v100 : Ref sig .tc := ⟨.hbm, 142, rfl⟩
abbrev main_cst_24 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_25 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.K.R0.lean ====
/- The frame half of region 0 of @main (custom_call 0, `cc0__project_kernel`, pipeline 0), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (the same
    argument: where the window is not fetched its block index is the previous point's). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out0_2 (x0 : Vec F S10000x128 .f32) (x1 : Vec F S128x128 .f32) : Vec F S10000x128 .f32 :=
  View.canon [⟨r0_2, k0_pay1 (View.ld x0 r0_0) (View.ld x1 r0_1)⟩]

/-- Its store tiles the buffer (checked by evaluation), so it covers it. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, which is run operation by operation. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__project_kernel i arg0 harg0 arg1 harg1 arg2 harg2) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.R1.lean ====
/- The frame half of region 1 of @main (custom_call 1, `cc1__scale_rows_kernel`, pipeline 1), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (the same
    argument: where the window is not fetched its block index is the previous point's). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0
abbrev r1_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out1_2 (x0 : Vec F S10000x128 .f32) (x1 : Vec F S10000x1 .f32) : Vec F S10000x128 .f32 :=
  View.canon [⟨r1_2, k1_pay1 (View.ld x0 r1_0) (View.ld x1 r1_1)⟩]

/-- Its store tiles the buffer (checked by evaluation), so it covers it. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out1_2` of the inputs': the
    printed function is its skeleton, which is run operation by operation. -/
theorem sound_kernel1 (c : Dev nD) (E : Set ℕ) (i : grid1.Coords) (arg0 : Memref sig .tc .vmem S10000x128 .f32) (harg0 : arg0.IsWhole) (arg1 : Memref sig .tc .vmem S10000x1 .f32) (harg1 : arg1.IsWhole) (arg2 : Memref sig .tc .vmem S10000x128 .f32) (harg2 : arg2.IsWhole)
    (x0 : Vec F S10000x128 .f32) (x1 : Vec F S10000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_rows_kernel i arg0 harg0 arg1 harg1 arg2 harg2) K := by
  simp only [cc1__scale_rows_kernel_eq_skeleton]; unfold cc1__scale_rows_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.R2.lean ====
/- The frame half of region 2 of @main (custom_call 2, `cc2__bias_act_kernel`, pipeline 2), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (the same
    argument: where the window is not fetched its block index is the previous point's). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0
abbrev r2_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out2_2 (x0 : Vec F S10000x128 .f32) (x1 : Vec F S1x128 .f32) : Vec F S10000x128 .f32 :=
  View.canon [⟨r2_2, k2_pay1 (View.ld x0 r2_0) (View.ld x1 r2_1)⟩]

/-- Its store tiles the buffer (checked by evaluation), so it covers it. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out2_2` of the inputs': the
    printed function is its skeleton, which is run operation by operation. -/
theorem sound_kernel2 (c : Dev nD) (E : Set ℕ) (i : grid2.Coords) (arg0 : Memref sig .tc .vmem S10000x128 .f32) (harg0 : arg0.IsWhole) (arg1 : Memref sig .tc .vmem S1x128 .f32) (harg1 : arg1.IsWhole) (arg2 : Memref sig .tc .vmem S10000x128 .f32) (harg2 : arg2.IsWhole)
    (x0 : Vec F S10000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__bias_act_kernel i arg0 harg0 arg1 harg1 arg2 harg2) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.R3.lean ====
/- The frame half of region 3 of @main (custom_call 3, `cc3__project_kernel`, pipeline 3), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (the same
    argument: where the window is not fetched its block index is the previous point's). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out3_2 (x0 : Vec F S10000x128 .f32) (x1 : Vec F S128x128 .f32) : Vec F S10000x128 .f32 :=
  View.canon [⟨r3_2, k3_pay1 (View.ld x0 r3_0) (View.ld x1 r3_1)⟩]

/-- Its store tiles the buffer (checked by evaluation), so it covers it. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out3_2` of the inputs': the
    printed function is its skeleton, which is run operation by operation. -/
theorem sound_kernel3 (c : Dev nD) (E : Set ℕ) (i : grid3.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__project_kernel i arg0 harg0 arg1 harg1 arg2 harg2) K := by
  simp only [cc3__project_kernel_eq_skeleton]; unfold cc3__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.R4.lean ====
/- The frame half of region 4 of @main (custom_call 4, `cc4__scale_rows_kernel`, pipeline 4), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (the same
    argument: where the window is not fetched its block index is the previous point's). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S10000x128 := Rect.unit (s := S10000x128) ![0, 0] S10000x128.size inb_S10000x128_S10000x128_0_0
abbrev r4_1 : Rect S10000x1 := Rect.unit (s := S10000x1) ![0, 0] S10000x1.size inb_S10000x1_S10000x1_0_0
abbrev r4_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out4_2 (x0 : Vec F S10000x128 .f32) (x1 : Vec F S10000x1 .f32) : Vec F S10000x128 .f32 :=
  View.canon [⟨r4_2, k4_pay1 (View.ld x0 r4_0) (View.ld x1 r4_1)⟩]

/-- Its store tiles the buffer (checked by evaluation), so it covers it. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out4_2` of the inputs': the
    printed function is its skeleton, which is run operation by operation. -/
theorem sound_kernel4 (c : Dev nD) (E : Set ℕ) (i : grid4.Coords) (arg0 : Memref sig .tc .vmem S10000x128 .f32) (harg0 : arg0.IsWhole) (arg1 : Memref sig .tc .vmem S10000x1 .f32) (harg1 : arg1.IsWhole) (arg2 : Memref sig .tc .vmem S10000x128 .f32) (harg2 : arg2.IsWhole)
    (x0 : Vec F S10000x128 .f32) (x1 : Vec F S10000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__scale_rows_kernel i arg0 harg0 arg1 harg1 arg2 harg2) K := by
  simp only [cc4__scale_rows_kernel_eq_skeleton]; unfold cc4__scale_rows_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.R5.lean ====
/- The frame half of region 5 of @main (custom_call 5, `cc5__bias_act_kernel`, pipeline 5), at a parameter `V` — the
   TensorCore's buffer contents when the region is entered: each window's block at a point, what the body leaves in
   the output window's buffer, the body's triple, the pipeline's proof data and the body obligation at every point. -/
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (the same
    argument: where the window is not fetched its block index is the previous point's). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0
abbrev r5_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out5_2 (x0 : Vec F S10000x128 .f32) (x1 : Vec F S1x128 .f32) : Vec F S10000x128 .f32 :=
  View.canon [⟨r5_2, k5_pay1 (View.ld x0 r5_0) (View.ld x1 r5_1)⟩]

/-- Its store tiles the buffer (checked by evaluation), so it covers it. -/
theorem cover5_2 (p0 : Vec F S10000x128 .f32) (y : S10000x128.Idx) :
    ∃ pc ∈ ([⟨r5_2, p0⟩] : List (View.Piece (Elt F) S10000x128 .f32)), y ∈ pc.1.set :=
  View.cover_of_tiled [⟨r5_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out5_2` of the inputs': the
    printed function is its skeleton, which is run operation by operation. -/
theorem sound_kernel5 (c : Dev nD) (E : Set ℕ) (i : grid5.Coords) (arg0 : Memref sig .tc .vmem S10000x128 .f32) (harg0 : arg0.IsWhole) (arg1 : Memref sig .tc .vmem S1x128 .f32) (harg1 : arg1.IsWhole) (arg2 : Memref sig .tc .vmem S10000x128 .f32) (harg2 : arg2.IsWhole)
    (x0 : Vec F S10000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__bias_act_kernel i arg0 harg0 arg1 harg1 arg2 harg2) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at
    point `t` each input's buffer at its block and the output's at `out5_2` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_0`, `before5_1`), so `sound_kernel5`
    applies; the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.R6Runs.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pooling region (pipeline 6): what its three cases share

The body keeps a 64 x 128 accumulator in a scratch buffer across the 10 grid points: the first point resets it, every point
adds the one-hot(batch block)ᵀ · z block product, the last point divides by the counts, multiplies by the final weight,
adds the bias and stores the 64 x 128 result, the only point at which the output block is written back. -/

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end

/-! ## The body's two branch conditions, decided over the grid -/

/-- The first branch (reset the accumulator): the grid coordinate is 0. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)

/-- The second branch (finish and store the result): the grid coordinate is 9. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
/-- Away from the last point the output window is idle and not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
/-- At the last point it is live. -/
theorem liveAt6_5 : ∀ t : Fin cfg6.N, cond6_1 (grid6.coords t) → cfg6.idle 5 (grid6.coords t) = false := by decide +kernel

/-! ## The memrefs the body is called with -/

/-- One staging buffer of the output window, through which its contents are stated. -/
abbrev VO6_5 : View sig .tc .vmem S64x128 .f32 := (Memref.whole cc6_stg5_0 : Memref sig .tc .vmem S64x128 .f32).view
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x128 .f32 := win6_5.stage (cfg6.slots t 5)
abbrev hs6_5 (t : Fin cfg6.N) : (ms6_5 t).IsWhole := hstage6_5 ((cfg6.slots t 5).cast nbuf6_5)
/-- The accumulator: a whole scoped buffer of the kernel's own. -/
abbrev scM6_0 : Memref sig .tc .vmem S64x128 .f32 := Memref.whole cc6_scratch0
abbrev VS6_0 : View sig .tc .vmem S64x128 .f32 := scM6_0.view

/-- The class invariant with the accumulator split out of the scoped rest, owned at some contents. -/
theorem PhiA6_eq (c : Dev nD) :
    (Pipeline.ΦA spec6 c : sProp 𝕄)
      = iprop(iprop(iprop((∃ d, owns (c : Thread nD τ) scM6_0 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Hand

end
-- ==== Proof.K.R6A.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import proofs.«145604_j19911468384638_1_alg».proof.Proof.K.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first point: the accumulator is reset, then the point's product is added; the output block is left alone. The pieces the stores leave in the accumulator (and in the output block) are the witness the run
    finds. -/
noncomputable def kernelRun6_A (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) :
    Σ' (L5 : List (View.Piece (Elt F) S64x128 .f32)), { LS0 : List (View.Piece (Elt F) S64x128 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨[], ?_, fun xi5 E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.K.R6B.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import proofs.«145604_j19911468384638_1_alg».proof.Proof.K.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle point: the point's product is added to the accumulator the point before left; the output block is left alone. The pieces the stores leave in the accumulator (and in the output block) are the witness the run
    finds. -/
noncomputable def kernelRun6_B (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) :
    Σ' (L5 : List (View.Piece (Elt F) S64x128 .f32)), { LS0 : List (View.Piece (Elt F) S64x128 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨[], ?_, fun xi5 E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.K.R6C.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import proofs.«145604_j19911468384638_1_alg».proof.Proof.K.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last point: the point's product is added to the accumulator, and the result — the accumulator divided by the counts, times the final weight, plus the bias — is stored into the output block. The pieces the stores leave in the accumulator (and in the output block) are the witness the run
    finds. -/
noncomputable def kernelRun6_C (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) :
    Σ' (L5 : List (View.Piece (Elt F) S64x128 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨?_, ?_, fun E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.K.R6.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import proofs.«145604_j19911468384638_1_alg».proof.Proof.K.R6A
import proofs.«145604_j19911468384638_1_alg».proof.Proof.K.R6B
import proofs.«145604_j19911468384638_1_alg».proof.Proof.K.R6C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pooling region (pipeline 6): proof data and body obligation -/

/-- What case A leaves in the output block: its pieces read back (no piece: a placeholder nothing consults, the window being idle and not written back there). -/
def out6_A_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) : Vec F S64x128 .f32 :=
  VO6_5.read (Elt F) (VO6_5.writes (Elt F) VO6_5.junk (kernelRun6_A c i arg1 harg1 arg2 harg2 arg3 harg3 arg4 harg4 arg5 harg5 arg6 harg6 arg7 harg7 hc0 hc1 x0 x1 x2 x3 x4).1)

/-- Case A's stores cover the accumulator. -/
theorem scover6_A_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) (y : S64x128.Idx) :
    ∃ pc ∈ (kernelRun6_A c i arg1 harg1 arg2 harg2 arg3 harg3 arg4 harg4 arg5 harg5 arg6 harg6 arg7 harg7 hc0 hc1 x0 x1 x2 x3 x4).2.1, y ∈ pc.1.set :=
  View.cover_of_tiledL (kernelRun6_A c i arg1 harg1 arg2 harg2 arg3 harg3 arg4 harg4 arg5 harg5 arg6 harg6 arg7 harg7 hc0 hc1 x0 x1 x2 x3 x4).2.1 S64x128.size (by sl_kernel_rfl) y

/-- What case A leaves in the accumulator. -/
def sout6_A_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) : Vec F S64x128 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3 x4).2.1)

/-- What case B leaves in the output block: its pieces read back (no piece: a placeholder nothing consults, the window being idle and not written back there). -/
def out6_B_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VO6_5.read (Elt F) (VO6_5.writes (Elt F) VO6_5.junk (kernelRun6_B c i arg1 harg1 arg2 harg2 arg3 harg3 arg4 harg4 arg5 harg5 arg6 harg6 arg7 harg7 hc0 hc1 x0 x1 x2 x3 x4 xs0).1)

/-- Case B's stores cover the accumulator. -/
theorem scover6_B_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_B c i arg1 harg1 arg2 harg2 arg3 harg3 arg4 harg4 arg5 harg5 arg6 harg6 arg7 harg7 hc0 hc1 x0 x1 x2 x3 x4 xs0).2.1, y ∈ pc.1.set :=
  View.cover_of_tiledL (kernelRun6_B c i arg1 harg1 arg2 harg2 arg3 harg3 arg4 harg4 arg5 harg5 arg6 harg6 arg7 harg7 hc0 hc1 x0 x1 x2 x3 x4 xs0).2.1 S64x128.size (by sl_kernel_rfl) y

/-- What case B leaves in the accumulator. -/
def sout6_B_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 x4 xs0).2.1)

/-- What case C leaves in the output block: its pieces read back (the stored result). -/
def out6_C_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VO6_5.read (Elt F) (VO6_5.writes (Elt F) VO6_5.junk (kernelRun6_C c i arg1 harg1 arg2 harg2 arg3 harg3 arg4 harg4 arg5 harg5 arg6 harg6 arg7 harg7 hc0 hc1 x0 x1 x2 x3 x4 xs0).1)

/-- The last point's store covers the output block. -/
theorem cover6_C_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_C c i arg1 harg1 arg2 harg2 arg3 harg3 arg4 harg4 arg5 harg5 arg6 harg6 arg7 harg7 hc0 hc1 x0 x1 x2 x3 x4 xs0).1, y ∈ pc.1.set :=
  View.cover_of_tiledL (kernelRun6_C c i arg1 harg1 arg2 harg2 arg3 harg3 arg4 harg4 arg5 harg5 arg6 harg6 arg7 harg7 hc0 hc1 x0 x1 x2 x3 x4 xs0).1 S64x128.size (by sl_kernel_rfl) y

/-- Case C's stores cover the accumulator. -/
theorem scover6_C_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_C c i arg1 harg1 arg2 harg2 arg3 harg3 arg4 harg4 arg5 harg5 arg6 harg6 arg7 harg7 hc0 hc1 x0 x1 x2 x3 x4 xs0).2.1, y ∈ pc.1.set :=
  View.cover_of_tiledL (kernelRun6_C c i arg1 harg1 arg2 harg2 arg3 harg3 arg4 harg4 arg5 harg5 arg6 harg6 arg7 harg7 hc0 hc1 x0 x1 x2 x3 x4 xs0).2.1 S64x128.size (by sl_kernel_rfl) y

/-- What case C leaves in the accumulator. -/
def sout6_C_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 x4 xs0).2.1)

section
variable (V : (c : Dev nD) → (b : Ref sig .tc) → Buf (Elt F) ((c : Thread nD τ).loc b))

/-! ## What the output block and the accumulator hold after each point -/

/-- After the body at position `n`: (the output block, the accumulator). The accumulator after point `n` is the case's stores
    over what point `n - 1` left; the output block is the stored result at the last point and a placeholder elsewhere. -/
def outsAt6 (c : Dev nD) : (n : ℕ) → n < cfg6.N → Vec F S64x128 .f32 × Vec F S64x128 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)

theorem outsAt6_A (c : Dev nD) (t : Fin cfg6.N) (h0 : t.val % 10 = 0) (h1 : ¬t.val % 10 = 9) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- Pipeline 6's proof data on core `c`: the arrays as the region finds them; after the body each input's buffer at its
    block and the output's at `outsAt6`'s first component; the invariant carrying the accumulator; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point: the inputs' memrefs hold their blocks; the closed forms of the two conditions say which of the
    three cases the point is in; the invariant hands the body the accumulator at what the point before left (at anything at
    the first point) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val % 10 = 0
  · by_cases h1 : t.val % 10 = 9
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A_0; (try dsimp only)
      by_cases hz : t.val = 0
      · rw [PhiS6_castSucc V c t, PhiS6_zero V c _ _ hz, PhiA6_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_A_0 _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 10 = 9
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t ((hcond6_1 t).mpr h1)], after6_5]
      rw [outsAt6_C V c t h0 h1]
      unfold out6_C_5 sout6_C_0; (try dsimp only)
      by_cases hz : t.val = 0
      · exfalso; omega
      · rw [PhiS6_castSucc V c t, PhiS6_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_C_0 _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 _ _ _ _ _ _ _ _ _ _ _ _ _ _ _ _ _ _ _ _ _ _ _ _)
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B_0; (try dsimp only)
      by_cases hz : t.val = 0
      · exfalso; omega
      · rw [PhiS6_castSucc V c t, PhiS6_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_B_0 _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulator's contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨HS0, Hrest⟩, Hg⟩
  isplitl [HS0 Hrest]
  · isplitl [HS0]
    · iexists _; iexact HS0
    iexact Hrest
  iexact Hg

end

end Cert.Kernel.Hand

end
-- ==== Proof.K.Run.lean ====
import proofs.«145604_j19911468384638_1_alg».proof.Proof.Gen.Kernel.Launch
import proofs.«145604_j19911468384638_1_alg».proof.Proof.Gen.Kernel.Skeleton
import proofs.«145604_j19911468384638_1_alg».proof.Proof.Gen.Kernel.Points
import proofs.«145604_j19911468384638_1_alg».proof.Proof.K.R0
import proofs.«145604_j19911468384638_1_alg».proof.Proof.K.R1
import proofs.«145604_j19911468384638_1_alg».proof.Proof.K.R2
import proofs.«145604_j19911468384638_1_alg».proof.Proof.K.R3
import proofs.«145604_j19911468384638_1_alg».proof.Proof.K.R4
import proofs.«145604_j19911468384638_1_alg».proof.Proof.K.R5
import proofs.«145604_j19911468384638_1_alg».proof.Proof.K.R6
import proofs.«145604_j19911468384638_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: seven kernel regions among eleven stretches of host operations

The buffers' contents at each boundary are a fold from the launch memory: a host stretch applies its operations, a region
replaces its windows' arrays by what the pipeline's write-backs leave. Every region is entered from "every unscoped buffer at
the boundary's contents, the generator register at some state, nothing owed" and left in the same shape at the next
boundary's contents, so the eighteen segments chain. -/

variable (m : (ℓ : Loc nD τ sig) → Buf (Elt F) ℓ) (ρ : Dev nD → PrngReg)

/-- Core `c`'s buffers at launch. -/
abbrev Bd0 : Dev nD → Valuation τ sig (Elt F) := fun c b => (s₀ m ρ).mem ((c : Dev nD), b)
/-- After the host stretch `hostOps0`. -/
abbrev Bd1 : Dev nD → Valuation τ sig (Elt F) := fun c => StableHlo.after hostOps0 (Bd0 m ρ c)
/-- After the host stretch `hostOps0_1`. -/
abbrev Bd2 : Dev nD → Valuation τ sig (Elt F) := fun c => StableHlo.after hostOps0_1 (Bd1 m ρ c)
/-- After the host stretch `hostOps0_2`. -/
abbrev Bd3 : Dev nD → Valuation τ sig (Elt F) := fun c => StableHlo.after hostOps0_2 (Bd2 m ρ c)
/-- The same read at the TensorCore's references: what region 0 is entered from. -/
abbrev Vd3 : (c : Dev nD) → (b : Ref sig .tc) → Buf (Elt F) ((c : Thread nD τ).loc b) := fun c b => Bd3 m ρ c b
/-- At region 0's exit: its arrays at what the pipeline leaves, every other buffer as entered. -/
def Bd4 (c : Dev nD) : Valuation τ sig (Elt F) :=
  Pipeline.withArrays spec0 c (Bd3 m ρ c) fun w => (dat0 (Vd3 m ρ) c).arrAt w cfg0.N
theorem Bd4_arr (c : Dev nD) (w : Fin cfg0.W) :
    Bd4 m ρ c (Proc.devRef .tc (Pipeline.arrRef spec0 w)) = (dat0 (Vd3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
abbrev Ve4 : (c : Dev nD) → (b : Ref sig .tc) → Buf (Elt F) ((c : Thread nD τ).loc b) := fun c b => Bd4 m ρ c b
theorem hF0 (c : Dev nD) (w : Fin cfg0.W) : (dat0 (Vd3 m ρ) c).arrAt w cfg0.N = Ve4 m ρ c (Pipeline.arrRef spec0 w) :=
  (Bd4_arr m ρ c w).symm
theorem hrest0 (c : Dev nD) : ∀ b, b ∉ Finset.univ.image (Pipeline.arrRef spec0) → Ve4 m ρ c b = Vd3 m ρ c b :=
  fun b hb => Bd4_of_ne m ρ c b fun w e => hb (Finset.mem_image.mpr ⟨w, Finset.mem_univ _, e⟩)
/-- After the host stretch `hostOps1`. -/
abbrev Bd5 : Dev nD → Valuation τ sig (Elt F) := fun c => StableHlo.after hostOps1 (Bd4 m ρ c)
/-- The same read at the TensorCore's references: what region 1 is entered from. -/
abbrev Vd5 : (c : Dev nD) → (b : Ref sig .tc) → Buf (Elt F) ((c : Thread nD τ).loc b) := fun c b => Bd5 m ρ c b
/-- At region 1's exit: its arrays at what the pipeline leaves, every other buffer as entered. -/
def Bd6 (c : Dev nD) : Valuation τ sig (Elt F) :=
  Pipeline.withArrays spec1 c (Bd5 m ρ c) fun w => (dat1 (Vd5 m ρ) c).arrAt w cfg1.N
theorem Bd6_arr (c : Dev nD) (w : Fin cfg1.W) :
    Bd6 m ρ c (Proc.devRef .tc (Pipeline.arrRef spec1 w)) = (dat1 (Vd5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
abbrev Ve6 : (c : Dev nD) → (b : Ref sig .tc) → Buf (Elt F) ((c : Thread nD τ).loc b) := fun c b => Bd6 m ρ c b
theorem hF1 (c : Dev nD) (w : Fin cfg1.W) : (dat1 (Vd5 m ρ) c).arrAt w cfg1.N = Ve6 m ρ c (Pipeline.arrRef spec1 w) :=
  (Bd6_arr m ρ c w).symm
theorem hrest1 (c : Dev nD) : ∀ b, b ∉ Finset.univ.image (Pipeline.arrRef spec1) → Ve6 m ρ c b = Vd5 m ρ c b :=
  fun b hb => Bd6_of_ne m ρ c b fun w e => hb (Finset.mem_image.mpr ⟨w, Finset.mem_univ _, e⟩)
/-- After the host stretch `hostOps2`. -/
abbrev Bd7 : Dev nD → Valuation τ sig (Elt F) := fun c => StableHlo.after hostOps2 (Bd6 m ρ c)
/-- The same read at the TensorCore's references: what region 2 is entered from. -/
abbrev Vd7 : (c : Dev nD) → (b : Ref sig .tc) → Buf (Elt F) ((c : Thread nD τ).loc b) := fun c b => Bd7 m ρ c b
/-- At region 2's exit: its arrays at what the pipeline leaves, every other buffer as entered. -/
def Bd8 (c : Dev nD) : Valuation τ sig (Elt F) :=
  Pipeline.withArrays spec2 c (Bd7 m ρ c) fun w => (dat2 (Vd7 m ρ) c).arrAt w cfg2.N
theorem Bd8_arr (c : Dev nD) (w : Fin cfg2.W) :
    Bd8 m ρ c (Proc.devRef .tc (Pipeline.arrRef spec2 w)) = (dat2 (Vd7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
abbrev Ve8 : (c : Dev nD) → (b : Ref sig .tc) → Buf (Elt F) ((c : Thread nD τ).loc b) := fun c b => Bd8 m ρ c b
theorem hF2 (c : Dev nD) (w : Fin cfg2.W) : (dat2 (Vd7 m ρ) c).arrAt w cfg2.N = Ve8 m ρ c (Pipeline.arrRef spec2 w) :=
  (Bd8_arr m ρ c w).symm
theorem hrest2 (c : Dev nD) : ∀ b, b ∉ Finset.univ.image (Pipeline.arrRef spec2) → Ve8 m ρ c b = Vd7 m ρ c b :=
  fun b hb => Bd8_of_ne m ρ c b fun w e => hb (Finset.mem_image.mpr ⟨w, Finset.mem_univ _, e⟩)
/-- After the host stretch `hostOps3`. -/
abbrev Bd9 : Dev nD → Valuation τ sig (Elt F) := fun c => StableHlo.after hostOps3 (Bd8 m ρ c)
/-- After the host stretch `hostOps3_1`. -/
abbrev Bd10 : Dev nD → Valuation τ sig (Elt F) := fun c => StableHlo.after hostOps3_1 (Bd9 m ρ c)
/-- After the host stretch `hostOps3_2`. -/
abbrev Bd11 : Dev nD → Valuation τ sig (Elt F) := fun c => StableHlo.after hostOps3_2 (Bd10 m ρ c)
/-- The same read at the TensorCore's references: what region 3 is entered from. -/
abbrev Vd11 : (c : Dev nD) → (b : Ref sig .tc) → Buf (Elt F) ((c : Thread nD τ).loc b) := fun c b => Bd11 m ρ c b
/-- At region 3's exit: its arrays at what the pipeline leaves, every other buffer as entered. -/
def Bd12 (c : Dev nD) : Valuation τ sig (Elt F) :=
  Pipeline.withArrays spec3 c (Bd11 m ρ c) fun w => (dat3 (Vd11 m ρ) c).arrAt w cfg3.N
theorem Bd12_arr (c : Dev nD) (w : Fin cfg3.W) :
    Bd12 m ρ c (Proc.devRef .tc (Pipeline.arrRef spec3 w)) = (dat3 (Vd11 m ρ) c).arrAt w cfg3.N := by
  unfold Bd12; exact Pipeline.withArrays_arr spec3 launch3.win.arr_inj c _ _ w
theorem Bd12_of_ne (c : Dev nD) (b : Ref sig .tc) (hb : ∀ w, Pipeline.arrRef spec3 w ≠ b) :
    Bd12 m ρ c (Proc.devRef .tc b) = Bd11 m ρ c (Proc.devRef .tc b) := by
  unfold Bd12; exact Pipeline.withArrays_of_ne spec3 c _ _ b hb
abbrev Ve12 : (c : Dev nD) → (b : Ref sig .tc) → Buf (Elt F) ((c : Thread nD τ).loc b) := fun c b => Bd12 m ρ c b
theorem hF3 (c : Dev nD) (w : Fin cfg3.W) : (dat3 (Vd11 m ρ) c).arrAt w cfg3.N = Ve12 m ρ c (Pipeline.arrRef spec3 w) :=
  (Bd12_arr m ρ c w).symm
theorem hrest3 (c : Dev nD) : ∀ b, b ∉ Finset.univ.image (Pipeline.arrRef spec3) → Ve12 m ρ c b = Vd11 m ρ c b :=
  fun b hb => Bd12_of_ne m ρ c b fun w e => hb (Finset.mem_image.mpr ⟨w, Finset.mem_univ _, e⟩)
/-- After the host stretch `hostOps4`. -/
abbrev Bd13 : Dev nD → Valuation τ sig (Elt F) := fun c => StableHlo.after hostOps4 (Bd12 m ρ c)
/-- The same read at the TensorCore's references: what region 4 is entered from. -/
abbrev Vd13 : (c : Dev nD) → (b : Ref sig .tc) → Buf (Elt F) ((c : Thread nD τ).loc b) := fun c b => Bd13 m ρ c b
/-- At region 4's exit: its arrays at what the pipeline leaves, every other buffer as entered. -/
def Bd14 (c : Dev nD) : Valuation τ sig (Elt F) :=
  Pipeline.withArrays spec4 c (Bd13 m ρ c) fun w => (dat4 (Vd13 m ρ) c).arrAt w cfg4.N
theorem Bd14_arr (c : Dev nD) (w : Fin cfg4.W) :
    Bd14 m ρ c (Proc.devRef .tc (Pipeline.arrRef spec4 w)) = (dat4 (Vd13 m ρ) c).arrAt w cfg4.N := by
  unfold Bd14; exact Pipeline.withArrays_arr spec4 launch4.win.arr_inj c _ _ w
theorem Bd14_of_ne (c : Dev nD) (b : Ref sig .tc) (hb : ∀ w, Pipeline.arrRef spec4 w ≠ b) :
    Bd14 m ρ c (Proc.devRef .tc b) = Bd13 m ρ c (Proc.devRef .tc b) := by
  unfold Bd14; exact Pipeline.withArrays_of_ne spec4 c _ _ b hb
abbrev Ve14 : (c : Dev nD) → (b : Ref sig .tc) → Buf (Elt F) ((c : Thread nD τ).loc b) := fun c b => Bd14 m ρ c b
theorem hF4 (c : Dev nD) (w : Fin cfg4.W) : (dat4 (Vd13 m ρ) c).arrAt w cfg4.N = Ve14 m ρ c (Pipeline.arrRef spec4 w) :=
  (Bd14_arr m ρ c w).symm
theorem hrest4 (c : Dev nD) : ∀ b, b ∉ Finset.univ.image (Pipeline.arrRef spec4) → Ve14 m ρ c b = Vd13 m ρ c b :=
  fun b hb => Bd14_of_ne m ρ c b fun w e => hb (Finset.mem_image.mpr ⟨w, Finset.mem_univ _, e⟩)
/-- After the host stretch `hostOps5`. -/
abbrev Bd15 : Dev nD → Valuation τ sig (Elt F) := fun c => StableHlo.after hostOps5 (Bd14 m ρ c)
/-- The same read at the TensorCore's references: what region 5 is entered from. -/
abbrev Vd15 : (c : Dev nD) → (b : Ref sig .tc) → Buf (Elt F) ((c : Thread nD τ).loc b) := fun c b => Bd15 m ρ c b
/-- At region 5's exit: its arrays at what the pipeline leaves, every other buffer as entered. -/
def Bd16 (c : Dev nD) : Valuation τ sig (Elt F) :=
  Pipeline.withArrays spec5 c (Bd15 m ρ c) fun w => (dat5 (Vd15 m ρ) c).arrAt w cfg5.N
theorem Bd16_arr (c : Dev nD) (w : Fin cfg5.W) :
    Bd16 m ρ c (Proc.devRef .tc (Pipeline.arrRef spec5 w)) = (dat5 (Vd15 m ρ) c).arrAt w cfg5.N := by
  unfold Bd16; exact Pipeline.withArrays_arr spec5 launch5.win.arr_inj c _ _ w
theorem Bd16_of_ne (c : Dev nD) (b : Ref sig .tc) (hb : ∀ w, Pipeline.arrRef spec5 w ≠ b) :
    Bd16 m ρ c (Proc.devRef .tc b) = Bd15 m ρ c (Proc.devRef .tc b) := by
  unfold Bd16; exact Pipeline.withArrays_of_ne spec5 c _ _ b hb
abbrev Ve16 : (c : Dev nD) → (b : Ref sig .tc) → Buf (Elt F) ((c : Thread nD τ).loc b) := fun c b => Bd16 m ρ c b
theorem hF5 (c : Dev nD) (w : Fin cfg5.W) : (dat5 (Vd15 m ρ) c).arrAt w cfg5.N = Ve16 m ρ c (Pipeline.arrRef spec5 w) :=
  (Bd16_arr m ρ c w).symm
theorem hrest5 (c : Dev nD) : ∀ b, b ∉ Finset.univ.image (Pipeline.arrRef spec5) → Ve16 m ρ c b = Vd15 m ρ c b :=
  fun b hb => Bd16_of_ne m ρ c b fun w e => hb (Finset.mem_image.mpr ⟨w, Finset.mem_univ _, e⟩)
/-- After the host stretch `hostOps6`. -/
abbrev Bd17 : Dev nD → Valuation τ sig (Elt F) := fun c => StableHlo.after hostOps6 (Bd16 m ρ c)
/-- The same read at the TensorCore's references: what region 6 is entered from. -/
abbrev Vd17 : (c : Dev nD) → (b : Ref sig .tc) → Buf (Elt F) ((c : Thread nD τ).loc b) := fun c b => Bd17 m ρ c b
/-- At region 6's exit: its arrays at what the pipeline leaves, every other buffer as entered. -/
def Bd18 (c : Dev nD) : Valuation τ sig (Elt F) :=
  Pipeline.withArrays spec6 c (Bd17 m ρ c) fun w => (dat6 (Vd17 m ρ) c).arrAt w cfg6.N
theorem Bd18_arr (c : Dev nD) (w : Fin cfg6.W) :
    Bd18 m ρ c (Proc.devRef .tc (Pipeline.arrRef spec6 w)) = (dat6 (Vd17 m ρ) c).arrAt w cfg6.N := by
  unfold Bd18; exact Pipeline.withArrays_arr spec6 launch6.win.arr_inj c _ _ w
theorem Bd18_of_ne (c : Dev nD) (b : Ref sig .tc) (hb : ∀ w, Pipeline.arrRef spec6 w ≠ b) :
    Bd18 m ρ c (Proc.devRef .tc b) = Bd17 m ρ c (Proc.devRef .tc b) := by
  unfold Bd18; exact Pipeline.withArrays_of_ne spec6 c _ _ b hb
abbrev Ve18 : (c : Dev nD) → (b : Ref sig .tc) → Buf (Elt F) ((c : Thread nD τ).loc b) := fun c b => Bd18 m ρ c b
theorem hF6 (c : Dev nD) (w : Fin cfg6.W) : (dat6 (Vd17 m ρ) c).arrAt w cfg6.N = Ve18 m ρ c (Pipeline.arrRef spec6 w) :=
  (Bd18_arr m ρ c w).symm
theorem hrest6 (c : Dev nD) : ∀ b, b ∉ Finset.univ.image (Pipeline.arrRef spec6) → Ve18 m ρ c b = Vd17 m ρ c b :=
  fun b hb => Bd18_of_ne m ρ c b fun w e => hb (Finset.mem_image.mpr ⟨w, Finset.mem_univ _, e⟩)

/-! ## No segment changes an argument array -/

theorem Bd18_main_arg0 (c : Dev nD) : Bd18 m ρ c (Proc.devRef .tc main_arg0) = m ((c : Thread nD τ).loc main_arg0) :=
  calc Bd18 m ρ c (Proc.devRef .tc main_arg0)
    _ = Bd17 m ρ c (Proc.devRef .tc main_arg0) := Bd18_of_ne m ρ c main_arg0 (by decide)
    _ = Bd16 m ρ c (Proc.devRef .tc main_arg0) := StableHlo.after_of_writes_sub hostOps6 _ hostOps6_writes (by decide)
    _ = Bd15 m ρ c (Proc.devRef .tc main_arg0) := Bd16_of_ne m ρ c main_arg0 (by decide)
    _ = Bd14 m ρ c (Proc.devRef .tc main_arg0) := StableHlo.after_of_writes_sub hostOps5 _ hostOps5_writes (by decide)
    _ = Bd13 m ρ c (Proc.devRef .tc main_arg0) := Bd14_of_ne m ρ c main_arg0 (by decide)
    _ = Bd12 m ρ c (Proc.devRef .tc main_arg0) := StableHlo.after_of_writes_sub hostOps4 _ hostOps4_writes (by decide)
    _ = Bd11 m ρ c (Proc.devRef .tc main_arg0) := Bd12_of_ne m ρ c main_arg0 (by decide)
    _ = Bd10 m ρ c (Proc.devRef .tc main_arg0) := StableHlo.after_of_writes_sub hostOps3_2 _ hostOps3_2_writes (by decide)
    _ = Bd9 m ρ c (Proc.devRef .tc main_arg0) := StableHlo.after_of_writes_sub hostOps3_1 _ hostOps3_1_writes (by decide)
    _ = Bd8 m ρ c (Proc.devRef .tc main_arg0) := StableHlo.after_of_writes_sub hostOps3 _ hostOps3_writes (by decide)
    _ = Bd7 m ρ c (Proc.devRef .tc main_arg0) := Bd8_of_ne m ρ c main_arg0 (by decide)
    _ = Bd6 m ρ c (Proc.devRef .tc main_arg0) := StableHlo.after_of_writes_sub hostOps2 _ hostOps2_writes (by decide)
    _ = Bd5 m ρ c (Proc.devRef .tc main_arg0) := Bd6_of_ne m ρ c main_arg0 (by decide)
    _ = Bd4 m ρ c (Proc.devRef .tc main_arg0) := StableHlo.after_of_writes_sub hostOps1 _ hostOps1_writes (by decide)
    _ = Bd3 m ρ c (Proc.devRef .tc main_arg0) := (Bd4_arr m ρ c 0).trans (((dat0 (Vd3 m ρ) c).arrAt_in 0 rfl _).trans (A_eq0 (Vd3 m ρ) c 0))
    _ = Bd2 m ρ c (Proc.devRef .tc main_arg0) := StableHlo.after_of_writes_sub hostOps0_2 _ hostOps0_2_writes (by decide)
    _ = Bd1 m ρ c (Proc.devRef .tc main_arg0) := StableHlo.after_of_writes_sub hostOps0_1 _ hostOps0_1_writes (by decide)
    _ = Bd0 m ρ c (Proc.devRef .tc main_arg0) := StableHlo.after_of_writes_sub hostOps0 _ hostOps0_writes (by decide)
    _ = m ((c : Thread nD τ).loc main_arg0) := rfl

theorem Bd18_main_arg1 (c : Dev nD) : Bd18 m ρ c (Proc.devRef .tc main_arg1) = m ((c : Thread nD τ).loc main_arg1) :=
  calc Bd18 m ρ c (Proc.devRef .tc main_arg1)
    _ = Bd17 m ρ c (Proc.devRef .tc main_arg1) := Bd18_of_ne m ρ c main_arg1 (by decide)
    _ = Bd16 m ρ c (Proc.devRef .tc main_arg1) := StableHlo.after_of_writes_sub hostOps6 _ hostOps6_writes (by decide)
    _ = Bd15 m ρ c (Proc.devRef .tc main_arg1) := Bd16_of_ne m ρ c main_arg1 (by decide)
    _ = Bd14 m ρ c (Proc.devRef .tc main_arg1) := StableHlo.after_of_writes_sub hostOps5 _ hostOps5_writes (by decide)
    _ = Bd13 m ρ c (Proc.devRef .tc main_arg1) := Bd14_of_ne m ρ c main_arg1 (by decide)
    _ = Bd12 m ρ c (Proc.devRef .tc main_arg1) := StableHlo.after_of_writes_sub hostOps4 _ hostOps4_writes (by decide)
    _ = Bd11 m ρ c (Proc.devRef .tc main_arg1) := Bd12_of_ne m ρ c main_arg1 (by decide)
    _ = Bd10 m ρ c (Proc.devRef .tc main_arg1) := StableHlo.after_of_writes_sub hostOps3_2 _ hostOps3_2_writes (by decide)
    _ = Bd9 m ρ c (Proc.devRef .tc main_arg1) := StableHlo.after_of_writes_sub hostOps3_1 _ hostOps3_1_writes (by decide)
    _ = Bd8 m ρ c (Proc.devRef .tc main_arg1) := StableHlo.after_of_writes_sub hostOps3 _ hostOps3_writes (by decide)
    _ = Bd7 m ρ c (Proc.devRef .tc main_arg1) := Bd8_of_ne m ρ c main_arg1 (by decide)
    _ = Bd6 m ρ c (Proc.devRef .tc main_arg1) := StableHlo.after_of_writes_sub hostOps2 _ hostOps2_writes (by decide)
    _ = Bd5 m ρ c (Proc.devRef .tc main_arg1) := Bd6_of_ne m ρ c main_arg1 (by decide)
    _ = Bd4 m ρ c (Proc.devRef .tc main_arg1) := StableHlo.after_of_writes_sub hostOps1 _ hostOps1_writes (by decide)
    _ = Bd3 m ρ c (Proc.devRef .tc main_arg1) := Bd4_of_ne m ρ c main_arg1 (by decide)
    _ = Bd2 m ρ c (Proc.devRef .tc main_arg1) := StableHlo.after_of_writes_sub hostOps0_2 _ hostOps0_2_writes (by decide)
    _ = Bd1 m ρ c (Proc.devRef .tc main_arg1) := StableHlo.after_of_writes_sub hostOps0_1 _ hostOps0_1_writes (by decide)
    _ = Bd0 m ρ c (Proc.devRef .tc main_arg1) := StableHlo.after_of_writes_sub hostOps0 _ hostOps0_writes (by decide)
    _ = m ((c : Thread nD τ).loc main_arg1) := rfl

theorem Bd18_main_arg2 (c : Dev nD) : Bd18 m ρ c (Proc.devRef .tc main_arg2) = m ((c : Thread nD τ).loc main_arg2) :=
  calc Bd18 m ρ c (Proc.devRef .tc main_arg2)
    _ = Bd17 m ρ c (Proc.devRef .tc main_arg2) := Bd18_of_ne m ρ c main_arg2 (by decide)
    _ = Bd16 m ρ c (Proc.devRef .tc main_arg2) := StableHlo.after_of_writes_sub hostOps6 _ hostOps6_writes (by decide)
    _ = Bd15 m ρ c (Proc.devRef .tc main_arg2) := Bd16_of_ne m ρ c main_arg2 (by decide)
    _ = Bd14 m ρ c (Proc.devRef .tc main_arg2) := StableHlo.after_of_writes_sub hostOps5 _ hostOps5_writes (by decide)
    _ = Bd13 m ρ c (Proc.devRef .tc main_arg2) := Bd14_of_ne m ρ c main_arg2 (by decide)
    _ = Bd12 m ρ c (Proc.devRef .tc main_arg2) := StableHlo.after_of_writes_sub hostOps4 _ hostOps4_writes (by decide)
    _ = Bd11 m ρ c (Proc.devRef .tc main_arg2) := Bd12_of_ne m ρ c main_arg2 (by decide)
    _ = Bd10 m ρ c (Proc.devRef .tc main_arg2) := StableHlo.after_of_writes_sub hostOps3_2 _ hostOps3_2_writes (by decide)
    _ = Bd9 m ρ c (Proc.devRef .tc main_arg2) := StableHlo.after_of_writes_sub hostOps3_1 _ hostOps3_1_writes (by decide)
    _ = Bd8 m ρ c (Proc.devRef .tc main_arg2) := StableHlo.after_of_writes_sub hostOps3 _ hostOps3_writes (by decide)
    _ = Bd7 m ρ c (Proc.devRef .tc main_arg2) := Bd8_of_ne m ρ c main_arg2 (by decide)
    _ = Bd6 m ρ c (Proc.devRef .tc main_arg2) := StableHlo.after_of_writes_sub hostOps2 _ hostOps2_writes (by decide)
    _ = Bd5 m ρ c (Proc.devRef .tc main_arg2) := Bd6_of_ne m ρ c main_arg2 (by decide)
    _ = Bd4 m ρ c (Proc.devRef .tc main_arg2) := StableHlo.after_of_writes_sub hostOps1 _ hostOps1_writes (by decide)
    _ = Bd3 m ρ c (Proc.devRef .tc main_arg2) := Bd4_of_ne m ρ c main_arg2 (by decide)
    _ = Bd2 m ρ c (Proc.devRef .tc main_arg2) := StableHlo.after_of_writes_sub hostOps0_2 _ hostOps0_2_writes (by decide)
    _ = Bd1 m ρ c (Proc.devRef .tc main_arg2) := StableHlo.after_of_writes_sub hostOps0_1 _ hostOps0_1_writes (by decide)
    _ = Bd0 m ρ c (Proc.devRef .tc main_arg2) := StableHlo.after_of_writes_sub hostOps0 _ hostOps0_writes (by decide)
    _ = m ((c : Thread nD τ).loc main_arg2) := rfl

theorem Bd18_main_arg3 (c : Dev nD) : Bd18 m ρ c (Proc.devRef .tc main_arg3) = m ((c : Thread nD τ).loc main_arg3) :=
  calc Bd18 m ρ c (Proc.devRef .tc main_arg3)
    _ = Bd17 m ρ c (Proc.devRef .tc main_arg3) := Bd18_of_ne m ρ c main_arg3 (by decide)
    _ = Bd16 m ρ c (Proc.devRef .tc main_arg3) := StableHlo.after_of_writes_sub hostOps6 _ hostOps6_writes (by decide)
    _ = Bd15 m ρ c (Proc.devRef .tc main_arg3) := Bd16_of_ne m ρ c main_arg3 (by decide)
    _ = Bd14 m ρ c (Proc.devRef .tc main_arg3) := StableHlo.after_of_writes_sub hostOps5 _ hostOps5_writes (by decide)
    _ = Bd13 m ρ c (Proc.devRef .tc main_arg3) := Bd14_of_ne m ρ c main_arg3 (by decide)
    _ = Bd12 m ρ c (Proc.devRef .tc main_arg3) := StableHlo.after_of_writes_sub hostOps4 _ hostOps4_writes (by decide)
    _ = Bd11 m ρ c (Proc.devRef .tc main_arg3) := Bd12_of_ne m ρ c main_arg3 (by decide)
    _ = Bd10 m ρ c (Proc.devRef .tc main_arg3) := StableHlo.after_of_writes_sub hostOps3_2 _ hostOps3_2_writes (by decide)
    _ = Bd9 m ρ c (Proc.devRef .tc main_arg3) := StableHlo.after_of_writes_sub hostOps3_1 _ hostOps3_1_writes (by decide)
    _ = Bd8 m ρ c (Proc.devRef .tc main_arg3) := StableHlo.after_of_writes_sub hostOps3 _ hostOps3_writes (by decide)
    _ = Bd7 m ρ c (Proc.devRef .tc main_arg3) := Bd8_of_ne m ρ c main_arg3 (by decide)
    _ = Bd6 m ρ c (Proc.devRef .tc main_arg3) := StableHlo.after_of_writes_sub hostOps2 _ hostOps2_writes (by decide)
    _ = Bd5 m ρ c (Proc.devRef .tc main_arg3) := Bd6_of_ne m ρ c main_arg3 (by decide)
    _ = Bd4 m ρ c (Proc.devRef .tc main_arg3) := StableHlo.after_of_writes_sub hostOps1 _ hostOps1_writes (by decide)
    _ = Bd3 m ρ c (Proc.devRef .tc main_arg3) := Bd4_of_ne m ρ c main_arg3 (by decide)
    _ = Bd2 m ρ c (Proc.devRef .tc main_arg3) := StableHlo.after_of_writes_sub hostOps0_2 _ hostOps0_2_writes (by decide)
    _ = Bd1 m ρ c (Proc.devRef .tc main_arg3) := StableHlo.after_of_writes_sub hostOps0_1 _ hostOps0_1_writes (by decide)
    _ = Bd0 m ρ c (Proc.devRef .tc main_arg3) := StableHlo.after_of_writes_sub hostOps0 _ hostOps0_writes (by decide)
    _ = m ((c : Thread nD τ).loc main_arg3) := rfl

theorem Bd18_main_arg4 (c : Dev nD) : Bd18 m ρ c (Proc.devRef .tc main_arg4) = m ((c : Thread nD τ).loc main_arg4) :=
  calc Bd18 m ρ c (Proc.devRef .tc main_arg4)
    _ = Bd17 m ρ c (Proc.devRef .tc main_arg4) := Bd18_of_ne m ρ c main_arg4 (by decide)
    _ = Bd16 m ρ c (Proc.devRef .tc main_arg4) := StableHlo.after_of_writes_sub hostOps6 _ hostOps6_writes (by decide)
    _ = Bd15 m ρ c (Proc.devRef .tc main_arg4) := Bd16_of_ne m ρ c main_arg4 (by decide)
    _ = Bd14 m ρ c (Proc.devRef .tc main_arg4) := StableHlo.after_of_writes_sub hostOps5 _ hostOps5_writes (by decide)
    _ = Bd13 m ρ c (Proc.devRef .tc main_arg4) := Bd14_of_ne m ρ c main_arg4 (by decide)
    _ = Bd12 m ρ c (Proc.devRef .tc main_arg4) := StableHlo.after_of_writes_sub hostOps4 _ hostOps4_writes (by decide)
    _ = Bd11 m ρ c (Proc.devRef .tc main_arg4) := Bd12_of_ne m ρ c main_arg4 (by decide)
    _ = Bd10 m ρ c (Proc.devRef .tc main_arg4) := StableHlo.after_of_writes_sub hostOps3_2 _ hostOps3_2_writes (by decide)
    _ = Bd9 m ρ c (Proc.devRef .tc main_arg4) := StableHlo.after_of_writes_sub hostOps3_1 _ hostOps3_1_writes (by decide)
    _ = Bd8 m ρ c (Proc.devRef .tc main_arg4) := StableHlo.after_of_writes_sub hostOps3 _ hostOps3_writes (by decide)
    _ = Bd7 m ρ c (Proc.devRef .tc main_arg4) := Bd8_of_ne m ρ c main_arg4 (by decide)
    _ = Bd6 m ρ c (Proc.devRef .tc main_arg4) := StableHlo.after_of_writes_sub hostOps2 _ hostOps2_writes (by decide)
    _ = Bd5 m ρ c (Proc.devRef .tc main_arg4) := Bd6_of_ne m ρ c main_arg4 (by decide)
    _ = Bd4 m ρ c (Proc.devRef .tc main_arg4) := StableHlo.after_of_writes_sub hostOps1 _ hostOps1_writes (by decide)
    _ = Bd3 m ρ c (Proc.devRef .tc main_arg4) := (Bd4_arr m ρ c 1).trans (((dat0 (Vd3 m ρ) c).arrAt_in 1 rfl _).trans (A_eq0 (Vd3 m ρ) c 1))
    _ = Bd2 m ρ c (Proc.devRef .tc main_arg4) := StableHlo.after_of_writes_sub hostOps0_2 _ hostOps0_2_writes (by decide)
    _ = Bd1 m ρ c (Proc.devRef .tc main_arg4) := StableHlo.after_of_writes_sub hostOps0_1 _ hostOps0_1_writes (by decide)
    _ = Bd0 m ρ c (Proc.devRef .tc main_arg4) := StableHlo.after_of_writes_sub hostOps0 _ hostOps0_writes (by decide)
    _ = m ((c : Thread nD τ).loc main_arg4) := rfl

theorem Bd18_main_arg5 (c : Dev nD) : Bd18 m ρ c (Proc.devRef .tc main_arg5) = m ((c : Thread nD τ).loc main_arg5) :=
  calc Bd18 m ρ c (Proc.devRef .tc main_arg5)
    _ = Bd17 m ρ c (Proc.devRef .tc main_arg5) := Bd18_of_ne m ρ c main_arg5 (by decide)
    _ = Bd16 m ρ c (Proc.devRef .tc main_arg5) := StableHlo.after_of_writes_sub hostOps6 _ hostOps6_writes (by decide)
    _ = Bd15 m ρ c (Proc.devRef .tc main_arg5) := Bd16_of_ne m ρ c main_arg5 (by decide)
    _ = Bd14 m ρ c (Proc.devRef .tc main_arg5) := StableHlo.after_of_writes_sub hostOps5 _ hostOps5_writes (by decide)
    _ = Bd13 m ρ c (Proc.devRef .tc main_arg5) := Bd14_of_ne m ρ c main_arg5 (by decide)
    _ = Bd12 m ρ c (Proc.devRef .tc main_arg5) := StableHlo.after_of_writes_sub hostOps4 _ hostOps4_writes (by decide)
    _ = Bd11 m ρ c (Proc.devRef .tc main_arg5) := Bd12_of_ne m ρ c main_arg5 (by decide)
    _ = Bd10 m ρ c (Proc.devRef .tc main_arg5) := StableHlo.after_of_writes_sub hostOps3_2 _ hostOps3_2_writes (by decide)
    _ = Bd9 m ρ c (Proc.devRef .tc main_arg5) := StableHlo.after_of_writes_sub hostOps3_1 _ hostOps3_1_writes (by decide)
    _ = Bd8 m ρ c (Proc.devRef .tc main_arg5) := StableHlo.after_of_writes_sub hostOps3 _ hostOps3_writes (by decide)
    _ = Bd7 m ρ c (Proc.devRef .tc main_arg5) := Bd8_of_ne m ρ c main_arg5 (by decide)
    _ = Bd6 m ρ c (Proc.devRef .tc main_arg5) := StableHlo.after_of_writes_sub hostOps2 _ hostOps2_writes (by decide)
    _ = Bd5 m ρ c (Proc.devRef .tc main_arg5) := Bd6_of_ne m ρ c main_arg5 (by decide)
    _ = Bd4 m ρ c (Proc.devRef .tc main_arg5) := StableHlo.after_of_writes_sub hostOps1 _ hostOps1_writes (by decide)
    _ = Bd3 m ρ c (Proc.devRef .tc main_arg5) := Bd4_of_ne m ρ c main_arg5 (by decide)
    _ = Bd2 m ρ c (Proc.devRef .tc main_arg5) := StableHlo.after_of_writes_sub hostOps0_2 _ hostOps0_2_writes (by decide)
    _ = Bd1 m ρ c (Proc.devRef .tc main_arg5) := StableHlo.after_of_writes_sub hostOps0_1 _ hostOps0_1_writes (by decide)
    _ = Bd0 m ρ c (Proc.devRef .tc main_arg5) := StableHlo.after_of_writes_sub hostOps0 _ hostOps0_writes (by decide)
    _ = m ((c : Thread nD τ).loc main_arg5) := rfl

theorem Bd18_main_arg6 (c : Dev nD) : Bd18 m ρ c (Proc.devRef .tc main_arg6) = m ((c : Thread nD τ).loc main_arg6) :=
  calc Bd18 m ρ c (Proc.devRef .tc main_arg6)
    _ = Bd17 m ρ c (Proc.devRef .tc main_arg6) := Bd18_of_ne m ρ c main_arg6 (by decide)
    _ = Bd16 m ρ c (Proc.devRef .tc main_arg6) := StableHlo.after_of_writes_sub hostOps6 _ hostOps6_writes (by decide)
    _ = Bd15 m ρ c (Proc.devRef .tc main_arg6) := Bd16_of_ne m ρ c main_arg6 (by decide)
    _ = Bd14 m ρ c (Proc.devRef .tc main_arg6) := StableHlo.after_of_writes_sub hostOps5 _ hostOps5_writes (by decide)
    _ = Bd13 m ρ c (Proc.devRef .tc main_arg6) := Bd14_of_ne m ρ c main_arg6 (by decide)
    _ = Bd12 m ρ c (Proc.devRef .tc main_arg6) := StableHlo.after_of_writes_sub hostOps4 _ hostOps4_writes (by decide)
    _ = Bd11 m ρ c (Proc.devRef .tc main_arg6) := (Bd12_arr m ρ c 1).trans (((dat3 (Vd11 m ρ) c).arrAt_in 1 rfl _).trans (A_eq3 (Vd11 m ρ) c 1))
    _ = Bd10 m ρ c (Proc.devRef .tc main_arg6) := StableHlo.after_of_writes_sub hostOps3_2 _ hostOps3_2_writes (by decide)
    _ = Bd9 m ρ c (Proc.devRef .tc main_arg6) := StableHlo.after_of_writes_sub hostOps3_1 _ hostOps3_1_writes (by decide)
    _ = Bd8 m ρ c (Proc.devRef .tc main_arg6) := StableHlo.after_of_writes_sub hostOps3 _ hostOps3_writes (by decide)
    _ = Bd7 m ρ c (Proc.devRef .tc main_arg6) := Bd8_of_ne m ρ c main_arg6 (by decide)
    _ = Bd6 m ρ c (Proc.devRef .tc main_arg6) := StableHlo.after_of_writes_sub hostOps2 _ hostOps2_writes (by decide)
    _ = Bd5 m ρ c (Proc.devRef .tc main_arg6) := Bd6_of_ne m ρ c main_arg6 (by decide)
    _ = Bd4 m ρ c (Proc.devRef .tc main_arg6) := StableHlo.after_of_writes_sub hostOps1 _ hostOps1_writes (by decide)
    _ = Bd3 m ρ c (Proc.devRef .tc main_arg6) := Bd4_of_ne m ρ c main_arg6 (by decide)
    _ = Bd2 m ρ c (Proc.devRef .tc main_arg6) := StableHlo.after_of_writes_sub hostOps0_2 _ hostOps0_2_writes (by decide)
    _ = Bd1 m ρ c (Proc.devRef .tc main_arg6) := StableHlo.after_of_writes_sub hostOps0_1 _ hostOps0_1_writes (by decide)
    _ = Bd0 m ρ c (Proc.devRef .tc main_arg6) := StableHlo.after_of_writes_sub hostOps0 _ hostOps0_writes (by decide)
    _ = m ((c : Thread nD τ).loc main_arg6) := rfl

theorem Bd18_main_arg7 (c : Dev nD) : Bd18 m ρ c (Proc.devRef .tc main_arg7) = m ((c : Thread nD τ).loc main_arg7) :=
  calc Bd18 m ρ c (Proc.devRef .tc main_arg7)
    _ = Bd17 m ρ c (Proc.devRef .tc main_arg7) := Bd18_of_ne m ρ c main_arg7 (by decide)
    _ = Bd16 m ρ c (Proc.devRef .tc main_arg7) := StableHlo.after_of_writes_sub hostOps6 _ hostOps6_writes (by decide)
    _ = Bd15 m ρ c (Proc.devRef .tc main_arg7) := Bd16_of_ne m ρ c main_arg7 (by decide)
    _ = Bd14 m ρ c (Proc.devRef .tc main_arg7) := StableHlo.after_of_writes_sub hostOps5 _ hostOps5_writes (by decide)
    _ = Bd13 m ρ c (Proc.devRef .tc main_arg7) := Bd14_of_ne m ρ c main_arg7 (by decide)
    _ = Bd12 m ρ c (Proc.devRef .tc main_arg7) := StableHlo.after_of_writes_sub hostOps4 _ hostOps4_writes (by decide)
    _ = Bd11 m ρ c (Proc.devRef .tc main_arg7) := Bd12_of_ne m ρ c main_arg7 (by decide)
    _ = Bd10 m ρ c (Proc.devRef .tc main_arg7) := StableHlo.after_of_writes_sub hostOps3_2 _ hostOps3_2_writes (by decide)
    _ = Bd9 m ρ c (Proc.devRef .tc main_arg7) := StableHlo.after_of_writes_sub hostOps3_1 _ hostOps3_1_writes (by decide)
    _ = Bd8 m ρ c (Proc.devRef .tc main_arg7) := StableHlo.after_of_writes_sub hostOps3 _ hostOps3_writes (by decide)
    _ = Bd7 m ρ c (Proc.devRef .tc main_arg7) := Bd8_of_ne m ρ c main_arg7 (by decide)
    _ = Bd6 m ρ c (Proc.devRef .tc main_arg7) := StableHlo.after_of_writes_sub hostOps2 _ hostOps2_writes (by decide)
    _ = Bd5 m ρ c (Proc.devRef .tc main_arg7) := Bd6_of_ne m ρ c main_arg7 (by decide)
    _ = Bd4 m ρ c (Proc.devRef .tc main_arg7) := StableHlo.after_of_writes_sub hostOps1 _ hostOps1_writes (by decide)
    _ = Bd3 m ρ c (Proc.devRef .tc main_arg7) := Bd4_of_ne m ρ c main_arg7 (by decide)
    _ = Bd2 m ρ c (Proc.devRef .tc main_arg7) := StableHlo.after_of_writes_sub hostOps0_2 _ hostOps0_2_writes (by decide)
    _ = Bd1 m ρ c (Proc.devRef .tc main_arg7) := StableHlo.after_of_writes_sub hostOps0_1 _ hostOps0_1_writes (by decide)
    _ = Bd0 m ρ c (Proc.devRef .tc main_arg7) := StableHlo.after_of_writes_sub hostOps0 _ hostOps0_writes (by decide)
    _ = m ((c : Thread nD τ).loc main_arg7) := rfl

theorem Bd18_main_arg8 (c : Dev nD) : Bd18 m ρ c (Proc.devRef .tc main_arg8) = m ((c : Thread nD τ).loc main_arg8) :=
  calc Bd18 m ρ c (Proc.devRef .tc main_arg8)
    _ = Bd17 m ρ c (Proc.devRef .tc main_arg8) := (Bd18_arr m ρ c 3).trans (((dat6 (Vd17 m ρ) c).arrAt_in 3 rfl _).trans (A_eq6 (Vd17 m ρ) c 3))
    _ = Bd16 m ρ c (Proc.devRef .tc main_arg8) := StableHlo.after_of_writes_sub hostOps6 _ hostOps6_writes (by decide)
    _ = Bd15 m ρ c (Proc.devRef .tc main_arg8) := Bd16_of_ne m ρ c main_arg8 (by decide)
    _ = Bd14 m ρ c (Proc.devRef .tc main_arg8) := StableHlo.after_of_writes_sub hostOps5 _ hostOps5_writes (by decide)
    _ = Bd13 m ρ c (Proc.devRef .tc main_arg8) := Bd14_of_ne m ρ c main_arg8 (by decide)
    _ = Bd12 m ρ c (Proc.devRef .tc main_arg8) := StableHlo.after_of_writes_sub hostOps4 _ hostOps4_writes (by decide)
    _ = Bd11 m ρ c (Proc.devRef .tc main_arg8) := Bd12_of_ne m ρ c main_arg8 (by decide)
    _ = Bd10 m ρ c (Proc.devRef .tc main_arg8) := StableHlo.after_of_writes_sub hostOps3_2 _ hostOps3_2_writes (by decide)
    _ = Bd9 m ρ c (Proc.devRef .tc main_arg8) := StableHlo.after_of_writes_sub hostOps3_1 _ hostOps3_1_writes (by decide)
    _ = Bd8 m ρ c (Proc.devRef .tc main_arg8) := StableHlo.after_of_writes_sub hostOps3 _ hostOps3_writes (by decide)
    _ = Bd7 m ρ c (Proc.devRef .tc main_arg8) := Bd8_of_ne m ρ c main_arg8 (by decide)
    _ = Bd6 m ρ c (Proc.devRef .tc main_arg8) := StableHlo.after_of_writes_sub hostOps2 _ hostOps2_writes (by decide)
    _ = Bd5 m ρ c (Proc.devRef .tc main_arg8) := Bd6_of_ne m ρ c main_arg8 (by decide)
    _ = Bd4 m ρ c (Proc.devRef .tc main_arg8) := StableHlo.after_of_writes_sub hostOps1 _ hostOps1_writes (by decide)
    _ = Bd3 m ρ c (Proc.devRef .tc main_arg8) := Bd4_of_ne m ρ c main_arg8 (by decide)
    _ = Bd2 m ρ c (Proc.devRef .tc main_arg8) := StableHlo.after_of_writes_sub hostOps0_2 _ hostOps0_2_writes (by decide)
    _ = Bd1 m ρ c (Proc.devRef .tc main_arg8) := StableHlo.after_of_writes_sub hostOps0_1 _ hostOps0_1_writes (by decide)
    _ = Bd0 m ρ c (Proc.devRef .tc main_arg8) := StableHlo.after_of_writes_sub hostOps0 _ hostOps0_writes (by decide)
    _ = m ((c : Thread nD τ).loc main_arg8) := rfl

theorem Bd18_main_arg9 (c : Dev nD) : Bd18 m ρ c (Proc.devRef .tc main_arg9) = m ((c : Thread nD τ).loc main_arg9) :=
  calc Bd18 m ρ c (Proc.devRef .tc main_arg9)
    _ = Bd17 m ρ c (Proc.devRef .tc main_arg9) := Bd18_of_ne m ρ c main_arg9 (by decide)
    _ = Bd16 m ρ c (Proc.devRef .tc main_arg9) := StableHlo.after_of_writes_sub hostOps6 _ hostOps6_writes (by decide)
    _ = Bd15 m ρ c (Proc.devRef .tc main_arg9) := Bd16_of_ne m ρ c main_arg9 (by decide)
    _ = Bd14 m ρ c (Proc.devRef .tc main_arg9) := StableHlo.after_of_writes_sub hostOps5 _ hostOps5_writes (by decide)
    _ = Bd13 m ρ c (Proc.devRef .tc main_arg9) := Bd14_of_ne m ρ c main_arg9 (by decide)
    _ = Bd12 m ρ c (Proc.devRef .tc main_arg9) := StableHlo.after_of_writes_sub hostOps4 _ hostOps4_writes (by decide)
    _ = Bd11 m ρ c (Proc.devRef .tc main_arg9) := Bd12_of_ne m ρ c main_arg9 (by decide)
    _ = Bd10 m ρ c (Proc.devRef .tc main_arg9) := StableHlo.after_of_writes_sub hostOps3_2 _ hostOps3_2_writes (by decide)
    _ = Bd9 m ρ c (Proc.devRef .tc main_arg9) := StableHlo.after_of_writes_sub hostOps3_1 _ hostOps3_1_writes (by decide)
    _ = Bd8 m ρ c (Proc.devRef .tc main_arg9) := StableHlo.after_of_writes_sub hostOps3 _ hostOps3_writes (by decide)
    _ = Bd7 m ρ c (Proc.devRef .tc main_arg9) := Bd8_of_ne m ρ c main_arg9 (by decide)
    _ = Bd6 m ρ c (Proc.devRef .tc main_arg9) := StableHlo.after_of_writes_sub hostOps2 _ hostOps2_writes (by decide)
    _ = Bd5 m ρ c (Proc.devRef .tc main_arg9) := Bd6_of_ne m ρ c main_arg9 (by decide)
    _ = Bd4 m ρ c (Proc.devRef .tc main_arg9) := StableHlo.after_of_writes_sub hostOps1 _ hostOps1_writes (by decide)
    _ = Bd3 m ρ c (Proc.devRef .tc main_arg9) := Bd4_of_ne m ρ c main_arg9 (by decide)
    _ = Bd2 m ρ c (Proc.devRef .tc main_arg9) := StableHlo.after_of_writes_sub hostOps0_2 _ hostOps0_2_writes (by decide)
    _ = Bd1 m ρ c (Proc.devRef .tc main_arg9) := StableHlo.after_of_writes_sub hostOps0_1 _ hostOps0_1_writes (by decide)
    _ = Bd0 m ρ c (Proc.devRef .tc main_arg9) := StableHlo.after_of_writes_sub hostOps0 _ hostOps0_writes (by decide)
    _ = m ((c : Thread nD τ).loc main_arg9) := rfl

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vd3 m ρ) c
  | ⟨1, _⟩ => fun c => dat1 (Vd5 m ρ) c
  | ⟨2, _⟩ => fun c => dat2 (Vd7 m ρ) c
  | ⟨3, _⟩ => fun c => dat3 (Vd11 m ρ) c
  | ⟨4, _⟩ => fun c => dat4 (Vd13 m ρ) c
  | ⟨5, _⟩ => fun c => dat5 (Vd15 m ρ) c
  | ⟨6, _⟩ => fun c => dat6 (Vd17 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd18 m ρ c) ∗ ∃ r, prngReg c r)

/-! ## The regions as segments -/

set_option backward.isDefEq.respectTransparency.types false in
/-- Region 0 over the thread state: entered from every unscoped buffer at `Bd3`, left at `Bd4`. Its arrays are split out
    of the unscoped buffers and put back at the exit contents; the generator register goes into the invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vd3 m ρ) c).loose
  hwaits := Pipeline.hwaits_of_owed_zero _ _ _ _ L lv 0 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vd3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vd3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vd3 m ρ c) (Ve4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd5`, left at `Bd6`. Its arrays are split out
    of the unscoped buffers and put back at the exit contents; the generator register goes into the invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vd5 m ρ) c).loose
  hwaits := Pipeline.hwaits_of_owed_zero _ _ _ _ L lv 1 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vd5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vd5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vd5 m ρ c) (Ve6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd7`, left at `Bd8`. Its arrays are split out
    of the unscoped buffers and put back at the exit contents; the generator register goes into the invariant and comes back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd7 m ρ) c).loose
  hwaits := Pipeline.hwaits_of_owed_zero _ _ _ _ L lv 2 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vd7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vd7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vd7 m ρ c) (Ve8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd11`, left at `Bd12`. Its arrays are split out
    of the unscoped buffers and put back at the exit contents; the generator register goes into the invariant and comes back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vd11 m ρ) c).loose
  hwaits := Pipeline.hwaits_of_owed_zero _ _ _ _ L lv 3 fun _ _ => rfl
  pre c := iprop(StableHlo.held (c : Thread nD τ) (Pipeline.ucRefs τ sig) (Bd11 m ρ c) ∗ R c)
  post c := iprop(StableHlo.held (c : Thread nD τ) (Pipeline.ucRefs τ sig) (Bd12 m ρ c) ∗ R c)
  X c := iprop(∃ r, prngReg c r)
  Y c := iprop(∃ r, prngReg c r)
  Z c := Pipeline.unscopedRest (Ix := Unit) (Name := ℕ) (U := UR sig nD τ) (Lvl := ℕ) spec3 c (Vd11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vd11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vd11 m ρ c) (Ve12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Bd13`, left at `Bd14`. Its arrays are split out
    of the unscoped buffers and put back at the exit contents; the generator register goes into the invariant and comes back;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vd13 m ρ) c).loose
  hwaits := Pipeline.hwaits_of_owed_zero _ _ _ _ L lv 4 fun _ _ => rfl
  pre c := iprop(StableHlo.held (c : Thread nD τ) (Pipeline.ucRefs τ sig) (Bd13 m ρ c) ∗ R c)
  post c := iprop(StableHlo.held (c : Thread nD τ) (Pipeline.ucRefs τ sig) (Bd14 m ρ c) ∗ R c)
  X c := iprop(∃ r, prngReg c r)
  Y c := iprop(∃ r, prngReg c r)
  Z c := Pipeline.unscopedRest (Ix := Unit) (Name := ℕ) (U := UR sig nD τ) (Lvl := ℕ) spec4 c (Vd13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vd13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vd13 m ρ c) (Ve14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Bd15`, left at `Bd16`. Its arrays are split out
    of the unscoped buffers and put back at the exit contents; the generator register goes into the invariant and comes back;
    nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vd15 m ρ) c).loose
  hwaits := Pipeline.hwaits_of_owed_zero _ _ _ _ L lv 5 fun _ _ => rfl
  pre c := iprop(StableHlo.held (c : Thread nD τ) (Pipeline.ucRefs τ sig) (Bd15 m ρ c) ∗ R c)
  post c := iprop(StableHlo.held (c : Thread nD τ) (Pipeline.ucRefs τ sig) (Bd16 m ρ c) ∗ R c)
  X c := iprop(∃ r, prngReg c r)
  Y c := iprop(∃ r, prngReg c r)
  Z c := Pipeline.unscopedRest (Ix := Unit) (Name := ℕ) (U := UR sig nD τ) (Lvl := ℕ) spec5 c (Vd15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vd15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vd15 m ρ c) (Ve16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `Bd17`, left at `Bd18`. Its arrays are split out
    of the unscoped buffers and put back at the exit contents; the generator register goes into the invariant and comes back;
    nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vd17 m ρ) c).loose
  hwaits := Pipeline.hwaits_of_owed_zero _ _ _ _ L lv 6 fun _ _ => rfl
  pre c := iprop(StableHlo.held (c : Thread nD τ) (Pipeline.ucRefs τ sig) (Bd17 m ρ c) ∗ R c)
  post c := iprop(StableHlo.held (c : Thread nD τ) (Pipeline.ucRefs τ sig) (Bd18 m ρ c) ∗ R c)
  X c := iprop(∃ r, prngReg c r)
  Y c := iprop(∃ r, prngReg c r)
  Z c := Pipeline.unscopedRest (Ix := Unit) (Name := ℕ) (U := UR sig nD τ) (Lvl := ℕ) spec6 c (Vd17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vd17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec6 c ⊢ (pdats m ρ 6 c).Φ 0 from hin6 (Vd17 m ρ) c)
    unfold Pipeline.ΦA
    iintro ⟨Hp, -, Hr⟩
    isplitl [Hr]; · iexact Hr
    iexact Hp
  hout c := by
    rw [Pipeline.ownSems0_none]
    refine (show (pdats m ρ 6 c).Φ (Fin.last _) ⊢ Pipeline.ΦA spec6 c from hout6 (Vd17 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vd17 m ρ c) (Ve18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ),
    .host (hseg hostOps3 hostOps3_sub hostOps3_fresh (Bd8 m ρ)),
    .host (hseg hostOps3_1 hostOps3_1_sub hostOps3_1_fresh (Bd9 m ρ)),
    .host (hseg hostOps3_2 hostOps3_2_sub hostOps3_2_fresh (Bd10 m ρ)),
    .region (reg3 m ρ),
    .host (hseg hostOps4 hostOps4_sub hostOps4_fresh (Bd12 m ρ)),
    .region (reg4 m ρ),
    .host (hseg hostOps5 hostOps5_sub hostOps5_fresh (Bd14 m ρ)),
    .region (reg5 m ρ),
    .host (hseg hostOps6 hostOps6_sub hostOps6_fresh (Bd16 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Bd18 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd18 m ρ c) s')
      isplitl [Hh] <;> iassumption)
    (hQ := fun s h => h)

/-- The result array after the run: what the pooling region's write-back leaves in its output window's array. -/
abbrev result (c : Dev nD) : Buf (Elt F) ((c : Thread nD τ).loc main_v101) := (dat6 (Vd17 m ρ) c).arrAt 5 cfg6.N

/-- The run with the result named and every argument array as launched. -/
theorem run_result : θ_run defs (onTc (τ := τ) (main (F := F))) ⟨m, fun _ => 0, ρ⟩ (fun r => ∀ c : Dev nD,
      r.2.mem ((c.tc : Thread nD τ).loc main_v101) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
    ⟨(h c _ (mem_uc main_v101 (by decide))).trans (Bd18_arr m ρ c 5),
     (h c _ (mem_uc main_arg0 (by decide))).trans (Bd18_main_arg0 m ρ c),
     (h c _ (mem_uc main_arg1 (by decide))).trans (Bd18_main_arg1 m ρ c),
     (h c _ (mem_uc main_arg2 (by decide))).trans (Bd18_main_arg2 m ρ c),
     (h c _ (mem_uc main_arg3 (by decide))).trans (Bd18_main_arg3 m ρ c),
     (h c _ (mem_uc main_arg4 (by decide))).trans (Bd18_main_arg4 m ρ c),
     (h c _ (mem_uc main_arg5 (by decide))).trans (Bd18_main_arg5 m ρ c),
     (h c _ (mem_uc main_arg6 (by decide))).trans (Bd18_main_arg6 m ρ c),
     (h c _ (mem_uc main_arg7 (by decide))).trans (Bd18_main_arg7 m ρ c),
     (h c _ (mem_uc main_arg8 (by decide))).trans (Bd18_main_arg8 m ρ c),
     (h c _ (mem_uc main_arg9 (by decide))).trans (Bd18_main_arg9 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c => (h c).2) (run_result m ρ)

end Cert.Kernel.Hand

end
-- ==== Proof.KI.R0.lean ====
/- The frame half of region 0 of @main (custom_call 0, `cc0__project_kernel`, pipeline 0), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (the same
    argument: where the window is not fetched its block index is the previous point's). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out0_2 (x0 : Vec F S10000x128 .f32) (x1 : Vec F S128x128 .f32) : Vec F S10000x128 .f32 :=
  View.canon [⟨r0_2, k0_pay1 (View.ld x0 r0_0) (View.ld x1 r0_1)⟩]

/-- Its store tiles the buffer (checked by evaluation), so it covers it. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, which is run operation by operation. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__project_kernel i arg0 harg0 arg1 harg1 arg2 harg2) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1.lean ====
/- The frame half of region 1 of @main (custom_call 1, `cc1__scale_rows_kernel`, pipeline 1), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (the same
    argument: where the window is not fetched its block index is the previous point's). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0
abbrev r1_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out1_2 (x0 : Vec F S10000x128 .f32) (x1 : Vec F S10000x1 .f32) : Vec F S10000x128 .f32 :=
  View.canon [⟨r1_2, k1_pay1 (View.ld x0 r1_0) (View.ld x1 r1_1)⟩]

/-- Its store tiles the buffer (checked by evaluation), so it covers it. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out1_2` of the inputs': the
    printed function is its skeleton, which is run operation by operation. -/
theorem sound_kernel1 (c : Dev nD) (E : Set ℕ) (i : grid1.Coords) (arg0 : Memref sig .tc .vmem S10000x128 .f32) (harg0 : arg0.IsWhole) (arg1 : Memref sig .tc .vmem S10000x1 .f32) (harg1 : arg1.IsWhole) (arg2 : Memref sig .tc .vmem S10000x128 .f32) (harg2 : arg2.IsWhole)
    (x0 : Vec F S10000x128 .f32) (x1 : Vec F S10000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_rows_kernel i arg0 harg0 arg1 harg1 arg2 harg2) K := by
  simp only [cc1__scale_rows_kernel_eq_skeleton]; unfold cc1__scale_rows_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.R2.lean ====
/- The frame half of region 2 of @main (custom_call 2, `cc2__bias_act_kernel`, pipeline 2), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (the same
    argument: where the window is not fetched its block index is the previous point's). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0
abbrev r2_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out2_2 (x0 : Vec F S10000x128 .f32) (x1 : Vec F S1x128 .f32) : Vec F S10000x128 .f32 :=
  View.canon [⟨r2_2, k2_pay1 (View.ld x0 r2_0) (View.ld x1 r2_1)⟩]

/-- Its store tiles the buffer (checked by evaluation), so it covers it. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out2_2` of the inputs': the
    printed function is its skeleton, which is run operation by operation. -/
theorem sound_kernel2 (c : Dev nD) (E : Set ℕ) (i : grid2.Coords) (arg0 : Memref sig .tc .vmem S10000x128 .f32) (harg0 : arg0.IsWhole) (arg1 : Memref sig .tc .vmem S1x128 .f32) (harg1 : arg1.IsWhole) (arg2 : Memref sig .tc .vmem S10000x128 .f32) (harg2 : arg2.IsWhole)
    (x0 : Vec F S10000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__bias_act_kernel i arg0 harg0 arg1 harg1 arg2 harg2) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.R3.lean ====
/- The frame half of region 3 of @main (custom_call 3, `cc3__project_kernel`, pipeline 3), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (the same
    argument: where the window is not fetched its block index is the previous point's). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out3_2 (x0 : Vec F S10000x128 .f32) (x1 : Vec F S128x128 .f32) : Vec F S10000x128 .f32 :=
  View.canon [⟨r3_2, k3_pay1 (View.ld x0 r3_0) (View.ld x1 r3_1)⟩]

/-- Its store tiles the buffer (checked by evaluation), so it covers it. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out3_2` of the inputs': the
    printed function is its skeleton, which is run operation by operation. -/
theorem sound_kernel3 (c : Dev nD) (E : Set ℕ) (i : grid3.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__project_kernel i arg0 harg0 arg1 harg1 arg2 harg2) K := by
  simp only [cc3__project_kernel_eq_skeleton]; unfold cc3__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.R4.lean ====
/- The frame half of region 4 of @main (custom_call 4, `cc4__scale_rows_kernel`, pipeline 4), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (the same
    argument: where the window is not fetched its block index is the previous point's). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S10000x128 := Rect.unit (s := S10000x128) ![0, 0] S10000x128.size inb_S10000x128_S10000x128_0_0
abbrev r4_1 : Rect S10000x1 := Rect.unit (s := S10000x1) ![0, 0] S10000x1.size inb_S10000x1_S10000x1_0_0
abbrev r4_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out4_2 (x0 : Vec F S10000x128 .f32) (x1 : Vec F S10000x1 .f32) : Vec F S10000x128 .f32 :=
  View.canon [⟨r4_2, k4_pay1 (View.ld x0 r4_0) (View.ld x1 r4_1)⟩]

/-- Its store tiles the buffer (checked by evaluation), so it covers it. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out4_2` of the inputs': the
    printed function is its skeleton, which is run operation by operation. -/
theorem sound_kernel4 (c : Dev nD) (E : Set ℕ) (i : grid4.Coords) (arg0 : Memref sig .tc .vmem S10000x128 .f32) (harg0 : arg0.IsWhole) (arg1 : Memref sig .tc .vmem S10000x1 .f32) (harg1 : arg1.IsWhole) (arg2 : Memref sig .tc .vmem S10000x128 .f32) (harg2 : arg2.IsWhole)
    (x0 : Vec F S10000x128 .f32) (x1 : Vec F S10000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__scale_rows_kernel i arg0 harg0 arg1 harg1 arg2 harg2) K := by
  simp only [cc4__scale_rows_kernel_eq_skeleton]; unfold cc4__scale_rows_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.R5.lean ====
/- The frame half of region 5 of @main (custom_call 5, `cc5__bias_act_kernel`, pipeline 5), at a parameter `V` — the
   TensorCore's buffer contents when the region is entered: each window's block at a point, what the body leaves in
   the output window's buffer, the body's triple, the pipeline's proof data and the body obligation at every point. -/
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (the same
    argument: where the window is not fetched its block index is the previous point's). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0
abbrev r5_2 : Rect S10000x128 := Rect.unit (s := S10000x128) ![0, 0] S10000x128.size inb_S10000x128_S10000x128_0_0

/-! ## What the body leaves in the output window's buffer -/

/-- Window 2's staging buffer after the body, from the input windows' blocks: its one store as a piece (the
    payload is the skeleton's). -/
def out5_2 (x0 : Vec F S10000x128 .f32) (x1 : Vec F S1x128 .f32) : Vec F S10000x128 .f32 :=
  View.canon [⟨r5_2, k5_pay1 (View.ld x0 r5_0) (View.ld x1 r5_1)⟩]

/-- Its store tiles the buffer (checked by evaluation), so it covers it. -/
theorem cover5_2 (p0 : Vec F S10000x128 .f32) (y : S10000x128.Idx) :
    ∃ pc ∈ ([⟨r5_2, p0⟩] : List (View.Piece (Elt F) S10000x128 .f32)), y ∈ pc.1.set :=
  View.cover_of_tiled [⟨r5_2, p0⟩] S10000x128.size (by rfl) y

/-! ## The body's triple -/

set_option maxHeartbeats 1000000 in
/-- The kernel body on whole staging memrefs, the inputs' at read contents `x0`, `x1` and the output's at anything,
    runs to the continuation holding the inputs' as they were and the output's at `out5_2` of the inputs': the
    printed function is its skeleton, which is run operation by operation. -/
theorem sound_kernel5 (c : Dev nD) (E : Set ℕ) (i : grid5.Coords) (arg0 : Memref sig .tc .vmem S10000x128 .f32) (harg0 : arg0.IsWhole) (arg1 : Memref sig .tc .vmem S1x128 .f32) (harg1 : arg1.IsWhole) (arg2 : Memref sig .tc .vmem S10000x128 .f32) (harg2 : arg2.IsWhole)
    (x0 : Vec F S10000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__bias_act_kernel i arg0 harg0 arg1 harg1 arg2 harg2) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at
    point `t` each input's buffer at its block and the output's at `out5_2` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_0`, `before5_1`), so `sound_kernel5`
    applies; the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.R6Runs.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling region (pipeline 6): what its three cases share

The body keeps a 64 x 128 accumulator in a scratch buffer across the 10 grid points: the first point resets it, every point
adds the one-hot(batch block)ᵀ · z block product, the last point divides by the counts, multiplies by the final weight,
adds the bias and stores the 64 x 128 result, the only point at which the output block is written back. -/

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end

/-! ## The body's two branch conditions, decided over the grid -/

/-- The first branch (reset the accumulator): the grid coordinate is 0. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)

/-- The second branch (finish and store the result): the grid coordinate is 9. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
/-- Away from the last point the output window is idle and not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
/-- At the last point it is live. -/
theorem liveAt6_5 : ∀ t : Fin cfg6.N, cond6_1 (grid6.coords t) → cfg6.idle 5 (grid6.coords t) = false := by decide +kernel

/-! ## The memrefs the body is called with -/

/-- One staging buffer of the output window, through which its contents are stated. -/
abbrev VO6_5 : View sig .tc .vmem S64x128 .f32 := (Memref.whole cc6_stg5_0 : Memref sig .tc .vmem S64x128 .f32).view
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x128 .f32 := win6_5.stage (cfg6.slots t 5)
abbrev hs6_5 (t : Fin cfg6.N) : (ms6_5 t).IsWhole := hstage6_5 ((cfg6.slots t 5).cast nbuf6_5)
/-- The accumulator: a whole scoped buffer of the kernel's own. -/
abbrev scM6_0 : Memref sig .tc .vmem S64x128 .f32 := Memref.whole cc6_scratch0
abbrev VS6_0 : View sig .tc .vmem S64x128 .f32 := scM6_0.view

/-- The class invariant with the accumulator split out of the scoped rest, owned at some contents. -/
theorem PhiA6_eq (c : Dev nD) :
    (Pipeline.ΦA spec6 c : sProp 𝕄)
      = iprop(iprop(iprop((∃ d, owns (c : Thread nD τ) scM6_0 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Hand

end
-- ==== Proof.KI.R6A.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first point: the accumulator is reset, then the point's product is added; the output block is left alone. The pieces the stores leave in the accumulator (and in the output block) are the witness the run
    finds. -/
noncomputable def kernelRun6_A (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) :
    Σ' (L5 : List (View.Piece (Elt F) S64x128 .f32)), { LS0 : List (View.Piece (Elt F) S64x128 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨[], ?_, fun xi5 E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KI.R6B.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle point: the point's product is added to the accumulator the point before left; the output block is left alone. The pieces the stores leave in the accumulator (and in the output block) are the witness the run
    finds. -/
noncomputable def kernelRun6_B (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) :
    Σ' (L5 : List (View.Piece (Elt F) S64x128 .f32)), { LS0 : List (View.Piece (Elt F) S64x128 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨[], ?_, fun xi5 E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KI.R6C.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last point: the point's product is added to the accumulator, and the result — the accumulator divided by the counts, times the final weight, plus the bias — is stored into the output block. The pieces the stores leave in the accumulator (and in the output block) are the witness the run
    finds. -/
noncomputable def kernelRun6_C (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) :
    Σ' (L5 : List (View.Piece (Elt F) S64x128 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc6__pool_linear_kernel i arg1 harg1 arg2 harg2 arg3 harg3 arg4 harg4 arg5 harg5 arg6 harg6 arg7 harg7) K } := by
  refine ⟨?_, ?_, fun E K => ?run⟩
  case run =>
    simp only [cc6__pool_linear_kernel_eq_skeleton]; unfold cc6__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.R6.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R6A
import proofs.«145604_j19911468384638_1_alg».proof.Proof.KI.R6B
import proofs.«145604_j19911468384638_1_alg».proof.Proof.KI.R6C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling region (pipeline 6): proof data and body obligation -/

/-- What case A leaves in the output block: its pieces read back (no piece: a placeholder nothing consults, the window being idle and not written back there). -/
def out6_A_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) : Vec F S64x128 .f32 :=
  VO6_5.read (Elt F) (VO6_5.writes (Elt F) VO6_5.junk (kernelRun6_A c i arg1 harg1 arg2 harg2 arg3 harg3 arg4 harg4 arg5 harg5 arg6 harg6 arg7 harg7 hc0 hc1 x0 x1 x2 x3 x4).1)

/-- Case A's stores cover the accumulator. -/
theorem scover6_A_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) (y : S64x128.Idx) :
    ∃ pc ∈ (kernelRun6_A c i arg1 harg1 arg2 harg2 arg3 harg3 arg4 harg4 arg5 harg5 arg6 harg6 arg7 harg7 hc0 hc1 x0 x1 x2 x3 x4).2.1, y ∈ pc.1.set :=
  View.cover_of_tiledL (kernelRun6_A c i arg1 harg1 arg2 harg2 arg3 harg3 arg4 harg4 arg5 harg5 arg6 harg6 arg7 harg7 hc0 hc1 x0 x1 x2 x3 x4).2.1 S64x128.size (by sl_kernel_rfl) y

/-- What case A leaves in the accumulator. -/
def sout6_A_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) : Vec F S64x128 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3 x4).2.1)

/-- What case B leaves in the output block: its pieces read back (no piece: a placeholder nothing consults, the window being idle and not written back there). -/
def out6_B_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VO6_5.read (Elt F) (VO6_5.writes (Elt F) VO6_5.junk (kernelRun6_B c i arg1 harg1 arg2 harg2 arg3 harg3 arg4 harg4 arg5 harg5 arg6 harg6 arg7 harg7 hc0 hc1 x0 x1 x2 x3 x4 xs0).1)

/-- Case B's stores cover the accumulator. -/
theorem scover6_B_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_B c i arg1 harg1 arg2 harg2 arg3 harg3 arg4 harg4 arg5 harg5 arg6 harg6 arg7 harg7 hc0 hc1 x0 x1 x2 x3 x4 xs0).2.1, y ∈ pc.1.set :=
  View.cover_of_tiledL (kernelRun6_B c i arg1 harg1 arg2 harg2 arg3 harg3 arg4 harg4 arg5 harg5 arg6 harg6 arg7 harg7 hc0 hc1 x0 x1 x2 x3 x4 xs0).2.1 S64x128.size (by sl_kernel_rfl) y

/-- What case B leaves in the accumulator. -/
def sout6_B_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 x4 xs0).2.1)

/-- What case C leaves in the output block: its pieces read back (the stored result). -/
def out6_C_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VO6_5.read (Elt F) (VO6_5.writes (Elt F) VO6_5.junk (kernelRun6_C c i arg1 harg1 arg2 harg2 arg3 harg3 arg4 harg4 arg5 harg5 arg6 harg6 arg7 harg7 hc0 hc1 x0 x1 x2 x3 x4 xs0).1)

/-- The last point's store covers the output block. -/
theorem cover6_C_5 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_C c i arg1 harg1 arg2 harg2 arg3 harg3 arg4 harg4 arg5 harg5 arg6 harg6 arg7 harg7 hc0 hc1 x0 x1 x2 x3 x4 xs0).1, y ∈ pc.1.set :=
  View.cover_of_tiledL (kernelRun6_C c i arg1 harg1 arg2 harg2 arg3 harg3 arg4 harg4 arg5 harg5 arg6 harg6 arg7 harg7 hc0 hc1 x0 x1 x2 x3 x4 xs0).1 S64x128.size (by sl_kernel_rfl) y

/-- Case C's stores cover the accumulator. -/
theorem scover6_C_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) (y : S64x128.Idx) :
    ∃ pc ∈ (kernelRun6_C c i arg1 harg1 arg2 harg2 arg3 harg3 arg4 harg4 arg5 harg5 arg6 harg6 arg7 harg7 hc0 hc1 x0 x1 x2 x3 x4 xs0).2.1, y ∈ pc.1.set :=
  View.cover_of_tiledL (kernelRun6_C c i arg1 harg1 arg2 harg2 arg3 harg3 arg4 harg4 arg5 harg5 arg6 harg6 arg7 harg7 hc0 hc1 x0 x1 x2 x3 x4 xs0).2.1 S64x128.size (by sl_kernel_rfl) y

/-- What case C leaves in the accumulator. -/
def sout6_C_0 (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) : Vec F S64x128 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 x4 xs0).2.1)

section
variable (V : (c : Dev nD) → (b : Ref sig .tc) → Buf (Elt F) ((c : Thread nD τ).loc b))

/-! ## What the output block and the accumulator hold after each point -/

/-- After the body at position `n`: (the output block, the accumulator). The accumulator after point `n` is the case's stores
    over what point `n - 1` left; the output block is the stored result at the last point and a placeholder elsewhere. -/
def outsAt6 (c : Dev nD) : (n : ℕ) → n < cfg6.N → Vec F S64x128 .f32 × Vec F S64x128 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)

theorem outsAt6_A (c : Dev nD) (t : Fin cfg6.N) (h0 : t.val % 10 = 0) (h1 : ¬t.val % 10 = 9) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- Pipeline 6's proof data on core `c`: the arrays as the region finds them; after the body each input's buffer at its
    block and the output's at `outsAt6`'s first component; the invariant carrying the accumulator; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point: the inputs' memrefs hold their blocks; the closed forms of the two conditions say which of the
    three cases the point is in; the invariant hands the body the accumulator at what the point before left (at anything at
    the first point) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val % 10 = 0
  · by_cases h1 : t.val % 10 = 9
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A_0; (try dsimp only)
      by_cases hz : t.val = 0
      · rw [PhiS6_castSucc V c t, PhiS6_zero V c _ _ hz, PhiA6_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_A_0 _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 10 = 9
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t ((hcond6_1 t).mpr h1)], after6_5]
      rw [outsAt6_C V c t h0 h1]
      unfold out6_C_5 sout6_C_0; (try dsimp only)
      by_cases hz : t.val = 0
      · exfalso; omega
      · rw [PhiS6_castSucc V c t, PhiS6_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_C_0 _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 _ _ _ _ _ _ _ _ _ _ _ _ _ _ _ _ _ _ _ _ _ _ _ _)
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B_0; (try dsimp only)
      by_cases hz : t.val = 0
      · exfalso; omega
      · rw [PhiS6_castSucc V c t, PhiS6_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_B_0 _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulator's contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨HS0, Hrest⟩, Hg⟩
  isplitl [HS0 Hrest]
  · isplitl [HS0]
    · iexists _; iexact HS0
    iexact Hrest
  iexact Hg

end

end Cert.KernelIdeal.Hand

end
-- ==== Proof.KI.Run.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R0
import proofs.«145604_j19911468384638_1_alg».proof.Proof.KI.R1
import proofs.«145604_j19911468384638_1_alg».proof.Proof.KI.R2
import proofs.«145604_j19911468384638_1_alg».proof.Proof.KI.R3
import proofs.«145604_j19911468384638_1_alg».proof.Proof.KI.R4
import proofs.«145604_j19911468384638_1_alg».proof.Proof.KI.R5
import proofs.«145604_j19911468384638_1_alg».proof.Proof.KI.R6
import proofs.«145604_j19911468384638_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: seven kernel regions among eleven stretches of host operations

The buffers' contents at each boundary are a fold from the launch memory: a host stretch applies its operations, a region
replaces its windows' arrays by what the pipeline's write-backs leave. Every region is entered from "every unscoped buffer at
the boundary's contents, the generator register at some state, nothing owed" and left in the same shape at the next
boundary's contents, so the eighteen segments chain. -/

variable (m : (ℓ : Loc nD τ sig) → Buf (Elt F) ℓ) (ρ : Dev nD → PrngReg)

/-- Core `c`'s buffers at launch. -/
abbrev Bd0 : Dev nD → Valuation τ sig (Elt F) := fun c b => (s₀ m ρ).mem ((c : Dev nD), b)
/-- After the host stretch `hostOps0`. -/
abbrev Bd1 : Dev nD → Valuation τ sig (Elt F) := fun c => StableHlo.after hostOps0 (Bd0 m ρ c)
/-- After the host stretch `hostOps0_1`. -/
abbrev Bd2 : Dev nD → Valuation τ sig (Elt F) := fun c => StableHlo.after hostOps0_1 (Bd1 m ρ c)
/-- After the host stretch `hostOps0_2`. -/
abbrev Bd3 : Dev nD → Valuation τ sig (Elt F) := fun c => StableHlo.after hostOps0_2 (Bd2 m ρ c)
/-- The same read at the TensorCore's references: what region 0 is entered from. -/
abbrev Vd3 : (c : Dev nD) → (b : Ref sig .tc) → Buf (Elt F) ((c : Thread nD τ).loc b) := fun c b => Bd3 m ρ c b
/-- At region 0's exit: its arrays at what the pipeline leaves, every other buffer as entered. -/
def Bd4 (c : Dev nD) : Valuation τ sig (Elt F) :=
  Pipeline.withArrays spec0 c (Bd3 m ρ c) fun w => (dat0 (Vd3 m ρ) c).arrAt w cfg0.N
theorem Bd4_arr (c : Dev nD) (w : Fin cfg0.W) :
    Bd4 m ρ c (Proc.devRef .tc (Pipeline.arrRef spec0 w)) = (dat0 (Vd3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
abbrev Ve4 : (c : Dev nD) → (b : Ref sig .tc) → Buf (Elt F) ((c : Thread nD τ).loc b) := fun c b => Bd4 m ρ c b
theorem hF0 (c : Dev nD) (w : Fin cfg0.W) : (dat0 (Vd3 m ρ) c).arrAt w cfg0.N = Ve4 m ρ c (Pipeline.arrRef spec0 w) :=
  (Bd4_arr m ρ c w).symm
theorem hrest0 (c : Dev nD) : ∀ b, b ∉ Finset.univ.image (Pipeline.arrRef spec0) → Ve4 m ρ c b = Vd3 m ρ c b :=
  fun b hb => Bd4_of_ne m ρ c b fun w e => hb (Finset.mem_image.mpr ⟨w, Finset.mem_univ _, e⟩)
/-- After the host stretch `hostOps1`. -/
abbrev Bd5 : Dev nD → Valuation τ sig (Elt F) := fun c => StableHlo.after hostOps1 (Bd4 m ρ c)
/-- The same read at the TensorCore's references: what region 1 is entered from. -/
abbrev Vd5 : (c : Dev nD) → (b : Ref sig .tc) → Buf (Elt F) ((c : Thread nD τ).loc b) := fun c b => Bd5 m ρ c b
/-- At region 1's exit: its arrays at what the pipeline leaves, every other buffer as entered. -/
def Bd6 (c : Dev nD) : Valuation τ sig (Elt F) :=
  Pipeline.withArrays spec1 c (Bd5 m ρ c) fun w => (dat1 (Vd5 m ρ) c).arrAt w cfg1.N
theorem Bd6_arr (c : Dev nD) (w : Fin cfg1.W) :
    Bd6 m ρ c (Proc.devRef .tc (Pipeline.arrRef spec1 w)) = (dat1 (Vd5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
abbrev Ve6 : (c : Dev nD) → (b : Ref sig .tc) → Buf (Elt F) ((c : Thread nD τ).loc b) := fun c b => Bd6 m ρ c b
theorem hF1 (c : Dev nD) (w : Fin cfg1.W) : (dat1 (Vd5 m ρ) c).arrAt w cfg1.N = Ve6 m ρ c (Pipeline.arrRef spec1 w) :=
  (Bd6_arr m ρ c w).symm
theorem hrest1 (c : Dev nD) : ∀ b, b ∉ Finset.univ.image (Pipeline.arrRef spec1) → Ve6 m ρ c b = Vd5 m ρ c b :=
  fun b hb => Bd6_of_ne m ρ c b fun w e => hb (Finset.mem_image.mpr ⟨w, Finset.mem_univ _, e⟩)
/-- After the host stretch `hostOps2`. -/
abbrev Bd7 : Dev nD → Valuation τ sig (Elt F) := fun c => StableHlo.after hostOps2 (Bd6 m ρ c)
/-- The same read at the TensorCore's references: what region 2 is entered from. -/
abbrev Vd7 : (c : Dev nD) → (b : Ref sig .tc) → Buf (Elt F) ((c : Thread nD τ).loc b) := fun c b => Bd7 m ρ c b
/-- At region 2's exit: its arrays at what the pipeline leaves, every other buffer as entered. -/
def Bd8 (c : Dev nD) : Valuation τ sig (Elt F) :=
  Pipeline.withArrays spec2 c (Bd7 m ρ c) fun w => (dat2 (Vd7 m ρ) c).arrAt w cfg2.N
theorem Bd8_arr (c : Dev nD) (w : Fin cfg2.W) :
    Bd8 m ρ c (Proc.devRef .tc (Pipeline.arrRef spec2 w)) = (dat2 (Vd7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
abbrev Ve8 : (c : Dev nD) → (b : Ref sig .tc) → Buf (Elt F) ((c : Thread nD τ).loc b) := fun c b => Bd8 m ρ c b
theorem hF2 (c : Dev nD) (w : Fin cfg2.W) : (dat2 (Vd7 m ρ) c).arrAt w cfg2.N = Ve8 m ρ c (Pipeline.arrRef spec2 w) :=
  (Bd8_arr m ρ c w).symm
theorem hrest2 (c : Dev nD) : ∀ b, b ∉ Finset.univ.image (Pipeline.arrRef spec2) → Ve8 m ρ c b = Vd7 m ρ c b :=
  fun b hb => Bd8_of_ne m ρ c b fun w e => hb (Finset.mem_image.mpr ⟨w, Finset.mem_univ _, e⟩)
/-- After the host stretch `hostOps3`. -/
abbrev Bd9 : Dev nD → Valuation τ sig (Elt F) := fun c => StableHlo.after hostOps3 (Bd8 m ρ c)
/-- After the host stretch `hostOps3_1`. -/
abbrev Bd10 : Dev nD → Valuation τ sig (Elt F) := fun c => StableHlo.after hostOps3_1 (Bd9 m ρ c)
/-- After the host stretch `hostOps3_2`. -/
abbrev Bd11 : Dev nD → Valuation τ sig (Elt F) := fun c => StableHlo.after hostOps3_2 (Bd10 m ρ c)
/-- The same read at the TensorCore's references: what region 3 is entered from. -/
abbrev Vd11 : (c : Dev nD) → (b : Ref sig .tc) → Buf (Elt F) ((c : Thread nD τ).loc b) := fun c b => Bd11 m ρ c b
/-- At region 3's exit: its arrays at what the pipeline leaves, every other buffer as entered. -/
def Bd12 (c : Dev nD) : Valuation τ sig (Elt F) :=
  Pipeline.withArrays spec3 c (Bd11 m ρ c) fun w => (dat3 (Vd11 m ρ) c).arrAt w cfg3.N
theorem Bd12_arr (c : Dev nD) (w : Fin cfg3.W) :
    Bd12 m ρ c (Proc.devRef .tc (Pipeline.arrRef spec3 w)) = (dat3 (Vd11 m ρ) c).arrAt w cfg3.N := by
  unfold Bd12; exact Pipeline.withArrays_arr spec3 launch3.win.arr_inj c _ _ w
theorem Bd12_of_ne (c : Dev nD) (b : Ref sig .tc) (hb : ∀ w, Pipeline.arrRef spec3 w ≠ b) :
    Bd12 m ρ c (Proc.devRef .tc b) = Bd11 m ρ c (Proc.devRef .tc b) := by
  unfold Bd12; exact Pipeline.withArrays_of_ne spec3 c _ _ b hb
abbrev Ve12 : (c : Dev nD) → (b : Ref sig .tc) → Buf (Elt F) ((c : Thread nD τ).loc b) := fun c b => Bd12 m ρ c b
theorem hF3 (c : Dev nD) (w : Fin cfg3.W) : (dat3 (Vd11 m ρ) c).arrAt w cfg3.N = Ve12 m ρ c (Pipeline.arrRef spec3 w) :=
  (Bd12_arr m ρ c w).symm
theorem hrest3 (c : Dev nD) : ∀ b, b ∉ Finset.univ.image (Pipeline.arrRef spec3) → Ve12 m ρ c b = Vd11 m ρ c b :=
  fun b hb => Bd12_of_ne m ρ c b fun w e => hb (Finset.mem_image.mpr ⟨w, Finset.mem_univ _, e⟩)
/-- After the host stretch `hostOps4`. -/
abbrev Bd13 : Dev nD → Valuation τ sig (Elt F) := fun c => StableHlo.after hostOps4 (Bd12 m ρ c)
/-- The same read at the TensorCore's references: what region 4 is entered from. -/
abbrev Vd13 : (c : Dev nD) → (b : Ref sig .tc) → Buf (Elt F) ((c : Thread nD τ).loc b) := fun c b => Bd13 m ρ c b
/-- At region 4's exit: its arrays at what the pipeline leaves, every other buffer as entered. -/
def Bd14 (c : Dev nD) : Valuation τ sig (Elt F) :=
  Pipeline.withArrays spec4 c (Bd13 m ρ c) fun w => (dat4 (Vd13 m ρ) c).arrAt w cfg4.N
theorem Bd14_arr (c : Dev nD) (w : Fin cfg4.W) :
    Bd14 m ρ c (Proc.devRef .tc (Pipeline.arrRef spec4 w)) = (dat4 (Vd13 m ρ) c).arrAt w cfg4.N := by
  unfold Bd14; exact Pipeline.withArrays_arr spec4 launch4.win.arr_inj c _ _ w
theorem Bd14_of_ne (c : Dev nD) (b : Ref sig .tc) (hb : ∀ w, Pipeline.arrRef spec4 w ≠ b) :
    Bd14 m ρ c (Proc.devRef .tc b) = Bd13 m ρ c (Proc.devRef .tc b) := by
  unfold Bd14; exact Pipeline.withArrays_of_ne spec4 c _ _ b hb
abbrev Ve14 : (c : Dev nD) → (b : Ref sig .tc) → Buf (Elt F) ((c : Thread nD τ).loc b) := fun c b => Bd14 m ρ c b
theorem hF4 (c : Dev nD) (w : Fin cfg4.W) : (dat4 (Vd13 m ρ) c).arrAt w cfg4.N = Ve14 m ρ c (Pipeline.arrRef spec4 w) :=
  (Bd14_arr m ρ c w).symm
theorem hrest4 (c : Dev nD) : ∀ b, b ∉ Finset.univ.image (Pipeline.arrRef spec4) → Ve14 m ρ c b = Vd13 m ρ c b :=
  fun b hb => Bd14_of_ne m ρ c b fun w e => hb (Finset.mem_image.mpr ⟨w, Finset.mem_univ _, e⟩)
/-- After the host stretch `hostOps5`. -/
abbrev Bd15 : Dev nD → Valuation τ sig (Elt F) := fun c => StableHlo.after hostOps5 (Bd14 m ρ c)
/-- The same read at the TensorCore's references: what region 5 is entered from. -/
abbrev Vd15 : (c : Dev nD) → (b : Ref sig .tc) → Buf (Elt F) ((c : Thread nD τ).loc b) := fun c b => Bd15 m ρ c b
/-- At region 5's exit: its arrays at what the pipeline leaves, every other buffer as entered. -/
def Bd16 (c : Dev nD) : Valuation τ sig (Elt F) :=
  Pipeline.withArrays spec5 c (Bd15 m ρ c) fun w => (dat5 (Vd15 m ρ) c).arrAt w cfg5.N
theorem Bd16_arr (c : Dev nD) (w : Fin cfg5.W) :
    Bd16 m ρ c (Proc.devRef .tc (Pipeline.arrRef spec5 w)) = (dat5 (Vd15 m ρ) c).arrAt w cfg5.N := by
  unfold Bd16; exact Pipeline.withArrays_arr spec5 launch5.win.arr_inj c _ _ w
theorem Bd16_of_ne (c : Dev nD) (b : Ref sig .tc) (hb : ∀ w, Pipeline.arrRef spec5 w ≠ b) :
    Bd16 m ρ c (Proc.devRef .tc b) = Bd15 m ρ c (Proc.devRef .tc b) := by
  unfold Bd16; exact Pipeline.withArrays_of_ne spec5 c _ _ b hb
abbrev Ve16 : (c : Dev nD) → (b : Ref sig .tc) → Buf (Elt F) ((c : Thread nD τ).loc b) := fun c b => Bd16 m ρ c b
theorem hF5 (c : Dev nD) (w : Fin cfg5.W) : (dat5 (Vd15 m ρ) c).arrAt w cfg5.N = Ve16 m ρ c (Pipeline.arrRef spec5 w) :=
  (Bd16_arr m ρ c w).symm
theorem hrest5 (c : Dev nD) : ∀ b, b ∉ Finset.univ.image (Pipeline.arrRef spec5) → Ve16 m ρ c b = Vd15 m ρ c b :=
  fun b hb => Bd16_of_ne m ρ c b fun w e => hb (Finset.mem_image.mpr ⟨w, Finset.mem_univ _, e⟩)
/-- After the host stretch `hostOps6`. -/
abbrev Bd17 : Dev nD → Valuation τ sig (Elt F) := fun c => StableHlo.after hostOps6 (Bd16 m ρ c)
/-- The same read at the TensorCore's references: what region 6 is entered from. -/
abbrev Vd17 : (c : Dev nD) → (b : Ref sig .tc) → Buf (Elt F) ((c : Thread nD τ).loc b) := fun c b => Bd17 m ρ c b
/-- At region 6's exit: its arrays at what the pipeline leaves, every other buffer as entered. -/
def Bd18 (c : Dev nD) : Valuation τ sig (Elt F) :=
  Pipeline.withArrays spec6 c (Bd17 m ρ c) fun w => (dat6 (Vd17 m ρ) c).arrAt w cfg6.N
theorem Bd18_arr (c : Dev nD) (w : Fin cfg6.W) :
    Bd18 m ρ c (Proc.devRef .tc (Pipeline.arrRef spec6 w)) = (dat6 (Vd17 m ρ) c).arrAt w cfg6.N := by
  unfold Bd18; exact Pipeline.withArrays_arr spec6 launch6.win.arr_inj c _ _ w
theorem Bd18_of_ne (c : Dev nD) (b : Ref sig .tc) (hb : ∀ w, Pipeline.arrRef spec6 w ≠ b) :
    Bd18 m ρ c (Proc.devRef .tc b) = Bd17 m ρ c (Proc.devRef .tc b) := by
  unfold Bd18; exact Pipeline.withArrays_of_ne spec6 c _ _ b hb
abbrev Ve18 : (c : Dev nD) → (b : Ref sig .tc) → Buf (Elt F) ((c : Thread nD τ).loc b) := fun c b => Bd18 m ρ c b
theorem hF6 (c : Dev nD) (w : Fin cfg6.W) : (dat6 (Vd17 m ρ) c).arrAt w cfg6.N = Ve18 m ρ c (Pipeline.arrRef spec6 w) :=
  (Bd18_arr m ρ c w).symm
theorem hrest6 (c : Dev nD) : ∀ b, b ∉ Finset.univ.image (Pipeline.arrRef spec6) → Ve18 m ρ c b = Vd17 m ρ c b :=
  fun b hb => Bd18_of_ne m ρ c b fun w e => hb (Finset.mem_image.mpr ⟨w, Finset.mem_univ _, e⟩)

/-! ## No segment changes an argument array -/

theorem Bd18_main_arg0 (c : Dev nD) : Bd18 m ρ c (Proc.devRef .tc main_arg0) = m ((c : Thread nD τ).loc main_arg0) :=
  calc Bd18 m ρ c (Proc.devRef .tc main_arg0)
    _ = Bd17 m ρ c (Proc.devRef .tc main_arg0) := Bd18_of_ne m ρ c main_arg0 (by decide)
    _ = Bd16 m ρ c (Proc.devRef .tc main_arg0) := StableHlo.after_of_writes_sub hostOps6 _ hostOps6_writes (by decide)
    _ = Bd15 m ρ c (Proc.devRef .tc main_arg0) := Bd16_of_ne m ρ c main_arg0 (by decide)
    _ = Bd14 m ρ c (Proc.devRef .tc main_arg0) := StableHlo.after_of_writes_sub hostOps5 _ hostOps5_writes (by decide)
    _ = Bd13 m ρ c (Proc.devRef .tc main_arg0) := Bd14_of_ne m ρ c main_arg0 (by decide)
    _ = Bd12 m ρ c (Proc.devRef .tc main_arg0) := StableHlo.after_of_writes_sub hostOps4 _ hostOps4_writes (by decide)
    _ = Bd11 m ρ c (Proc.devRef .tc main_arg0) := Bd12_of_ne m ρ c main_arg0 (by decide)
    _ = Bd10 m ρ c (Proc.devRef .tc main_arg0) := StableHlo.after_of_writes_sub hostOps3_2 _ hostOps3_2_writes (by decide)
    _ = Bd9 m ρ c (Proc.devRef .tc main_arg0) := StableHlo.after_of_writes_sub hostOps3_1 _ hostOps3_1_writes (by decide)
    _ = Bd8 m ρ c (Proc.devRef .tc main_arg0) := StableHlo.after_of_writes_sub hostOps3 _ hostOps3_writes (by decide)
    _ = Bd7 m ρ c (Proc.devRef .tc main_arg0) := Bd8_of_ne m ρ c main_arg0 (by decide)
    _ = Bd6 m ρ c (Proc.devRef .tc main_arg0) := StableHlo.after_of_writes_sub hostOps2 _ hostOps2_writes (by decide)
    _ = Bd5 m ρ c (Proc.devRef .tc main_arg0) := Bd6_of_ne m ρ c main_arg0 (by decide)
    _ = Bd4 m ρ c (Proc.devRef .tc main_arg0) := StableHlo.after_of_writes_sub hostOps1 _ hostOps1_writes (by decide)
    _ = Bd3 m ρ c (Proc.devRef .tc main_arg0) := (Bd4_arr m ρ c 0).trans (((dat0 (Vd3 m ρ) c).arrAt_in 0 rfl _).trans (A_eq0 (Vd3 m ρ) c 0))
    _ = Bd2 m ρ c (Proc.devRef .tc main_arg0) := StableHlo.after_of_writes_sub hostOps0_2 _ hostOps0_2_writes (by decide)
    _ = Bd1 m ρ c (Proc.devRef .tc main_arg0) := StableHlo.after_of_writes_sub hostOps0_1 _ hostOps0_1_writes (by decide)
    _ = Bd0 m ρ c (Proc.devRef .tc main_arg0) := StableHlo.after_of_writes_sub hostOps0 _ hostOps0_writes (by decide)
    _ = m ((c : Thread nD τ).loc main_arg0) := rfl

theorem Bd18_main_arg1 (c : Dev nD) : Bd18 m ρ c (Proc.devRef .tc main_arg1) = m ((c : Thread nD τ).loc main_arg1) :=
  calc Bd18 m ρ c (Proc.devRef .tc main_arg1)
    _ = Bd17 m ρ c (Proc.devRef .tc main_arg1) := Bd18_of_ne m ρ c main_arg1 (by decide)
    _ = Bd16 m ρ c (Proc.devRef .tc main_arg1) := StableHlo.after_of_writes_sub hostOps6 _ hostOps6_writes (by decide)
    _ = Bd15 m ρ c (Proc.devRef .tc main_arg1) := Bd16_of_ne m ρ c main_arg1 (by decide)
    _ = Bd14 m ρ c (Proc.devRef .tc main_arg1) := StableHlo.after_of_writes_sub hostOps5 _ hostOps5_writes (by decide)
    _ = Bd13 m ρ c (Proc.devRef .tc main_arg1) := Bd14_of_ne m ρ c main_arg1 (by decide)
    _ = Bd12 m ρ c (Proc.devRef .tc main_arg1) := StableHlo.after_of_writes_sub hostOps4 _ hostOps4_writes (by decide)
    _ = Bd11 m ρ c (Proc.devRef .tc main_arg1) := Bd12_of_ne m ρ c main_arg1 (by decide)
    _ = Bd10 m ρ c (Proc.devRef .tc main_arg1) := StableHlo.after_of_writes_sub hostOps3_2 _ hostOps3_2_writes (by decide)
    _ = Bd9 m ρ c (Proc.devRef .tc main_arg1) := StableHlo.after_of_writes_sub hostOps3_1 _ hostOps3_1_writes (by decide)
    _ = Bd8 m ρ c (Proc.devRef .tc main_arg1) := StableHlo.after_of_writes_sub hostOps3 _ hostOps3_writes (by decide)
    _ = Bd7 m ρ c (Proc.devRef .tc main_arg1) := Bd8_of_ne m ρ c main_arg1 (by decide)
    _ = Bd6 m ρ c (Proc.devRef .tc main_arg1) := StableHlo.after_of_writes_sub hostOps2 _ hostOps2_writes (by decide)
    _ = Bd5 m ρ c (Proc.devRef .tc main_arg1) := Bd6_of_ne m ρ c main_arg1 (by decide)
    _ = Bd4 m ρ c (Proc.devRef .tc main_arg1) := StableHlo.after_of_writes_sub hostOps1 _ hostOps1_writes (by decide)
    _ = Bd3 m ρ c (Proc.devRef .tc main_arg1) := Bd4_of_ne m ρ c main_arg1 (by decide)
    _ = Bd2 m ρ c (Proc.devRef .tc main_arg1) := StableHlo.after_of_writes_sub hostOps0_2 _ hostOps0_2_writes (by decide)
    _ = Bd1 m ρ c (Proc.devRef .tc main_arg1) := StableHlo.after_of_writes_sub hostOps0_1 _ hostOps0_1_writes (by decide)
    _ = Bd0 m ρ c (Proc.devRef .tc main_arg1) := StableHlo.after_of_writes_sub hostOps0 _ hostOps0_writes (by decide)
    _ = m ((c : Thread nD τ).loc main_arg1) := rfl

theorem Bd18_main_arg2 (c : Dev nD) : Bd18 m ρ c (Proc.devRef .tc main_arg2) = m ((c : Thread nD τ).loc main_arg2) :=
  calc Bd18 m ρ c (Proc.devRef .tc main_arg2)
    _ = Bd17 m ρ c (Proc.devRef .tc main_arg2) := Bd18_of_ne m ρ c main_arg2 (by decide)
    _ = Bd16 m ρ c (Proc.devRef .tc main_arg2) := StableHlo.after_of_writes_sub hostOps6 _ hostOps6_writes (by decide)
    _ = Bd15 m ρ c (Proc.devRef .tc main_arg2) := Bd16_of_ne m ρ c main_arg2 (by decide)
    _ = Bd14 m ρ c (Proc.devRef .tc main_arg2) := StableHlo.after_of_writes_sub hostOps5 _ hostOps5_writes (by decide)
    _ = Bd13 m ρ c (Proc.devRef .tc main_arg2) := Bd14_of_ne m ρ c main_arg2 (by decide)
    _ = Bd12 m ρ c (Proc.devRef .tc main_arg2) := StableHlo.after_of_writes_sub hostOps4 _ hostOps4_writes (by decide)
    _ = Bd11 m ρ c (Proc.devRef .tc main_arg2) := Bd12_of_ne m ρ c main_arg2 (by decide)
    _ = Bd10 m ρ c (Proc.devRef .tc main_arg2) := StableHlo.after_of_writes_sub hostOps3_2 _ hostOps3_2_writes (by decide)
    _ = Bd9 m ρ c (Proc.devRef .tc main_arg2) := StableHlo.after_of_writes_sub hostOps3_1 _ hostOps3_1_writes (by decide)
    _ = Bd8 m ρ c (Proc.devRef .tc main_arg2) := StableHlo.after_of_writes_sub hostOps3 _ hostOps3_writes (by decide)
    _ = Bd7 m ρ c (Proc.devRef .tc main_arg2) := Bd8_of_ne m ρ c main_arg2 (by decide)
    _ = Bd6 m ρ c (Proc.devRef .tc main_arg2) := StableHlo.after_of_writes_sub hostOps2 _ hostOps2_writes (by decide)
    _ = Bd5 m ρ c (Proc.devRef .tc main_arg2) := Bd6_of_ne m ρ c main_arg2 (by decide)
    _ = Bd4 m ρ c (Proc.devRef .tc main_arg2) := StableHlo.after_of_writes_sub hostOps1 _ hostOps1_writes (by decide)
    _ = Bd3 m ρ c (Proc.devRef .tc main_arg2) := Bd4_of_ne m ρ c main_arg2 (by decide)
    _ = Bd2 m ρ c (Proc.devRef .tc main_arg2) := StableHlo.after_of_writes_sub hostOps0_2 _ hostOps0_2_writes (by decide)
    _ = Bd1 m ρ c (Proc.devRef .tc main_arg2) := StableHlo.after_of_writes_sub hostOps0_1 _ hostOps0_1_writes (by decide)
    _ = Bd0 m ρ c (Proc.devRef .tc main_arg2) := StableHlo.after_of_writes_sub hostOps0 _ hostOps0_writes (by decide)
    _ = m ((c : Thread nD τ).loc main_arg2) := rfl

theorem Bd18_main_arg3 (c : Dev nD) : Bd18 m ρ c (Proc.devRef .tc main_arg3) = m ((c : Thread nD τ).loc main_arg3) :=
  calc Bd18 m ρ c (Proc.devRef .tc main_arg3)
    _ = Bd17 m ρ c (Proc.devRef .tc main_arg3) := Bd18_of_ne m ρ c main_arg3 (by decide)
    _ = Bd16 m ρ c (Proc.devRef .tc main_arg3) := StableHlo.after_of_writes_sub hostOps6 _ hostOps6_writes (by decide)
    _ = Bd15 m ρ c (Proc.devRef .tc main_arg3) := Bd16_of_ne m ρ c main_arg3 (by decide)
    _ = Bd14 m ρ c (Proc.devRef .tc main_arg3) := StableHlo.after_of_writes_sub hostOps5 _ hostOps5_writes (by decide)
    _ = Bd13 m ρ c (Proc.devRef .tc main_arg3) := Bd14_of_ne m ρ c main_arg3 (by decide)
    _ = Bd12 m ρ c (Proc.devRef .tc main_arg3) := StableHlo.after_of_writes_sub hostOps4 _ hostOps4_writes (by decide)
    _ = Bd11 m ρ c (Proc.devRef .tc main_arg3) := Bd12_of_ne m ρ c main_arg3 (by decide)
    _ = Bd10 m ρ c (Proc.devRef .tc main_arg3) := StableHlo.after_of_writes_sub hostOps3_2 _ hostOps3_2_writes (by decide)
    _ = Bd9 m ρ c (Proc.devRef .tc main_arg3) := StableHlo.after_of_writes_sub hostOps3_1 _ hostOps3_1_writes (by decide)
    _ = Bd8 m ρ c (Proc.devRef .tc main_arg3) := StableHlo.after_of_writes_sub hostOps3 _ hostOps3_writes (by decide)
    _ = Bd7 m ρ c (Proc.devRef .tc main_arg3) := Bd8_of_ne m ρ c main_arg3 (by decide)
    _ = Bd6 m ρ c (Proc.devRef .tc main_arg3) := StableHlo.after_of_writes_sub hostOps2 _ hostOps2_writes (by decide)
    _ = Bd5 m ρ c (Proc.devRef .tc main_arg3) := Bd6_of_ne m ρ c main_arg3 (by decide)
    _ = Bd4 m ρ c (Proc.devRef .tc main_arg3) := StableHlo.after_of_writes_sub hostOps1 _ hostOps1_writes (by decide)
    _ = Bd3 m ρ c (Proc.devRef .tc main_arg3) := Bd4_of_ne m ρ c main_arg3 (by decide)
    _ = Bd2 m ρ c (Proc.devRef .tc main_arg3) := StableHlo.after_of_writes_sub hostOps0_2 _ hostOps0_2_writes (by decide)
    _ = Bd1 m ρ c (Proc.devRef .tc main_arg3) := StableHlo.after_of_writes_sub hostOps0_1 _ hostOps0_1_writes (by decide)
    _ = Bd0 m ρ c (Proc.devRef .tc main_arg3) := StableHlo.after_of_writes_sub hostOps0 _ hostOps0_writes (by decide)
    _ = m ((c : Thread nD τ).loc main_arg3) := rfl

theorem Bd18_main_arg4 (c : Dev nD) : Bd18 m ρ c (Proc.devRef .tc main_arg4) = m ((c : Thread nD τ).loc main_arg4) :=
  calc Bd18 m ρ c (Proc.devRef .tc main_arg4)
    _ = Bd17 m ρ c (Proc.devRef .tc main_arg4) := Bd18_of_ne m ρ c main_arg4 (by decide)
    _ = Bd16 m ρ c (Proc.devRef .tc main_arg4) := StableHlo.after_of_writes_sub hostOps6 _ hostOps6_writes (by decide)
    _ = Bd15 m ρ c (Proc.devRef .tc main_arg4) := Bd16_of_ne m ρ c main_arg4 (by decide)
    _ = Bd14 m ρ c (Proc.devRef .tc main_arg4) := StableHlo.after_of_writes_sub hostOps5 _ hostOps5_writes (by decide)
    _ = Bd13 m ρ c (Proc.devRef .tc main_arg4) := Bd14_of_ne m ρ c main_arg4 (by decide)
    _ = Bd12 m ρ c (Proc.devRef .tc main_arg4) := StableHlo.after_of_writes_sub hostOps4 _ hostOps4_writes (by decide)
    _ = Bd11 m ρ c (Proc.devRef .tc main_arg4) := Bd12_of_ne m ρ c main_arg4 (by decide)
    _ = Bd10 m ρ c (Proc.devRef .tc main_arg4) := StableHlo.after_of_writes_sub hostOps3_2 _ hostOps3_2_writes (by decide)
    _ = Bd9 m ρ c (Proc.devRef .tc main_arg4) := StableHlo.after_of_writes_sub hostOps3_1 _ hostOps3_1_writes (by decide)
    _ = Bd8 m ρ c (Proc.devRef .tc main_arg4) := StableHlo.after_of_writes_sub hostOps3 _ hostOps3_writes (by decide)
    _ = Bd7 m ρ c (Proc.devRef .tc main_arg4) := Bd8_of_ne m ρ c main_arg4 (by decide)
    _ = Bd6 m ρ c (Proc.devRef .tc main_arg4) := StableHlo.after_of_writes_sub hostOps2 _ hostOps2_writes (by decide)
    _ = Bd5 m ρ c (Proc.devRef .tc main_arg4) := Bd6_of_ne m ρ c main_arg4 (by decide)
    _ = Bd4 m ρ c (Proc.devRef .tc main_arg4) := StableHlo.after_of_writes_sub hostOps1 _ hostOps1_writes (by decide)
    _ = Bd3 m ρ c (Proc.devRef .tc main_arg4) := (Bd4_arr m ρ c 1).trans (((dat0 (Vd3 m ρ) c).arrAt_in 1 rfl _).trans (A_eq0 (Vd3 m ρ) c 1))
    _ = Bd2 m ρ c (Proc.devRef .tc main_arg4) := StableHlo.after_of_writes_sub hostOps0_2 _ hostOps0_2_writes (by decide)
    _ = Bd1 m ρ c (Proc.devRef .tc main_arg4) := StableHlo.after_of_writes_sub hostOps0_1 _ hostOps0_1_writes (by decide)
    _ = Bd0 m ρ c (Proc.devRef .tc main_arg4) := StableHlo.after_of_writes_sub hostOps0 _ hostOps0_writes (by decide)
    _ = m ((c : Thread nD τ).loc main_arg4) := rfl

theorem Bd18_main_arg5 (c : Dev nD) : Bd18 m ρ c (Proc.devRef .tc main_arg5) = m ((c : Thread nD τ).loc main_arg5) :=
  calc Bd18 m ρ c (Proc.devRef .tc main_arg5)
    _ = Bd17 m ρ c (Proc.devRef .tc main_arg5) := Bd18_of_ne m ρ c main_arg5 (by decide)
    _ = Bd16 m ρ c (Proc.devRef .tc main_arg5) := StableHlo.after_of_writes_sub hostOps6 _ hostOps6_writes (by decide)
    _ = Bd15 m ρ c (Proc.devRef .tc main_arg5) := Bd16_of_ne m ρ c main_arg5 (by decide)
    _ = Bd14 m ρ c (Proc.devRef .tc main_arg5) := StableHlo.after_of_writes_sub hostOps5 _ hostOps5_writes (by decide)
    _ = Bd13 m ρ c (Proc.devRef .tc main_arg5) := Bd14_of_ne m ρ c main_arg5 (by decide)
    _ = Bd12 m ρ c (Proc.devRef .tc main_arg5) := StableHlo.after_of_writes_sub hostOps4 _ hostOps4_writes (by decide)
    _ = Bd11 m ρ c (Proc.devRef .tc main_arg5) := Bd12_of_ne m ρ c main_arg5 (by decide)
    _ = Bd10 m ρ c (Proc.devRef .tc main_arg5) := StableHlo.after_of_writes_sub hostOps3_2 _ hostOps3_2_writes (by decide)
    _ = Bd9 m ρ c (Proc.devRef .tc main_arg5) := StableHlo.after_of_writes_sub hostOps3_1 _ hostOps3_1_writes (by decide)
    _ = Bd8 m ρ c (Proc.devRef .tc main_arg5) := StableHlo.after_of_writes_sub hostOps3 _ hostOps3_writes (by decide)
    _ = Bd7 m ρ c (Proc.devRef .tc main_arg5) := Bd8_of_ne m ρ c main_arg5 (by decide)
    _ = Bd6 m ρ c (Proc.devRef .tc main_arg5) := StableHlo.after_of_writes_sub hostOps2 _ hostOps2_writes (by decide)
    _ = Bd5 m ρ c (Proc.devRef .tc main_arg5) := Bd6_of_ne m ρ c main_arg5 (by decide)
    _ = Bd4 m ρ c (Proc.devRef .tc main_arg5) := StableHlo.after_of_writes_sub hostOps1 _ hostOps1_writes (by decide)
    _ = Bd3 m ρ c (Proc.devRef .tc main_arg5) := Bd4_of_ne m ρ c main_arg5 (by decide)
    _ = Bd2 m ρ c (Proc.devRef .tc main_arg5) := StableHlo.after_of_writes_sub hostOps0_2 _ hostOps0_2_writes (by decide)
    _ = Bd1 m ρ c (Proc.devRef .tc main_arg5) := StableHlo.after_of_writes_sub hostOps0_1 _ hostOps0_1_writes (by decide)
    _ = Bd0 m ρ c (Proc.devRef .tc main_arg5) := StableHlo.after_of_writes_sub hostOps0 _ hostOps0_writes (by decide)
    _ = m ((c : Thread nD τ).loc main_arg5) := rfl

theorem Bd18_main_arg6 (c : Dev nD) : Bd18 m ρ c (Proc.devRef .tc main_arg6) = m ((c : Thread nD τ).loc main_arg6) :=
  calc Bd18 m ρ c (Proc.devRef .tc main_arg6)
    _ = Bd17 m ρ c (Proc.devRef .tc main_arg6) := Bd18_of_ne m ρ c main_arg6 (by decide)
    _ = Bd16 m ρ c (Proc.devRef .tc main_arg6) := StableHlo.after_of_writes_sub hostOps6 _ hostOps6_writes (by decide)
    _ = Bd15 m ρ c (Proc.devRef .tc main_arg6) := Bd16_of_ne m ρ c main_arg6 (by decide)
    _ = Bd14 m ρ c (Proc.devRef .tc main_arg6) := StableHlo.after_of_writes_sub hostOps5 _ hostOps5_writes (by decide)
    _ = Bd13 m ρ c (Proc.devRef .tc main_arg6) := Bd14_of_ne m ρ c main_arg6 (by decide)
    _ = Bd12 m ρ c (Proc.devRef .tc main_arg6) := StableHlo.after_of_writes_sub hostOps4 _ hostOps4_writes (by decide)
    _ = Bd11 m ρ c (Proc.devRef .tc main_arg6) := (Bd12_arr m ρ c 1).trans (((dat3 (Vd11 m ρ) c).arrAt_in 1 rfl _).trans (A_eq3 (Vd11 m ρ) c 1))
    _ = Bd10 m ρ c (Proc.devRef .tc main_arg6) := StableHlo.after_of_writes_sub hostOps3_2 _ hostOps3_2_writes (by decide)
    _ = Bd9 m ρ c (Proc.devRef .tc main_arg6) := StableHlo.after_of_writes_sub hostOps3_1 _ hostOps3_1_writes (by decide)
    _ = Bd8 m ρ c (Proc.devRef .tc main_arg6) := StableHlo.after_of_writes_sub hostOps3 _ hostOps3_writes (by decide)
    _ = Bd7 m ρ c (Proc.devRef .tc main_arg6) := Bd8_of_ne m ρ c main_arg6 (by decide)
    _ = Bd6 m ρ c (Proc.devRef .tc main_arg6) := StableHlo.after_of_writes_sub hostOps2 _ hostOps2_writes (by decide)
    _ = Bd5 m ρ c (Proc.devRef .tc main_arg6) := Bd6_of_ne m ρ c main_arg6 (by decide)
    _ = Bd4 m ρ c (Proc.devRef .tc main_arg6) := StableHlo.after_of_writes_sub hostOps1 _ hostOps1_writes (by decide)
    _ = Bd3 m ρ c (Proc.devRef .tc main_arg6) := Bd4_of_ne m ρ c main_arg6 (by decide)
    _ = Bd2 m ρ c (Proc.devRef .tc main_arg6) := StableHlo.after_of_writes_sub hostOps0_2 _ hostOps0_2_writes (by decide)
    _ = Bd1 m ρ c (Proc.devRef .tc main_arg6) := StableHlo.after_of_writes_sub hostOps0_1 _ hostOps0_1_writes (by decide)
    _ = Bd0 m ρ c (Proc.devRef .tc main_arg6) := StableHlo.after_of_writes_sub hostOps0 _ hostOps0_writes (by decide)
    _ = m ((c : Thread nD τ).loc main_arg6) := rfl

theorem Bd18_main_arg7 (c : Dev nD) : Bd18 m ρ c (Proc.devRef .tc main_arg7) = m ((c : Thread nD τ).loc main_arg7) :=
  calc Bd18 m ρ c (Proc.devRef .tc main_arg7)
    _ = Bd17 m ρ c (Proc.devRef .tc main_arg7) := Bd18_of_ne m ρ c main_arg7 (by decide)
    _ = Bd16 m ρ c (Proc.devRef .tc main_arg7) := StableHlo.after_of_writes_sub hostOps6 _ hostOps6_writes (by decide)
    _ = Bd15 m ρ c (Proc.devRef .tc main_arg7) := Bd16_of_ne m ρ c main_arg7 (by decide)
    _ = Bd14 m ρ c (Proc.devRef .tc main_arg7) := StableHlo.after_of_writes_sub hostOps5 _ hostOps5_writes (by decide)
    _ = Bd13 m ρ c (Proc.devRef .tc main_arg7) := Bd14_of_ne m ρ c main_arg7 (by decide)
    _ = Bd12 m ρ c (Proc.devRef .tc main_arg7) := StableHlo.after_of_writes_sub hostOps4 _ hostOps4_writes (by decide)
    _ = Bd11 m ρ c (Proc.devRef .tc main_arg7) := Bd12_of_ne m ρ c main_arg7 (by decide)
    _ = Bd10 m ρ c (Proc.devRef .tc main_arg7) := StableHlo.after_of_writes_sub hostOps3_2 _ hostOps3_2_writes (by decide)
    _ = Bd9 m ρ c (Proc.devRef .tc main_arg7) := StableHlo.after_of_writes_sub hostOps3_1 _ hostOps3_1_writes (by decide)
    _ = Bd8 m ρ c (Proc.devRef .tc main_arg7) := StableHlo.after_of_writes_sub hostOps3 _ hostOps3_writes (by decide)
    _ = Bd7 m ρ c (Proc.devRef .tc main_arg7) := Bd8_of_ne m ρ c main_arg7 (by decide)
    _ = Bd6 m ρ c (Proc.devRef .tc main_arg7) := StableHlo.after_of_writes_sub hostOps2 _ hostOps2_writes (by decide)
    _ = Bd5 m ρ c (Proc.devRef .tc main_arg7) := Bd6_of_ne m ρ c main_arg7 (by decide)
    _ = Bd4 m ρ c (Proc.devRef .tc main_arg7) := StableHlo.after_of_writes_sub hostOps1 _ hostOps1_writes (by decide)
    _ = Bd3 m ρ c (Proc.devRef .tc main_arg7) := Bd4_of_ne m ρ c main_arg7 (by decide)
    _ = Bd2 m ρ c (Proc.devRef .tc main_arg7) := StableHlo.after_of_writes_sub hostOps0_2 _ hostOps0_2_writes (by decide)
    _ = Bd1 m ρ c (Proc.devRef .tc main_arg7) := StableHlo.after_of_writes_sub hostOps0_1 _ hostOps0_1_writes (by decide)
    _ = Bd0 m ρ c (Proc.devRef .tc main_arg7) := StableHlo.after_of_writes_sub hostOps0 _ hostOps0_writes (by decide)
    _ = m ((c : Thread nD τ).loc main_arg7) := rfl

theorem Bd18_main_arg8 (c : Dev nD) : Bd18 m ρ c (Proc.devRef .tc main_arg8) = m ((c : Thread nD τ).loc main_arg8) :=
  calc Bd18 m ρ c (Proc.devRef .tc main_arg8)
    _ = Bd17 m ρ c (Proc.devRef .tc main_arg8) := (Bd18_arr m ρ c 3).trans (((dat6 (Vd17 m ρ) c).arrAt_in 3 rfl _).trans (A_eq6 (Vd17 m ρ) c 3))
    _ = Bd16 m ρ c (Proc.devRef .tc main_arg8) := StableHlo.after_of_writes_sub hostOps6 _ hostOps6_writes (by decide)
    _ = Bd15 m ρ c (Proc.devRef .tc main_arg8) := Bd16_of_ne m ρ c main_arg8 (by decide)
    _ = Bd14 m ρ c (Proc.devRef .tc main_arg8) := StableHlo.after_of_writes_sub hostOps5 _ hostOps5_writes (by decide)
    _ = Bd13 m ρ c (Proc.devRef .tc main_arg8) := Bd14_of_ne m ρ c main_arg8 (by decide)
    _ = Bd12 m ρ c (Proc.devRef .tc main_arg8) := StableHlo.after_of_writes_sub hostOps4 _ hostOps4_writes (by decide)
    _ = Bd11 m ρ c (Proc.devRef .tc main_arg8) := Bd12_of_ne m ρ c main_arg8 (by decide)
    _ = Bd10 m ρ c (Proc.devRef .tc main_arg8) := StableHlo.after_of_writes_sub hostOps3_2 _ hostOps3_2_writes (by decide)
    _ = Bd9 m ρ c (Proc.devRef .tc main_arg8) := StableHlo.after_of_writes_sub hostOps3_1 _ hostOps3_1_writes (by decide)
    _ = Bd8 m ρ c (Proc.devRef .tc main_arg8) := StableHlo.after_of_writes_sub hostOps3 _ hostOps3_writes (by decide)
    _ = Bd7 m ρ c (Proc.devRef .tc main_arg8) := Bd8_of_ne m ρ c main_arg8 (by decide)
    _ = Bd6 m ρ c (Proc.devRef .tc main_arg8) := StableHlo.after_of_writes_sub hostOps2 _ hostOps2_writes (by decide)
    _ = Bd5 m ρ c (Proc.devRef .tc main_arg8) := Bd6_of_ne m ρ c main_arg8 (by decide)
    _ = Bd4 m ρ c (Proc.devRef .tc main_arg8) := StableHlo.after_of_writes_sub hostOps1 _ hostOps1_writes (by decide)
    _ = Bd3 m ρ c (Proc.devRef .tc main_arg8) := Bd4_of_ne m ρ c main_arg8 (by decide)
    _ = Bd2 m ρ c (Proc.devRef .tc main_arg8) := StableHlo.after_of_writes_sub hostOps0_2 _ hostOps0_2_writes (by decide)
    _ = Bd1 m ρ c (Proc.devRef .tc main_arg8) := StableHlo.after_of_writes_sub hostOps0_1 _ hostOps0_1_writes (by decide)
    _ = Bd0 m ρ c (Proc.devRef .tc main_arg8) := StableHlo.after_of_writes_sub hostOps0 _ hostOps0_writes (by decide)
    _ = m ((c : Thread nD τ).loc main_arg8) := rfl

theorem Bd18_main_arg9 (c : Dev nD) : Bd18 m ρ c (Proc.devRef .tc main_arg9) = m ((c : Thread nD τ).loc main_arg9) :=
  calc Bd18 m ρ c (Proc.devRef .tc main_arg9)
    _ = Bd17 m ρ c (Proc.devRef .tc main_arg9) := Bd18_of_ne m ρ c main_arg9 (by decide)
    _ = Bd16 m ρ c (Proc.devRef .tc main_arg9) := StableHlo.after_of_writes_sub hostOps6 _ hostOps6_writes (by decide)
    _ = Bd15 m ρ c (Proc.devRef .tc main_arg9) := Bd16_of_ne m ρ c main_arg9 (by decide)
    _ = Bd14 m ρ c (Proc.devRef .tc main_arg9) := StableHlo.after_of_writes_sub hostOps5 _ hostOps5_writes (by decide)
    _ = Bd13 m ρ c (Proc.devRef .tc main_arg9) := Bd14_of_ne m ρ c main_arg9 (by decide)
    _ = Bd12 m ρ c (Proc.devRef .tc main_arg9) := StableHlo.after_of_writes_sub hostOps4 _ hostOps4_writes (by decide)
    _ = Bd11 m ρ c (Proc.devRef .tc main_arg9) := Bd12_of_ne m ρ c main_arg9 (by decide)
    _ = Bd10 m ρ c (Proc.devRef .tc main_arg9) := StableHlo.after_of_writes_sub hostOps3_2 _ hostOps3_2_writes (by decide)
    _ = Bd9 m ρ c (Proc.devRef .tc main_arg9) := StableHlo.after_of_writes_sub hostOps3_1 _ hostOps3_1_writes (by decide)
    _ = Bd8 m ρ c (Proc.devRef .tc main_arg9) := StableHlo.after_of_writes_sub hostOps3 _ hostOps3_writes (by decide)
    _ = Bd7 m ρ c (Proc.devRef .tc main_arg9) := Bd8_of_ne m ρ c main_arg9 (by decide)
    _ = Bd6 m ρ c (Proc.devRef .tc main_arg9) := StableHlo.after_of_writes_sub hostOps2 _ hostOps2_writes (by decide)
    _ = Bd5 m ρ c (Proc.devRef .tc main_arg9) := Bd6_of_ne m ρ c main_arg9 (by decide)
    _ = Bd4 m ρ c (Proc.devRef .tc main_arg9) := StableHlo.after_of_writes_sub hostOps1 _ hostOps1_writes (by decide)
    _ = Bd3 m ρ c (Proc.devRef .tc main_arg9) := Bd4_of_ne m ρ c main_arg9 (by decide)
    _ = Bd2 m ρ c (Proc.devRef .tc main_arg9) := StableHlo.after_of_writes_sub hostOps0_2 _ hostOps0_2_writes (by decide)
    _ = Bd1 m ρ c (Proc.devRef .tc main_arg9) := StableHlo.after_of_writes_sub hostOps0_1 _ hostOps0_1_writes (by decide)
    _ = Bd0 m ρ c (Proc.devRef .tc main_arg9) := StableHlo.after_of_writes_sub hostOps0 _ hostOps0_writes (by decide)
    _ = m ((c : Thread nD τ).loc main_arg9) := rfl

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vd3 m ρ) c
  | ⟨1, _⟩ => fun c => dat1 (Vd5 m ρ) c
  | ⟨2, _⟩ => fun c => dat2 (Vd7 m ρ) c
  | ⟨3, _⟩ => fun c => dat3 (Vd11 m ρ) c
  | ⟨4, _⟩ => fun c => dat4 (Vd13 m ρ) c
  | ⟨5, _⟩ => fun c => dat5 (Vd15 m ρ) c
  | ⟨6, _⟩ => fun c => dat6 (Vd17 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd18 m ρ c) ∗ ∃ r, prngReg c r)

/-! ## The regions as segments -/

set_option backward.isDefEq.respectTransparency.types false in
/-- Region 0 over the thread state: entered from every unscoped buffer at `Bd3`, left at `Bd4`. Its arrays are split out
    of the unscoped buffers and put back at the exit contents; the generator register goes into the invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vd3 m ρ) c).loose
  hwaits := Pipeline.hwaits_of_owed_zero _ _ _ _ L lv 0 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vd3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vd3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vd3 m ρ c) (Ve4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd5`, left at `Bd6`. Its arrays are split out
    of the unscoped buffers and put back at the exit contents; the generator register goes into the invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vd5 m ρ) c).loose
  hwaits := Pipeline.hwaits_of_owed_zero _ _ _ _ L lv 1 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vd5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vd5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vd5 m ρ c) (Ve6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd7`, left at `Bd8`. Its arrays are split out
    of the unscoped buffers and put back at the exit contents; the generator register goes into the invariant and comes back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd7 m ρ) c).loose
  hwaits := Pipeline.hwaits_of_owed_zero _ _ _ _ L lv 2 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vd7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vd7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vd7 m ρ c) (Ve8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd11`, left at `Bd12`. Its arrays are split out
    of the unscoped buffers and put back at the exit contents; the generator register goes into the invariant and comes back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vd11 m ρ) c).loose
  hwaits := Pipeline.hwaits_of_owed_zero _ _ _ _ L lv 3 fun _ _ => rfl
  pre c := iprop(StableHlo.held (c : Thread nD τ) (Pipeline.ucRefs τ sig) (Bd11 m ρ c) ∗ R c)
  post c := iprop(StableHlo.held (c : Thread nD τ) (Pipeline.ucRefs τ sig) (Bd12 m ρ c) ∗ R c)
  X c := iprop(∃ r, prngReg c r)
  Y c := iprop(∃ r, prngReg c r)
  Z c := Pipeline.unscopedRest (Ix := Unit) (Name := ℕ) (U := UR sig nD τ) (Lvl := ℕ) spec3 c (Vd11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vd11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vd11 m ρ c) (Ve12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Bd13`, left at `Bd14`. Its arrays are split out
    of the unscoped buffers and put back at the exit contents; the generator register goes into the invariant and comes back;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vd13 m ρ) c).loose
  hwaits := Pipeline.hwaits_of_owed_zero _ _ _ _ L lv 4 fun _ _ => rfl
  pre c := iprop(StableHlo.held (c : Thread nD τ) (Pipeline.ucRefs τ sig) (Bd13 m ρ c) ∗ R c)
  post c := iprop(StableHlo.held (c : Thread nD τ) (Pipeline.ucRefs τ sig) (Bd14 m ρ c) ∗ R c)
  X c := iprop(∃ r, prngReg c r)
  Y c := iprop(∃ r, prngReg c r)
  Z c := Pipeline.unscopedRest (Ix := Unit) (Name := ℕ) (U := UR sig nD τ) (Lvl := ℕ) spec4 c (Vd13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vd13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vd13 m ρ c) (Ve14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Bd15`, left at `Bd16`. Its arrays are split out
    of the unscoped buffers and put back at the exit contents; the generator register goes into the invariant and comes back;
    nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vd15 m ρ) c).loose
  hwaits := Pipeline.hwaits_of_owed_zero _ _ _ _ L lv 5 fun _ _ => rfl
  pre c := iprop(StableHlo.held (c : Thread nD τ) (Pipeline.ucRefs τ sig) (Bd15 m ρ c) ∗ R c)
  post c := iprop(StableHlo.held (c : Thread nD τ) (Pipeline.ucRefs τ sig) (Bd16 m ρ c) ∗ R c)
  X c := iprop(∃ r, prngReg c r)
  Y c := iprop(∃ r, prngReg c r)
  Z c := Pipeline.unscopedRest (Ix := Unit) (Name := ℕ) (U := UR sig nD τ) (Lvl := ℕ) spec5 c (Vd15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vd15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vd15 m ρ c) (Ve16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `Bd17`, left at `Bd18`. Its arrays are split out
    of the unscoped buffers and put back at the exit contents; the generator register goes into the invariant and comes back;
    nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vd17 m ρ) c).loose
  hwaits := Pipeline.hwaits_of_owed_zero _ _ _ _ L lv 6 fun _ _ => rfl
  pre c := iprop(StableHlo.held (c : Thread nD τ) (Pipeline.ucRefs τ sig) (Bd17 m ρ c) ∗ R c)
  post c := iprop(StableHlo.held (c : Thread nD τ) (Pipeline.ucRefs τ sig) (Bd18 m ρ c) ∗ R c)
  X c := iprop(∃ r, prngReg c r)
  Y c := iprop(∃ r, prngReg c r)
  Z c := Pipeline.unscopedRest (Ix := Unit) (Name := ℕ) (U := UR sig nD τ) (Lvl := ℕ) spec6 c (Vd17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vd17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec6 c ⊢ (pdats m ρ 6 c).Φ 0 from hin6 (Vd17 m ρ) c)
    unfold Pipeline.ΦA
    iintro ⟨Hp, -, Hr⟩
    isplitl [Hr]; · iexact Hr
    iexact Hp
  hout c := by
    rw [Pipeline.ownSems0_none]
    refine (show (pdats m ρ 6 c).Φ (Fin.last _) ⊢ Pipeline.ΦA spec6 c from hout6 (Vd17 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vd17 m ρ c) (Ve18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ),
    .host (hseg hostOps3 hostOps3_sub hostOps3_fresh (Bd8 m ρ)),
    .host (hseg hostOps3_1 hostOps3_1_sub hostOps3_1_fresh (Bd9 m ρ)),
    .host (hseg hostOps3_2 hostOps3_2_sub hostOps3_2_fresh (Bd10 m ρ)),
    .region (reg3 m ρ),
    .host (hseg hostOps4 hostOps4_sub hostOps4_fresh (Bd12 m ρ)),
    .region (reg4 m ρ),
    .host (hseg hostOps5 hostOps5_sub hostOps5_fresh (Bd14 m ρ)),
    .region (reg5 m ρ),
    .host (hseg hostOps6 hostOps6_sub hostOps6_fresh (Bd16 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Bd18 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd18 m ρ c) s')
      isplitl [Hh] <;> iassumption)
    (hQ := fun s h => h)

/-- The result array after the run: what the pooling region's write-back leaves in its output window's array. -/
abbrev result (c : Dev nD) : Buf (Elt F) ((c : Thread nD τ).loc main_v101) := (dat6 (Vd17 m ρ) c).arrAt 5 cfg6.N

/-- The run with the result named and every argument array as launched. -/
theorem run_result : θ_run defs (onTc (τ := τ) (main (F := F))) ⟨m, fun _ => 0, ρ⟩ (fun r => ∀ c : Dev nD,
      r.2.mem ((c.tc : Thread nD τ).loc main_v101) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
    ⟨(h c _ (mem_uc main_v101 (by decide))).trans (Bd18_arr m ρ c 5),
     (h c _ (mem_uc main_arg0 (by decide))).trans (Bd18_main_arg0 m ρ c),
     (h c _ (mem_uc main_arg1 (by decide))).trans (Bd18_main_arg1 m ρ c),
     (h c _ (mem_uc main_arg2 (by decide))).trans (Bd18_main_arg2 m ρ c),
     (h c _ (mem_uc main_arg3 (by decide))).trans (Bd18_main_arg3 m ρ c),
     (h c _ (mem_uc main_arg4 (by decide))).trans (Bd18_main_arg4 m ρ c),
     (h c _ (mem_uc main_arg5 (by decide))).trans (Bd18_main_arg5 m ρ c),
     (h c _ (mem_uc main_arg6 (by decide))).trans (Bd18_main_arg6 m ρ c),
     (h c _ (mem_uc main_arg7 (by decide))).trans (Bd18_main_arg7 m ρ c),
     (h c _ (mem_uc main_arg8 (by decide))).trans (Bd18_main_arg8 m ρ c),
     (h c _ (mem_uc main_arg9 (by decide))).trans (Bd18_main_arg9 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c => (h c).2) (run_result m ρ)

end Cert.KernelIdeal.Hand

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.KI.Pay.lean ====
/-
  What each dense stage's body computes from its loaded blocks, read at one entry, over the extended reals.

  The projection's body multiplies a 10000 x 128 block of rows by the whole 128 x 128 weight matrix into a zero
  accumulator: entry (p, q) is the sum over k of x (p, k) * w (k, q) (the changes of float format are the identity
  on extended reals). The row scaling's body multiplies a block of message rows by its column of factors broadcast
  along the rows. The bias step's body adds the one bias row broadcast down the block and, in the first layer, takes
  the maximum with the float zero.
-/
import proofs.«145604_j19911468384638_1_alg».proof.Proof.Gen.KernelIdeal.Skeleton
import proofs.«145604_j19911468384638_1_alg».proof.Proof.LibMatmul
import Idealize.ShloMosaic.Lib.ValueIdx
import Idealize.ShloMosaic.Lib.Pipeline.Value
import Idealize.ShloMosaic.Lib.ValueLayout

noncomputable section

open scoped BigOperators

namespace Cert.KernelIdeal.HandValue

open Cert.KernelIdeal Cert.KernelIdeal.Gen Idealize.ShloMosaic Idealize.ShloMosaic.ValueIdx

/-! ## A column broadcast along the rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The projection's matrix product: its operand indices, coordinate by coordinate -/

theorem dot_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot_lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem dot_rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem dot_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times the weight matrix into the zero accumulator, at entry (p, q). -/
theorem blockProduct_apply (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) :=
  Cert.LibMatmul.matmul_zero_ix2 dot_S10000x128_S128x128_S10000x128_1_0_0_1_n_n rfl rfl
    dot_lhs_row dot_lhs_contr dot_rhs_contr dot_rhs_col none l r p q

/-! ## The payloads at an entry -/

/-- First projection: entry (p, q) of the body's store is the row-by-column sum over the block. -/
theorem pay0_apply (x0 : FVec Ideal S10000x128 .f32) (x1 : FVec Ideal S128x128 .f32) (p : Fin 10000) (q : Fin 128) :
    k0_pay1 x0 x1 (ix2 p q) = ∑ k : Fin 128, x0 (ix2 p k) * x1 (ix2 k q) := by
  unfold k0_pay1
  exact blockProduct_apply (truncf .bf16 x0 bitsLt_bf16_f32) (truncf .bf16 x1 bitsLt_bf16_f32) p q

/-- First row scaling: entry (p, q) is the message entry times row p's factor. -/
theorem pay1_apply (x0 : FVec Ideal S10000x128 .f32) (x1 : FVec Ideal S10000x1 .f32) (p : Fin 10000) (q : Fin 128) :
    k1_pay1 x0 x1 (ix2 p q) = x0 (ix2 p q) * x1 (ix2 p (0 : Fin 1)) := by
  unfold k1_pay1
  show mulf (shapeCast S10000x128 x0 shapeCasts_S10000x128_S10000x128)
      (broadcastTo S10000x128 (shapeCast S10000x1 x1 shapeCasts_S10000x1_S10000x1) broadcasts_S10000x1_S10000x128) (ix2 p q) = _
  rw [mulf_apply, shapeCast_self, shapeCast_self]
  exact congrArg (x0 (ix2 p q) * ·) (broadcastTo_a1_ab_apply x1 broadcasts_S10000x1_S10000x128 p q)

/-- First bias step: entry (p, q) is the maximum of the entry plus the bias row's q-th entry with the float zero. -/
theorem pay2_apply (x0 : FVec Ideal S10000x128 .f32) (x1 : FVec Ideal S1x128 .f32) (p : Fin 10000) (q : Fin 128) :
    k2_pay1 x0 x1 (ix2 p q) = max (x0 (ix2 p q) + x1 (ix2 (0 : Fin 1) q)) (Ideal.ofBits .f32 0x00000000#32) := by
  unfold k2_pay1
  show maximumf (addf (shapeCast S10000x128 x0 shapeCasts_S10000x128_S10000x128)
      (broadcastTo S10000x128 (shapeCast S1x128 x1 shapeCasts_S1x128_S1x128) broadcasts_S1x128_S10000x128))
      (broadcast S10000x128 (Scalar.ofBits (F := Ideal) .f32 0x00000000#32)) (ix2 p q) = _
  rw [maximumf_apply, addf_apply, shapeCast_self, shapeCast_self, broadcast_apply]
  exact congrArg (fun y => max (x0 (ix2 p q) + y) (Ideal.ofBits .f32 0x00000000#32))
    (broadcastTo_1b_ab_apply x1 broadcasts_S1x128_S10000x128 p q)

/-- Second projection: the same sum. -/
theorem pay3_apply (x0 : FVec Ideal S10000x128 .f32) (x1 : FVec Ideal S128x128 .f32) (p : Fin 10000) (q : Fin 128) :
    k3_pay1 x0 x1 (ix2 p q) = ∑ k : Fin 128, x0 (ix2 p k) * x1 (ix2 k q) := by
  unfold k3_pay1
  show matmul dot_S10000x128_S128x128_S10000x128_1_0_0_1_n_n none
      (truncf .bf16 (shapeCast S10000x128 x0 shapeCasts_S10000x128_S10000x128) bitsLt_bf16_f32) (truncf .bf16 x1 bitsLt_bf16_f32)
      (constant (F := Ideal) S10000x128 .f32 0x00000000#32) (ix2 p q) = _
  rw [shapeCast_self]
  exact blockProduct_apply (truncf .bf16 x0 bitsLt_bf16_f32) (truncf .bf16 x1 bitsLt_bf16_f32) p q

/-- Second row scaling: the same product. -/
theorem pay4_apply (x0 : FVec Ideal S10000x128 .f32) (x1 : FVec Ideal S10000x1 .f32) (p : Fin 10000) (q : Fin 128) :
    k4_pay1 x0 x1 (ix2 p q) = x0 (ix2 p q) * x1 (ix2 p (0 : Fin 1)) := by
  unfold k4_pay1
  show mulf (shapeCast S10000x128 x0 shapeCasts_S10000x128_S10000x128)
      (broadcastTo S10000x128 (shapeCast S10000x1 x1 shapeCasts_S10000x1_S10000x1) broadcasts_S10000x1_S10000x128) (ix2 p q) = _
  rw [mulf_apply, shapeCast_self, shapeCast_self]
  exact congrArg (x0 (ix2 p q) * ·) (broadcastTo_a1_ab_apply x1 broadcasts_S10000x1_S10000x128 p q)

/-- Second bias step: the entry plus the bias row's q-th entry, no rectifier. -/
theorem pay5_apply (x0 : FVec Ideal S10000x128 .f32) (x1 : FVec Ideal S1x128 .f32) (p : Fin 10000) (q : Fin 128) :
    k5_pay1 x0 x1 (ix2 p q) = x0 (ix2 p q) + x1 (ix2 (0 : Fin 1) q) := by
  unfold k5_pay1
  show addf (shapeCast S10000x128 x0 shapeCasts_S10000x128_S10000x128)
      (broadcastTo S10000x128 (shapeCast S1x128 x1 shapeCasts_S1x128_S1x128) broadcasts_S1x128_S10000x128) (ix2 p q) = _
  rw [addf_apply, shapeCast_self, shapeCast_self]
  exact congrArg (x0 (ix2 p q) + ·) (broadcastTo_1b_ab_apply x1 broadcasts_S1x128_S10000x128 p q)

end Cert.KernelIdeal.HandValue

end
-- ==== Proof.KI.Spec.lean ====
/-
  The dense stages of a two-layer graph convolution, each as ONE function of whole arrays, index by index.

  Three maps act on arrays of literal extents. The projection multiplies the 100000 x 128 node features by a
  128 x 128 weight matrix: entry (p, q) is the sum over k of a (p, k) * w (k, q). The row scaling multiplies row p
  of the 1700000 x 128 message array by the p-th entry of a 1700000 x 1 column of normalisation factors. The bias
  step adds a 1 x 128 row to every row of a 100000 x 128 array and, in the first layer, takes the maximum of the
  sum with the float zero. All values are extended reals; the float zero is kept as the word it is written with.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.DenseSpec

open Idealize.ShloMosaic Idealize.ShloMosaic.ValueIdx

/-- The node-feature array's, and every 100000 x 128 intermediate's, index set. -/
abbrev NodeIdx : Type := (⟨2, ![100000, 128]⟩ : Shape).Idx
/-- A 128 x 128 weight matrix' index set. -/
abbrev WeightIdx : Type := (⟨2, ![128, 128]⟩ : Shape).Idx
/-- The 1700000 x 128 message array's index set (one row per edge and per self loop). -/
abbrev MsgIdx : Type := (⟨2, ![1700000, 128]⟩ : Shape).Idx
/-- The 1700000 x 1 column of normalisation factors' index set. -/
abbrev NormIdx : Type := (⟨2, ![1700000, 1]⟩ : Shape).Idx
/-- A 1 x 128 bias row's index set. -/
abbrev BiasIdx : Type := (⟨2, ![1, 128]⟩ : Shape).Idx

/-- The float zero the first layer's rectifier compares with, as the word it is written with. -/
abbrev zeroWord : EReal := Ideal.ofBits .f32 0x00000000#32

/-- The projection: entry (p, q) of the product of the node features with a weight matrix. -/
def proj (a : NodeIdx → EReal) (w : WeightIdx → EReal) : NodeIdx → EReal :=
  fun j => ∑ k : Fin 128, a (ix2 (n0 := 100000) (n1 := 128) (j 0) k) * w (ix2 (n0 := 128) (n1 := 128) k (j 1))

/-- The projection at coordinates. -/
theorem proj_apply (a : NodeIdx → EReal) (w : WeightIdx → EReal) (p : Fin 100000) (q : Fin 128) :
    proj a w (ix2 p q) = ∑ k : Fin 128, a (ix2 p k) * w (ix2 k q) := rfl

/-- The row scaling: row p of the messages times the p-th normalisation factor. -/
def scaleRows (msg : MsgIdx → EReal) (nrm : NormIdx → EReal) : MsgIdx → EReal :=
  fun j => msg j * nrm (ix2 (n0 := 1700000) (n1 := 1) (j 0) (0 : Fin 1))

/-- The row scaling at coordinates. -/
theorem scaleRows_apply (msg : MsgIdx → EReal) (nrm : NormIdx → EReal) (p : Fin 1700000) (q : Fin 128) :
    scaleRows msg nrm (ix2 p q) = msg (ix2 p q) * nrm (ix2 p (0 : Fin 1)) := rfl

/-- The bias step: the bias row added to every row; with the rectifier, the maximum of that sum and the float zero. -/
def biasAct (relu : Bool) (z : NodeIdx → EReal) (b : BiasIdx → EReal) : NodeIdx → EReal :=
  fun j => match relu with
    | true => max (z j + b (ix2 (n0 := 1) (n1 := 128) (0 : Fin 1) (j 1))) zeroWord
    | false => z j + b (ix2 (n0 := 1) (n1 := 128) (0 : Fin 1) (j 1))

/-- The rectified bias step at coordinates. -/
theorem biasAct_true_apply (z : NodeIdx → EReal) (b : BiasIdx → EReal) (p : Fin 100000) (q : Fin 128) :
    biasAct true z b (ix2 p q) = max (z (ix2 p q) + b (ix2 (0 : Fin 1) q)) zeroWord := rfl

/-- The plain bias step at coordinates. -/
theorem biasAct_false_apply (z : NodeIdx → EReal) (b : BiasIdx → EReal) (p : Fin 100000) (q : Fin 128) :
    biasAct false z b (ix2 p q) = z (ix2 p q) + b (ix2 (0 : Fin 1) q) := rfl

/-- The float zero is the real zero, so the rectifier is the maximum with zero. -/
theorem zeroWord_eq : zeroWord = 0 := Ideal.ofBits_zero_f32

end Cert.DenseSpec

end
-- ==== Proof.KI.V0.lean ====
/-
  The projection's result array: after the ten grid points have written their blocks back, the output array holds,
  at every entry (r, q), the sum over k of the node features' (r, k) entry times the weight matrix' (k, q) entry.

  Point t reads rows 10000 t .. 10000 t + 9999 of the features and the whole weight matrix, and writes the same rows
  of the output; the ten row blocks cover the array (row r belongs to point r / 10000).
-/
import proofs.«145604_j19911468384638_1_alg».proof.Proof.KI.R0
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the grid: the feature and output windows sit at row block t, column block 0; the
    weight window always at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one point's store: if the loaded row block is rows of `A` starting at row r - p, and the loaded
    matrix is `W`, the body's entry (p, q) is the projection's entry (r, q). -/
theorem projEntry0 (x0 : FVec Ideal S10000x128 .f32) (x1 : FVec Ideal S128x128 .f32) (A : NodeIdx → EReal) (W : WeightIdx → EReal)
    (p : Fin 10000) (q : Fin 128) (r : Fin 100000)
    (h0 : ∀ k : Fin 128, x0 (ix2 p k) = A (ix2 r k)) (h1 : ∀ k : Fin 128, x1 (ix2 k q) = W (ix2 k q)) :
    k0_pay1 (F := Ideal) x0 x1 (ix2 p q) = proj A W (ix2 r q) := by
  rw [pay0_apply, proj_apply]
  exact Finset.sum_congr rfl fun k _ => by rw [h0 k, h1 k]

/-- What point t writes back is block t of the projection of the arrays the region finds. -/
theorem flushed0_eq (c : Dev nD) (t : Fin cfg0.N) :
    (dat0 V c).flushed 2 t = ((cfg0.win 2).blk t).view.read (Elt Ideal)
      (proj (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x128) zeroOffsets0]
  obtain ⟨e00, e01, e10, e11, e20, e21⟩ := blockIndex0 t
  have hN : cfg0.N = 10 := N_0
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg0.win 2).blk t).view.emb (ix2 p q) = ix2 (⟨t.val * 10000 + p.val, by omega⟩ : Fin 100000) q :=
    funext fun a => Fin.ext (by
      match a with
      | ⟨0, _⟩ => show win0_2.index t (0 : Fin 2) * 10000 + 1 * p.val = t.val * 10000 + p.val; omega
      | ⟨1, _⟩ => show win0_2.index t (1 : Fin 2) * 128 + 1 * q.val = q.val; omega)
  show k0_pay1 (iblk0 V c 0 t) (iblk0 V c 1 t) (ix2 p q)
    = proj (V c (Pipeline.arrRef spec0 0)) (V c (Pipeline.arrRef spec0 1)) (((cfg0.win 2).blk t).view.emb (ix2 p q))
  rw [hemb]
  refine projEntry0 _ _ _ _ p q _ (fun k => ?_) (fun k => ?_)
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An entry of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- The ten row blocks cover the output array: row r lies in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e20, e21⟩ := blockIndex0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the projection of the two input arrays as the region finds them. -/
theorem final0 (c : Dev nD) :
    (dat0 V c).arrAt 2 cfg0.N = proj (V c (Pipeline.arrRef spec0 0)) (V c (Pipeline.arrRef spec0 1)) :=
  (dat0 V c).arrAt_eq_of_cover 2 (proj (V c (Pipeline.arrRef spec0 0)) (V c (Pipeline.arrRef spec0 1)))
    (fun t _ => flushed0_eq V c t) (cover0)

end Cert.KernelIdeal.HandValue

end
-- ==== Proof.KI.V1.lean ====
/-
  The row scaling's result array: after the 170 grid points have written their blocks back, the output array holds,
  at every entry (r, q), the message entry (r, q) times the r-th normalisation factor.

  Point t reads rows 10000 t .. 10000 t + 9999 of the messages and of the factor column, and writes the same rows of
  the output; the 170 row blocks cover the array (row r belongs to point r / 10000).
-/
import proofs.«145604_j19911468384638_1_alg».proof.Proof.KI.R1
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: all three windows sit at row block t, column block 0. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One entry of one point's store: if the loaded entry (p, q) is the messages' entry (r, q) and the loaded factor of
    row p is row r's, the body's entry (p, q) is the row scaling's entry (r, q). -/
theorem scaleEntry1 (x0 : FVec Ideal S10000x128 .f32) (x1 : FVec Ideal S10000x1 .f32) (M : MsgIdx → EReal) (Nr : NormIdx → EReal)
    (p : Fin 10000) (q : Fin 128) (r : Fin 1700000)
    (h0 : x0 (ix2 p q) = M (ix2 r q)) (h1 : x1 (ix2 p (0 : Fin 1)) = Nr (ix2 r (0 : Fin 1))) :
    k1_pay1 (F := Ideal) x0 x1 (ix2 p q) = scaleRows M Nr (ix2 r q) := by
  rw [pay1_apply, scaleRows_apply, h0, h1]

/-- What point t writes back is block t of the row scaling of the arrays the region finds. -/
theorem flushed1_eq (c : Dev nD) (t : Fin cfg1.N) :
    (dat1 V c).flushed 2 t = ((cfg1.win 2).blk t).view.read (Elt Ideal)
      (scaleRows (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets1]
  simp only [View.ld_unit_zero (S := S10000x128) zeroOffsets1, View.ld_unit_zero (S := S10000x1) zeroOffsets1]
  obtain ⟨e00, e01, e10, e11, e20, e21⟩ := blockIndex1 t
  have hN : cfg1.N = 170 := N_1
  have ht : t.val < 170 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg1.win 2).blk t).view.emb (ix2 p q) = ix2 (⟨t.val * 10000 + p.val, by omega⟩ : Fin 1700000) q :=
    funext fun a => Fin.ext (by
      match a with
      | ⟨0, _⟩ => show win1_2.index t (0 : Fin 2) * 10000 + 1 * p.val = t.val * 10000 + p.val; omega
      | ⟨1, _⟩ => show win1_2.index t (1 : Fin 2) * 128 + 1 * q.val = q.val; omega)
  show k1_pay1 (iblk1 V c 0 t) (iblk1 V c 1 t) (ix2 p q)
    = scaleRows (V c (Pipeline.arrRef spec1 0)) (V c (Pipeline.arrRef spec1 1)) (((cfg1.win 2).blk t).view.emb (ix2 p q))
  rw [hemb]
  refine scaleEntry1 _ _ _ _ p q _ ?_ ?_
  · show V c (Pipeline.arrRef spec1 0) (((cfg1.win 0).blk t).view.emb (ix2 p q)) = _
    refine congrArg (V c (Pipeline.arrRef spec1 0)) (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · show V c (Pipeline.arrRef spec1 1) (((cfg1.win 1).blk t).view.emb (ix2 p (0 : Fin 1))) = _
    refine congrArg (V c (Pipeline.arrRef spec1 1)) (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega

/-- An entry of the output array is in point t's block iff each coordinate is in the block's range on its axis. -/
theorem mem_blk1 (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v42).slice (win1_2.rect t)).set ↔ _
  rw [View.set_slice_whole, Rect.mem_set_unit]
  exact Iff.rfl

/-- The 170 row blocks cover the output array: row r lies in the block of point r / 10000. -/
theorem cover1 (i : S1700000x128.Idx) :
    ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  obtain ⟨t, ht⟩ : ∃ t : Fin cfg1.N, t.val = (i 0).val / 10000 := ⟨⟨(i 0).val / 10000, by omega⟩, rfl⟩
  obtain ⟨-, -, -, -, e20, e21⟩ := blockIndex1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the row scaling of the two input arrays as the region finds them. -/
theorem final1 (c : Dev nD) :
    (dat1 V c).arrAt 2 cfg1.N = scaleRows (V c (Pipeline.arrRef spec1 0)) (V c (Pipeline.arrRef spec1 1)) :=
  (dat1 V c).arrAt_eq_of_cover 2 (scaleRows (V c (Pipeline.arrRef spec1 0)) (V c (Pipeline.arrRef spec1 1)))
    (fun t _ => flushed1_eq V c t) (cover1)

end Cert.KernelIdeal.HandValue

end
-- ==== Proof.KI.V2.lean ====
/-
  The bias step's result array: after the ten grid points have written their blocks back, the output array holds, at
  every entry (r, q), the input's entry (r, q) plus the q-th entry of the bias row, or the float zero if that is larger.

  Point t reads rows 10000 t .. 10000 t + 9999 of the input and the whole bias row, and writes the same rows of the
  output; the ten row blocks cover the array (row r belongs to point r / 10000).
-/
import proofs.«145604_j19911468384638_1_alg».proof.Proof.KI.R2
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The printed index maps over the grid: the input and output windows sit at row block t, column block 0; the bias
    window always at block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of one point's store: if the loaded entry (p, q) is the input's entry (r, q) and the loaded bias row is
    `B`, the body's entry (p, q) is the bias step's entry (r, q). -/
theorem biasEntry2 (x0 : FVec Ideal S10000x128 .f32) (x1 : FVec Ideal S1x128 .f32) (Z : NodeIdx → EReal) (B : BiasIdx → EReal)
    (p : Fin 10000) (q : Fin 128) (r : Fin 100000)
    (h0 : x0 (ix2 p q) = Z (ix2 r q)) (h1 : x1 (ix2 (0 : Fin 1) q) = B (ix2 (0 : Fin 1) q)) :
    k2_pay1 (F := Ideal) x0 x1 (ix2 p q) = biasAct true Z B (ix2 r q) := by
  rw [pay2_apply, biasAct_true_apply, h0, h1]

/-- What point t writes back is block t of the bias step of the arrays the region finds. -/
theorem flushed2_eq (c : Dev nD) (t : Fin cfg2.N) :
    (dat2 V c).flushed 2 t = ((cfg2.win 2).blk t).view.read (Elt Ideal)
      (biasAct true (V c (Pipeline.arrRef spec2 0)) (V c (Pipeline.arrRef spec2 1))) := by
  show (cfg2.win 2).cut (grid2.coords t) ((dat2 V c).after 2 t) = _
  rw [after2_2]
  unfold out2_2
  rw [View.canon_unit_zero zeroOffsets2]
  simp only [View.ld_unit_zero (S := S10000x128) zeroOffsets2, View.ld_unit_zero (S := S1x128) zeroOffsets2]
  obtain ⟨e00, e01, e10, e11, e20, e21⟩ := blockIndex2 t
  have hN : cfg2.N = 10 := N_2
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg2.win 2).blk t).view.emb (ix2 p q) = ix2 (⟨t.val * 10000 + p.val, by omega⟩ : Fin 100000) q :=
    funext fun a => Fin.ext (by
      match a with
      | ⟨0, _⟩ => show win2_2.index t (0 : Fin 2) * 10000 + 1 * p.val = t.val * 10000 + p.val; omega
      | ⟨1, _⟩ => show win2_2.index t (1 : Fin 2) * 128 + 1 * q.val = q.val; omega)
  show k2_pay1 (iblk2 V c 0 t) (iblk2 V c 1 t) (ix2 p q)
    = biasAct true (V c (Pipeline.arrRef spec2 0)) (V c (Pipeline.arrRef spec2 1)) (((cfg2.win 2).blk t).view.emb (ix2 p q))
  rw [hemb]
  refine biasEntry2 _ _ _ _ p q _ ?_ ?_
  · show V c (Pipeline.arrRef spec2 0) (((cfg2.win 0).blk t).view.emb (ix2 p q)) = _
    refine congrArg (V c (Pipeline.arrRef spec2 0)) (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * q.val = q.val; omega
  · show V c (Pipeline.arrRef spec2 1) (((cfg2.win 1).blk t).view.emb (ix2 (0 : Fin 1) q)) = _
    refine congrArg (V c (Pipeline.arrRef spec2 1)) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega

/-- An entry of the output array is in point t's block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- The ten row blocks cover the output array: row r lies in the block of point r / 10000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, e20, e21⟩ := blockIndex2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the bias step of the two input arrays as the region finds them. -/
theorem final2 (c : Dev nD) :
    (dat2 V c).arrAt 2 cfg2.N = biasAct true (V c (Pipeline.arrRef spec2 0)) (V c (Pipeline.arrRef spec2 1)) :=
  (dat2 V c).arrAt_eq_of_cover 2 (biasAct true (V c (Pipeline.arrRef spec2 0)) (V c (Pipeline.arrRef spec2 1)))
    (fun t _ => flushed2_eq V c t) (cover2)

end Cert.KernelIdeal.HandValue

end
-- ==== Proof.KI.V3.lean ====
/-
  The projection's result array: after the ten grid points have written their blocks back, the output array holds,
  at every entry (r, q), the sum over k of the node features' (r, k) entry times the weight matrix' (k, q) entry.

  Point t reads rows 10000 t .. 10000 t + 9999 of the features and the whole weight matrix, and writes the same rows
  of the output; the ten row blocks cover the array (row r belongs to point r / 10000).
-/
import proofs.«145604_j19911468384638_1_alg».proof.Proof.KI.R3
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The printed index maps over the grid: the feature and output windows sit at row block t, column block 0; the
    weight window always at block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of one point's store: if the loaded row block is rows of `A` starting at row r - p, and the loaded
    matrix is `W`, the body's entry (p, q) is the projection's entry (r, q). -/
theorem projEntry3 (x0 : FVec Ideal S10000x128 .f32) (x1 : FVec Ideal S128x128 .f32) (A : NodeIdx → EReal) (W : WeightIdx → EReal)
    (p : Fin 10000) (q : Fin 128) (r : Fin 100000)
    (h0 : ∀ k : Fin 128, x0 (ix2 p k) = A (ix2 r k)) (h1 : ∀ k : Fin 128, x1 (ix2 k q) = W (ix2 k q)) :
    k3_pay1 (F := Ideal) x0 x1 (ix2 p q) = proj A W (ix2 r q) := by
  rw [pay3_apply, proj_apply]
  exact Finset.sum_congr rfl fun k _ => by rw [h0 k, h1 k]

/-- What point t writes back is block t of the projection of the arrays the region finds. -/
theorem flushed3_eq (c : Dev nD) (t : Fin cfg3.N) :
    (dat3 V c).flushed 2 t = ((cfg3.win 2).blk t).view.read (Elt Ideal)
      (proj (V c (Pipeline.arrRef spec3 0)) (V c (Pipeline.arrRef spec3 1))) := by
  show (cfg3.win 2).cut (grid3.coords t) ((dat3 V c).after 2 t) = _
  rw [after3_2]
  unfold out3_2
  rw [View.canon_unit_zero zeroOffsets3]
  simp only [View.ld_unit_zero (S := S10000x128) zeroOffsets3, View.ld_unit_zero (S := S128x128) zeroOffsets3]
  obtain ⟨e00, e01, e10, e11, e20, e21⟩ := blockIndex3 t
  have hN : cfg3.N = 10 := N_3
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg3.win 2).blk t).view.emb (ix2 p q) = ix2 (⟨t.val * 10000 + p.val, by omega⟩ : Fin 100000) q :=
    funext fun a => Fin.ext (by
      match a with
      | ⟨0, _⟩ => show win3_2.index t (0 : Fin 2) * 10000 + 1 * p.val = t.val * 10000 + p.val; omega
      | ⟨1, _⟩ => show win3_2.index t (1 : Fin 2) * 128 + 1 * q.val = q.val; omega)
  show k3_pay1 (iblk3 V c 0 t) (iblk3 V c 1 t) (ix2 p q)
    = proj (V c (Pipeline.arrRef spec3 0)) (V c (Pipeline.arrRef spec3 1)) (((cfg3.win 2).blk t).view.emb (ix2 p q))
  rw [hemb]
  refine projEntry3 _ _ _ _ p q _ (fun k => ?_) (fun k => ?_)
  · show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 10000 + 1 * p.val = t.val * 10000 + p.val; omega
    | ⟨1, _⟩ => show win3_0.index t (1 : Fin 2) * 128 + 1 * k.val = k.val; omega
  · show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega

/-- An entry of the output array is in point t's block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v77).slice (win3_2.rect t)).set ↔ _
  rw [View.set_slice_whole, Rect.mem_set_unit]
  exact Iff.rfl

/-- The ten row blocks cover the output array: row r lies in the block of point r / 10000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, e20, e21⟩ := blockIndex3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region: the projection of the two input arrays as the region finds them. -/
theorem final3 (c : Dev nD) :
    (dat3 V c).arrAt 2 cfg3.N = proj (V c (Pipeline.arrRef spec3 0)) (V c (Pipeline.arrRef spec3 1)) :=
  (dat3 V c).arrAt_eq_of_cover 2 (proj (V c (Pipeline.arrRef spec3 0)) (V c (Pipeline.arrRef spec3 1)))
    (fun t _ => flushed3_eq V c t) (cover3)

end Cert.KernelIdeal.HandValue

end
-- ==== Proof.KI.V4.lean ====
/-
  The row scaling's result array: after the 170 grid points have written their blocks back, the output array holds,
  at every entry (r, q), the message entry (r, q) times the r-th normalisation factor.

  Point t reads rows 10000 t .. 10000 t + 9999 of the messages and of the factor column, and writes the same rows of
  the output; the 170 row blocks cover the array (row r belongs to point r / 10000).
-/
import proofs.«145604_j19911468384638_1_alg».proof.Proof.KI.R4
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets4 : (![0, 0] : Fin 2 → Nat) = fun _ => 0 := funext fun a => by fin_cases a <;> rfl

/-- The printed index maps over the grid: all three windows sit at row block t, column block 0. -/
theorem blockIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- One entry of one point's store: if the loaded entry (p, q) is the messages' entry (r, q) and the loaded factor of
    row p is row r's, the body's entry (p, q) is the row scaling's entry (r, q). -/
theorem scaleEntry4 (x0 : FVec Ideal S10000x128 .f32) (x1 : FVec Ideal S10000x1 .f32) (M : MsgIdx → EReal) (Nr : NormIdx → EReal)
    (p : Fin 10000) (q : Fin 128) (r : Fin 1700000)
    (h0 : x0 (ix2 p q) = M (ix2 r q)) (h1 : x1 (ix2 p (0 : Fin 1)) = Nr (ix2 r (0 : Fin 1))) :
    k4_pay1 (F := Ideal) x0 x1 (ix2 p q) = scaleRows M Nr (ix2 r q) := by
  rw [pay4_apply, scaleRows_apply, h0, h1]

set_option maxHeartbeats 1000000 in
/-- What point t writes back is block t of the row scaling of the arrays the region finds. -/
theorem flushed4_eq (c : Dev nD) (t : Fin cfg4.N) :
    (dat4 V c).flushed 2 t = ((cfg4.win 2).blk t).view.read (Elt Ideal)
      (scaleRows (V c (Pipeline.arrRef spec4 0)) (V c (Pipeline.arrRef spec4 1))) := by
  show (cfg4.win 2).cut (grid4.coords t) ((dat4 V c).after 2 t) = _
  rw [after4_2]
  unfold out4_2
  rw [View.canon_unit_zero zeroOffsets4]
  simp only [View.ld_unit_zero (S := S10000x128) zeroOffsets4, View.ld_unit_zero (S := S10000x1) zeroOffsets4]
  obtain ⟨e00, e01, e10, e11, e20, e21⟩ := blockIndex4 t
  have hN : cfg4.N = 170 := N_4
  have ht : t.val < 170 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg4.win 2).blk t).view.emb (ix2 p q) = ix2 (⟨t.val * 10000 + p.val, by omega⟩ : Fin 1700000) q :=
    funext fun a => Fin.ext (by
      match a with
      | ⟨0, _⟩ => show win4_2.index t (0 : Fin 2) * 10000 + 1 * p.val = t.val * 10000 + p.val; omega
      | ⟨1, _⟩ => show win4_2.index t (1 : Fin 2) * 128 + 1 * q.val = q.val; omega)
  show k4_pay1 (iblk4 V c 0 t) (iblk4 V c 1 t) (ix2 p q)
    = scaleRows (V c (Pipeline.arrRef spec4 0)) (V c (Pipeline.arrRef spec4 1)) (((cfg4.win 2).blk t).view.emb (ix2 p q))
  rw [hemb]
  refine scaleEntry4 _ _ _ _ p q _ ?_ ?_
  · show V c (Pipeline.arrRef spec4 0) (((cfg4.win 0).blk t).view.emb (ix2 p q)) = _
    refine congrArg (V c (Pipeline.arrRef spec4 0)) (funext fun a => Fin.ext ?_)
    match a with
    | ⟨0, _⟩ => show win4_0.index t (0 : Fin 2) * 10000 + 1 * p.val = t.val * 10000 + p.val; omega
    | ⟨1, _⟩ => show win4_0.index t (1 : Fin 2) * 128 + 1 * q.val = q.val; omega
  · show V c (Pipeline.arrRef spec4 1) (((cfg4.win 1).blk t).view.emb (ix2 p (0 : Fin 1))) = _
    refine congrArg (V c (Pipeline.arrRef spec4 1)) (funext fun a => Fin.ext ?_)
    match a with
    | ⟨0, _⟩ => show win4_1.index t (0 : Fin 2) * 10000 + 1 * p.val = t.val * 10000 + p.val; omega
    | ⟨1, _⟩ => show win4_1.index t (1 : Fin 2) * 1 + 1 * 0 = 0; omega

/-- An entry of the output array is in point t's block iff each coordinate is in the block's range on its axis. -/
theorem mem_blk4 (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v86).slice (win4_2.rect t)).set ↔ _
  rw [View.set_slice_whole, Rect.mem_set_unit]
  exact Iff.rfl

/-- The 170 row blocks cover the output array: row r lies in the block of point r / 10000. -/
theorem cover4 (i : S1700000x128.Idx) :
    ∃ t : Fin cfg4.N, (cfg4.win 2).flush t = true ∧ i ∈ ((cfg4.win 2).blk t).view.set := by
  have hi0 : (i 0).val < 1700000 := (i 0).isLt
  have hi1 : (i 1).val < 128 := (i 1).isLt
  have hN : cfg4.N = 170 := N_4
  obtain ⟨t, ht⟩ : ∃ t : Fin cfg4.N, t.val = (i 0).val / 10000 := ⟨⟨(i 0).val / 10000, by omega⟩, rfl⟩
  obtain ⟨-, -, -, -, e20, e21⟩ := blockIndex4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The output array after the region: the row scaling of the two input arrays as the region finds them. -/
theorem final4 (c : Dev nD) :
    (dat4 V c).arrAt 2 cfg4.N = scaleRows (V c (Pipeline.arrRef spec4 0)) (V c (Pipeline.arrRef spec4 1)) :=
  (dat4 V c).arrAt_eq_of_cover 2 (scaleRows (V c (Pipeline.arrRef spec4 0)) (V c (Pipeline.arrRef spec4 1)))
    (fun t _ => flushed4_eq V c t) (cover4)

end Cert.KernelIdeal.HandValue

end
-- ==== Proof.KI.V5.lean ====
/-
  The bias step's result array: after the ten grid points have written their blocks back, the output array holds, at
  every entry (r, q), the input's entry (r, q) plus the q-th entry of the bias row, or the float zero if that is larger.

  Point t reads rows 10000 t .. 10000 t + 9999 of the input and the whole bias row, and writes the same rows of the
  output; the ten row blocks cover the array (row r belongs to point r / 10000).
-/
import proofs.«145604_j19911468384638_1_alg».proof.Proof.KI.R5
import proofs.«145604_j19911468384638_1_alg».proof.Proof.KI.Pay
import proofs.«145604_j19911468384638_1_alg».proof.Proof.KI.Spec
import Idealize.ShloMosaic.Lib.Pipeline.Value

noncomputable section

open scoped BigOperators

namespace Cert.KernelIdeal.HandValue

open Cert.KernelIdeal Cert.KernelIdeal.Gen Cert.KernelIdeal.Hand Cert.DenseSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The printed index maps over the grid: the input and output windows sit at row block t, column block 0; the bias
    window always at block (0, 0). -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One entry of one point's store: if the loaded entry (p, q) is the input's entry (r, q) and the loaded bias row is
    `B`, the body's entry (p, q) is the bias step's entry (r, q). -/
theorem biasEntry5 (x0 : FVec Ideal S10000x128 .f32) (x1 : FVec Ideal S1x128 .f32) (Z : NodeIdx → EReal) (B : BiasIdx → EReal)
    (p : Fin 10000) (q : Fin 128) (r : Fin 100000)
    (h0 : x0 (ix2 p q) = Z (ix2 r q)) (h1 : x1 (ix2 (0 : Fin 1) q) = B (ix2 (0 : Fin 1) q)) :
    k5_pay1 (F := Ideal) x0 x1 (ix2 p q) = biasAct false Z B (ix2 r q) := by
  rw [pay5_apply, biasAct_false_apply, h0, h1]

set_option maxHeartbeats 1000000 in
/-- What point t writes back is block t of the bias step of the arrays the region finds. -/
theorem flushed5_eq (c : Dev nD) (t : Fin cfg5.N) :
    (dat5 V c).flushed 2 t = ((cfg5.win 2).blk t).view.read (Elt Ideal)
      (biasAct false (V c (Pipeline.arrRef spec5 0)) (V c (Pipeline.arrRef spec5 1))) := by
  show (cfg5.win 2).cut (grid5.coords t) ((dat5 V c).after 2 t) = _
  rw [after5_2]
  unfold out5_2
  rw [View.canon_unit_zero zeroOffsets5]
  simp only [View.ld_unit_zero (S := S10000x128) zeroOffsets5, View.ld_unit_zero (S := S1x128) zeroOffsets5]
  obtain ⟨e00, e01, e10, e11, e20, e21⟩ := blockIndex5 t
  have hN : cfg5.N = 10 := N_5
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg5.win 2).blk t).view.emb (ix2 p q) = ix2 (⟨t.val * 10000 + p.val, by omega⟩ : Fin 100000) q :=
    funext fun a => Fin.ext (by
      match a with
      | ⟨0, _⟩ => show win5_2.index t (0 : Fin 2) * 10000 + 1 * p.val = t.val * 10000 + p.val; omega
      | ⟨1, _⟩ => show win5_2.index t (1 : Fin 2) * 128 + 1 * q.val = q.val; omega)
  show k5_pay1 (iblk5 V c 0 t) (iblk5 V c 1 t) (ix2 p q)
    = biasAct false (V c (Pipeline.arrRef spec5 0)) (V c (Pipeline.arrRef spec5 1)) (((cfg5.win 2).blk t).view.emb (ix2 p q))
  rw [hemb]
  refine biasEntry5 _ _ _ _ p q _ ?_ ?_
  · show V c (Pipeline.arrRef spec5 0) (((cfg5.win 0).blk t).view.emb (ix2 p q)) = _
    refine congrArg (V c (Pipeline.arrRef spec5 0)) (funext fun a => Fin.ext ?_)
    match a with
    | ⟨0, _⟩ => show win5_0.index t (0 : Fin 2) * 10000 + 1 * p.val = t.val * 10000 + p.val; omega
    | ⟨1, _⟩ => show win5_0.index t (1 : Fin 2) * 128 + 1 * q.val = q.val; omega
  · show V c (Pipeline.arrRef spec5 1) (((cfg5.win 1).blk t).view.emb (ix2 (0 : Fin 1) q)) = _
    refine congrArg (V c (Pipeline.arrRef spec5 1)) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega

/-- An entry of the output array is in point t's block iff each coordinate is in the block's range on its axis. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v91).slice (win5_2.rect t)).set ↔ _
  rw [View.set_slice_whole, Rect.mem_set_unit]
  exact Iff.rfl

/-- The ten row blocks cover the output array: row r lies in the block of point r / 10000. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by omega⟩, rfl⟩
  obtain ⟨-, -, -, -, e20, e21⟩ := blockIndex5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The output array after the region: the bias step of the two input arrays as the region finds them. -/
theorem final5 (c : Dev nD) :
    (dat5 V c).arrAt 2 cfg5.N = biasAct false (V c (Pipeline.arrRef spec5 0)) (V c (Pipeline.arrRef spec5 1)) :=
  (dat5 V c).arrAt_eq_of_cover 2 (biasAct false (V c (Pipeline.arrRef spec5 0)) (V c (Pipeline.arrRef spec5 1)))
    (fun t _ => flushed5_eq V c t) (cover5)

end Cert.KernelIdeal.HandValue

end
-- ==== Proof.KI.V6a.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.R6
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling region: what each case's stores leave, as the body's payloads -/

theorem hz2 : (![0, 0] : Fin 2 → Nat) = fun _ => 0 := funext fun a => by fin_cases a <;> rfl

/-- A middle point leaves in the accumulator the payload "accumulator plus this block's product" of the block's
    batch ids, the block of z, and what the point before left. -/
theorem sout6_B_eq (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : ¬cond6_1 i)
    (x0 : Vec F S10000x128 .f32) (x1 : Vec F S10000x1 .i32) (x2 : Vec F S64x1 .f32) (x3 : Vec F S128x128 .f32) (x4 : Vec F S1x128 .f32) (xs0 : Vec F S64x128 .f32) :
    sout6_B_0 c i arg1 harg1 arg2 harg2 arg3 harg3 arg4 harg4 arg5 harg5 arg6 harg6 arg7 harg7 hc0 hc1 x0 x1 x2 x3 x4 xs0 = k6_pay2 x1 x0 xs0 := by
  unfold sout6_B_0
  rw [View.read_writes_eq_canon _ _ _ (scover6_B_0 c i arg1 harg1 arg2 harg2 arg3 harg3 arg4 harg4 arg5 harg5 arg6 harg6 arg7 harg7 hc0 hc1 x0 x1 x2 x3 x4 xs0)]
  unfold kernelRun6_B
  dsimp only
  rw [View.canon_unit_zero hz2]
  simp only [View.readAt_eq_ld, harg1.read_unread, harg2.read_unread, harg3.read_unread, harg4.read_unread, harg5.read_unread, harg7.read_unread,
    View.ld_unit_zero (S := S10000x128) hz2, View.ld_unit_zero (S := S10000x1) hz2, View.ld_unit_zero (S := S64x128) hz2,
    View.ld_unit_zero (S := S64x1) hz2, View.ld_unit_zero (S := S128x128) hz2, View.ld_unit_zero (S := S1x128) hz2]

/-- The last point leaves the same in the accumulator. -/
theorem sout6_C_eq (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) :
    sout6_C_0 c i arg1 harg1 arg2 harg2 arg3 harg3 arg4 harg4 arg5 harg5 arg6 harg6 arg7 harg7 hc0 hc1 x0 x1 x2 x3 x4 xs0 = k6_pay2 x1 x0 xs0 := by
  unfold sout6_C_0
  rw [View.read_writes_eq_canon _ _ _ (scover6_C_0 c i arg1 harg1 arg2 harg2 arg3 harg3 arg4 harg4 arg5 harg5 arg6 harg6 arg7 harg7 hc0 hc1 x0 x1 x2 x3 x4 xs0)]
  unfold kernelRun6_C
  dsimp only
  sl_unfold_words
  rw [View.canon_unit_zero hz2]
  simp only [View.readAt_eq_ld, harg1.read_unread, harg2.read_unread, harg3.read_unread, harg4.read_unread, harg5.read_unread, harg7.read_unread,
    View.ld_unit_zero (S := S10000x128) hz2, View.ld_unit_zero (S := S10000x1) hz2, View.ld_unit_zero (S := S64x128) hz2,
    View.ld_unit_zero (S := S64x1) hz2, View.ld_unit_zero (S := S128x128) hz2, View.ld_unit_zero (S := S1x128) hz2]

/-- The first point resets the accumulator to the zero block and then adds its product. -/
theorem sout6_A_eq (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : cond6_0 i) (hc1 : ¬cond6_1 i)
    (x0 : Vec F S10000x128 .f32) (x1 : Vec F S10000x1 .i32) (x2 : Vec F S64x1 .f32) (x3 : Vec F S128x128 .f32) (x4 : Vec F S1x128 .f32) :
    sout6_A_0 c i arg1 harg1 arg2 harg2 arg3 harg3 arg4 harg4 arg5 harg5 arg6 harg6 arg7 harg7 hc0 hc1 x0 x1 x2 x3 x4 = k6_pay2 x1 x0 (k6_pay1 (F := F)) := by
  unfold sout6_A_0
  rw [View.read_writes_eq_canon _ _ _ (scover6_A_0 c i arg1 harg1 arg2 harg2 arg3 harg3 arg4 harg4 arg5 harg5 arg6 harg6 arg7 harg7 hc0 hc1 x0 x1 x2 x3 x4)]
  unfold kernelRun6_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread, harg7.read_unread,
    View.ld_unit_zero (S := S10000x128) hz2, View.ld_unit_zero (S := S10000x1) hz2, View.ld_unit_zero (S := S64x128) hz2,
    View.ld_unit_zero (S := S64x1) hz2, View.ld_unit_zero (S := S128x128) hz2, View.ld_unit_zero (S := S1x128) hz2]

/-- The last point stores the result: the accumulator it has just updated, divided by the counts, times the final weight,
    plus the bias. -/
theorem out6_C_eq (c : Dev nD) (i : grid6.Coords) (arg1 : Memref sig .tc .vmem S10000x128 .f32) (harg1 : arg1.IsWhole) (arg2 : Memref sig .tc .vmem S10000x1 .i32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S64x128 .f32) (harg7 : arg7.IsWhole) (hc0 : ¬cond6_0 i) (hc1 : cond6_1 i)
    (x0 : Vec F S10000x128 .f32) (x1 : Vec F S10000x1 .i32) (x2 : Vec F S64x1 .f32) (x3 : Vec F S128x128 .f32) (x4 : Vec F S1x128 .f32) (xs0 : Vec F S64x128 .f32) :
    out6_C_5 c i arg1 harg1 arg2 harg2 arg3 harg3 arg4 harg4 arg5 harg5 arg6 harg6 arg7 harg7 hc0 hc1 x0 x1 x2 x3 x4 xs0 = k6_pay3 (k6_pay2 x1 x0 xs0) x2 x3 x4 := by
  unfold out6_C_5
  rw [View.read_writes_eq_canon _ _ _ (cover6_C_5 c i arg1 harg1 arg2 harg2 arg3 harg3 arg4 harg4 arg5 harg5 arg6 harg6 arg7 harg7 hc0 hc1 x0 x1 x2 x3 x4 xs0)]
  unfold kernelRun6_C
  dsimp only
  sl_unfold_words
  rw [View.canon_unit_zero hz2, View.readCov_unit_zero (S := S64x128) _ hz2]
  simp only [View.readAt_eq_ld, harg1.read_unread, harg2.read_unread, harg3.read_unread, harg4.read_unread, harg5.read_unread, harg7.read_unread,
    View.ld_unit_zero (S := S10000x128) hz2, View.ld_unit_zero (S := S10000x1) hz2, View.ld_unit_zero (S := S64x128) hz2,
    View.ld_unit_zero (S := S64x1) hz2, View.ld_unit_zero (S := S128x128) hz2, View.ld_unit_zero (S := S1x128) hz2]

end Cert.KernelIdeal.Hand

end
-- ==== Proof.KI.V6b.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.V6a
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # The pooling region: the accumulator point by point, and the output array after the region -/

section
variable (V : (c : Dev nD) → (b : Ref sig .tc) → Buf (Elt F) ((c : Thread nD τ).loc b))

/-- The accumulator after point `n`: the zero block plus the first block's product, then one more product per point. -/
def acc6 (c : Dev nD) : (n : ℕ) → n < cfg6.N → Vec F S64x128 .f32
  | 0, hn => k6_pay2 (iblk6 V c 1 ⟨0, hn⟩) (iblk6 V c 0 ⟨0, hn⟩) (k6_pay1 (F := F))
  | n + 1, hn => k6_pay2 (iblk6 V c 1 ⟨n + 1, hn⟩) (iblk6 V c 0 ⟨n + 1, hn⟩) (acc6 c n (Nat.lt_of_succ_lt hn))

/-- What the region's invariant carries after point `n` is that accumulator. -/
theorem acc6_eq (c : Dev nD) : ∀ (n : ℕ) (hn : n < cfg6.N), (outsAt6 V c n hn).2 = acc6 V c n hn
  | 0, hn => by
    have h := outsAt6_A V c ⟨0, hn⟩ (Nat.zero_mod _) (by simp)
    refine (congrArg Prod.snd h).trans ?_
    dsimp only
    exact sout6_A_eq c _ _ _ _ _ _ _ _ _ _ _ _ _ _ _ _ _ _ _ _ _ _
  | n + 1, hn => by
    have hN : n + 1 < 10 := lt_of_lt_of_eq hn (show cfg6.N = 10 from N_6)
    have h0 : ¬(n + 1) % 10 = 0 := by omega
    by_cases h1 : (n + 1) % 10 = 9
    · have h := outsAt6_C V c ⟨n + 1, hn⟩ h0 h1
      refine (congrArg Prod.snd h).trans ?_
      dsimp only
      refine (sout6_C_eq c _ _ _ _ _ _ _ _ _ _ _ _ _ _ _ _ _ _ _ _ _ _ _).trans ?_
      exact congrArg (k6_pay2 (iblk6 V c 1 ⟨n + 1, hn⟩) (iblk6 V c 0 ⟨n + 1, hn⟩)) (acc6_eq c n (Nat.lt_of_succ_lt hn))
    · have h := outsAt6_B V c ⟨n + 1, hn⟩ h0 h1
      refine (congrArg Prod.snd h).trans ?_
      dsimp only
      refine (sout6_B_eq c _ _ _ _ _ _ _ _ _ _ _ _ _ _ _ _ _ _ _ _ _ _ _).trans ?_
      exact congrArg (k6_pay2 (iblk6 V c 1 ⟨n + 1, hn⟩) (iblk6 V c 0 ⟨n + 1, hn⟩)) (acc6_eq c n (Nat.lt_of_succ_lt hn))

/-- The printed index maps of the windows whose block is their whole array: always block (0, 0). -/
theorem blockIndex6 : ∀ t : Fin cfg6.N, win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The counts' window holds the whole 64 x 1 array at every point. -/
theorem iblk6_2_eq (c : Dev nD) (t : Fin cfg6.N) : iblk6 V c 2 t = V c (Pipeline.arrRef spec6 2) := by
  obtain ⟨e0, e1, -, -, -, -, -, -⟩ := blockIndex6 t
  funext y
  show V c (Pipeline.arrRef spec6 2) (((cfg6.win 2).blk t).view.emb y) = _
  refine congrArg (V c (Pipeline.arrRef spec6 2)) (funext fun a => Fin.ext ?_)
  match a with
  | ⟨0, _⟩ => show win6_2.index t (0 : Fin 2) * 64 + 1 * (y 0).val = (y 0).val; omega
  | ⟨1, _⟩ => show win6_2.index t (1 : Fin 2) * 1 + 1 * (y 1).val = (y 1).val; omega

/-- The final weight's window holds the whole 128 x 128 array at every point. -/
theorem iblk6_3_eq (c : Dev nD) (t : Fin cfg6.N) : iblk6 V c 3 t = V c (Pipeline.arrRef spec6 3) := by
  obtain ⟨-, -, e0, e1, -, -, -, -⟩ := blockIndex6 t
  funext y
  show V c (Pipeline.arrRef spec6 3) (((cfg6.win 3).blk t).view.emb y) = _
  refine congrArg (V c (Pipeline.arrRef spec6 3)) (funext fun a => Fin.ext ?_)
  match a with
  | ⟨0, _⟩ => show win6_3.index t (0 : Fin 2) * 128 + 1 * (y 0).val = (y 0).val; omega
  | ⟨1, _⟩ => show win6_3.index t (1 : Fin 2) * 128 + 1 * (y 1).val = (y 1).val; omega

/-- The final bias' window holds the whole 1 x 128 array at every point. -/
theorem iblk6_4_eq (c : Dev nD) (t : Fin cfg6.N) : iblk6 V c 4 t = V c (Pipeline.arrRef spec6 4) := by
  obtain ⟨-, -, -, -, e0, e1, -, -⟩ := blockIndex6 t
  funext y
  show V c (Pipeline.arrRef spec6 4) (((cfg6.win 4).blk t).view.emb y) = _
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- The pooled and projected result: the last accumulator divided by the counts, times the final weight, plus the bias. -/
def res6 (c : Dev nD) : Vec F S64x128 .f32 :=
  k6_pay3 (acc6 V c 9 (by rw [show cfg6.N = 10 from N_6]; decide)) (V c (Pipeline.arrRef spec6 2)) (V c (Pipeline.arrRef spec6 3)) (V c (Pipeline.arrRef spec6 4))

/-- The one point that writes the output block back (the last) writes the result. -/
theorem flushed6_eq (c : Dev nD) (t : Fin cfg6.N) (hf : (cfg6.win 5).flush t = true) :
    (dat6 V c).flushed 5 t = ((cfg6.win 5).blk t).view.read (Elt F) (res6 V c) := by
  have h1 : t.val % 10 = 9 := (flush6_5 t).mp hf
  have hN : t.val < 10 := lt_of_lt_of_eq t.isLt (show cfg6.N = 10 from N_6)
  have h0 : ¬t.val % 10 = 0 := by omega
  obtain ⟨-, -, -, -, -, -, e0, e1⟩ := blockIndex6 t
  show (cfg6.win 5).cut (grid6.coords t) ((dat6 V c).after 5 t) = _
  rw [after6_5]
  have h := outsAt6_C V c t h0 h1
  rw [congrArg Prod.fst h]
  dsimp only
  rw [out6_C_eq c _ _ _ _ _ _ _ _ _ _ _ _ _ _ _ _ _ _ _ _ _ _ _]
  have hacc : k6_pay2 (iblk6 V c 1 t) (iblk6 V c 0 t) (outsAt6 V c (t.val - 1) (Nat.lt_of_le_of_lt (Nat.sub_le _ _) t.isLt)).2
      = acc6 V c 9 (by rw [show cfg6.N = 10 from N_6]; decide) := by
    obtain ⟨n, hn⟩ := t
    have h9 : n = 9 := by dsimp only at h1 hN; omega
    subst h9
    exact congrArg (k6_pay2 (iblk6 V c 1 ⟨9, hn⟩) (iblk6 V c 0 ⟨9, hn⟩)) (acc6_eq V c 8 _)
  rw [hacc, iblk6_2_eq, iblk6_3_eq, iblk6_4_eq]
  funext j
  show res6 V c j = res6 V c (((cfg6.win 5).blk t).view.emb j)
  refine congrArg (res6 V c) (funext fun a => Fin.ext ?_)
  match a with
  | ⟨0, _⟩ => show (j 0).val = win6_5.index t (0 : Fin 2) * 64 + 1 * (j 0).val; omega
  | ⟨1, _⟩ => show (j 1).val = win6_5.index t (1 : Fin 2) * 128 + 1 * (j 1).val; omega

/-- Every entry of the 64 x 128 output array lies in the last point's block. -/
theorem cover6 (i : S64x128.Idx) :
    ∃ t : Fin cfg6.N, (cfg6.win 5).flush t = true ∧ i ∈ ((cfg6.win 5).blk t).view.set := by
  have hi0 : (i 0).val < 64 := (i 0).isLt
  have hi1 : (i 1).val < 128 := (i 1).isLt
  have hN : cfg6.N = 10 := N_6
  obtain ⟨t, ht⟩ : ∃ t : Fin cfg6.N, t.val = 9 := ⟨⟨9, by omega⟩, rfl⟩
  obtain ⟨-, -, -, -, -, -, e0, e1⟩ := blockIndex6 t
  refine ⟨t, (flush6_5 t).mpr (by omega), ?_⟩
  show i ∈ ((View.whole main_v101).slice (win6_5.rect t)).set
  rw [View.set_slice_whole, Rect.mem_set_unit]
  intro a
  match a with
  | ⟨0, _⟩ => show win6_5.index t (0 : Fin 2) * 64 ≤ (i 0).val ∧ (i 0).val < win6_5.index t (0 : Fin 2) * 64 + 64; omega
  | ⟨1, _⟩ => show win6_5.index t (1 : Fin 2) * 128 ≤ (i 1).val ∧ (i 1).val < win6_5.index t (1 : Fin 2) * 128 + 128; omega

/-- The output array after the region is the result. -/
theorem final6 (c : Dev nD) : (dat6 V c).arrAt 5 cfg6.N = res6 V c :=
  (dat6 V c).arrAt_eq_of_cover 5 (res6 V c) (fun t hf => flushed6_eq V c t hf) (cover6)

end

end Cert.KernelIdeal.Hand

end
-- ==== Proof.KI.PoolSpec.lean ====
/-
  The last stage of the graph network as ONE function of whole arrays, index by index: the per-graph sums of the node
  features (a node belongs to graph g when its graph id is g), divided by the per-graph counts, multiplied by the final
  128 x 128 weight, plus the final bias row. All values are extended reals; a node whose id is no graph number
  contributes to no sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.PoolSpec

open Idealize.ShloMosaic Idealize.ShloMosaic.ValueIdx

/-- The 100000 x 128 node features' index set. -/
abbrev NodeIdx : Type := (⟨2, ![100000, 128]⟩ : Shape).Idx
/-- The 100000 x 1 column of graph ids' index set. -/
abbrev IdsIdx : Type := (⟨2, ![100000, 1]⟩ : Shape).Idx
/-- The 64 x 128 pooled array's index set. -/
abbrev PoolIdx : Type := (⟨2, ![64, 128]⟩ : Shape).Idx
/-- The 64 x 1 column of counts' index set. -/
abbrev CntIdx : Type := (⟨2, ![64, 1]⟩ : Shape).Idx
/-- The 128 x 128 final weight's index set. -/
abbrev WeightIdx : Type := (⟨2, ![128, 128]⟩ : Shape).Idx
/-- The 1 x 128 final bias row's index set. -/
abbrev BiasIdx : Type := (⟨2, ![1, 128]⟩ : Shape).Idx

/-- Whether a node with graph id `w` belongs to graph `g`, as the number one or zero. -/
def ind (w : BitVec 32) (g : Fin 64) : EReal := if w = BitVec.ofNat 32 g.val then 1 else 0

/-- For a graph number below 64, an id equals it as a word exactly when it equals it read as a signed integer. -/
theorem toInt_ofNat_graph : ∀ g : Fin 64, (BitVec.ofNat 32 g.val).toInt = (g.val : ℤ) := by decide

theorem eq_ofNat_iff_toInt (w : BitVec 32) (g : Fin 64) : w = BitVec.ofNat 32 g.val ↔ w.toInt = (g.val : ℤ) :=
  ⟨fun h => h ▸ toInt_ofNat_graph g, fun h => BitVec.eq_of_toInt_eq (h.trans (toInt_ofNat_graph g).symm)⟩

/-- The per-graph sums: entry (g, q) adds column q of every node of graph g. -/
def segSum (ids : IdsIdx → BitVec 32) (z : NodeIdx → EReal) : PoolIdx → EReal :=
  fun j => ∑ r : Fin 100000, ind (ids (ix2 (n0 := 100000) (n1 := 1) r (0 : Fin 1))) (j 0) * z (ix2 (n0 := 100000) (n1 := 128) r (j 1))

theorem segSum_apply (ids : IdsIdx → BitVec 32) (z : NodeIdx → EReal) (g : Fin 64) (q : Fin 128) :
    segSum ids z (ix2 g q) = ∑ r : Fin 100000, ind (ids (ix2 r (0 : Fin 1))) g * z (ix2 r q) := rfl

/-- The pooled means times the final weight plus the final bias. -/
def poolOut (s : PoolIdx → EReal) (cnt : CntIdx → EReal) (w : WeightIdx → EReal) (b : BiasIdx → EReal) : PoolIdx → EReal :=
  fun j => (∑ k : Fin 128, Ideal.div (s (ix2 (n0 := 64) (n1 := 128) (j 0) k)) (cnt (ix2 (n0 := 64) (n1 := 1) (j 0) (0 : Fin 1))) * w (ix2 (n0 := 128) (n1 := 128) k (j 1)))
    + b (ix2 (n0 := 1) (n1 := 128) (0 : Fin 1) (j 1))

theorem poolOut_apply (s : PoolIdx → EReal) (cnt : CntIdx → EReal) (w : WeightIdx → EReal) (b : BiasIdx → EReal) (g : Fin 64) (q : Fin 128) :
    poolOut s cnt w b (ix2 g q) = (∑ k : Fin 128, Ideal.div (s (ix2 g k)) (cnt (ix2 g (0 : Fin 1))) * w (ix2 k q)) + b (ix2 (0 : Fin 1) q) := rfl

end Cert.PoolSpec

end
-- ==== Proof.KI.Pay6.lean ====
/-
  What the pooling stage's body computes from its loaded blocks, read at one entry, over the extended reals.

  At every point the body adds to the 64 x 128 accumulator the product of the transposed 10000 x 64 membership matrix
  of a block of rows (entry (k, g) is one when row k's graph id is g, zero otherwise) with the block's 10000 x 128
  features: entry (g, q) grows by the sum over the block's rows k of ind (id k) g * x (k, q). Before the first point
  the accumulator is the zero block. After the last, the body divides row g of the accumulator by the g-th count,
  multiplies by the 128 x 128 final weight and adds the bias row.
-/
import proofs.«145604_j19911468384638_1_alg».proof.Proof.Gen.KernelIdeal.Skeleton
import proofs.«145604_j19911468384638_1_alg».proof.Proof.LibMatmul
import proofs.«145604_j19911468384638_1_alg».proof.Proof.KI.Pay
import proofs.«145604_j19911468384638_1_alg».proof.Proof.KI.PoolSpec
import Idealize.ShloMosaic.Lib.ValueIdx
import Idealize.ShloMosaic.Lib.Pipeline.Value
import Idealize.ShloMosaic.Lib.ValueLayout

noncomputable section

open scoped BigOperators

namespace Cert.KernelIdeal.HandValue

open Cert.KernelIdeal Cert.KernelIdeal.Gen Cert.PoolSpec Idealize.ShloMosaic Idealize.ShloMosaic.ValueIdx

/-! ## A matrix product contracting the FIRST axis of both operands -/

/-- Entry (p, q) of the product of the transpose of a K by A matrix with a K by B matrix, accumulated into zero, is
    the sum over k of l (k, p) r (k, q). Stated for any dimension record whose operand indices are (contraction, row)
    on the left and (contraction, column) on the right, which the four coordinate hypotheses say. -/
theorem matmul_zero_lhsT_ix2 {A K B : ℕ} {φ₁ φ₂ : FTy}
    (d : DotDims (⟨2, ![K, A]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (q ⟨0, by omega⟩).val)
    (hl1 : ∀ i q, (d.lhsIdx i q (1 : Fin 2)).val = (i (0 : Fin 2)).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![K, A]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 k p) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## The pooling product: its operand indices, coordinate by coordinate -/

theorem pool_lhs_contr (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q

theorem pool_lhs_row (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl

theorem pool_rhs_contr (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q

theorem pool_rhs_col (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The transposed membership block times the feature block into the zero accumulator, at entry (g, q). -/
theorem poolProduct_apply (l : FVec Ideal S10000x64 .bf16) (r : FVec Ideal S10000x128 .bf16) (g : Fin 64) (q : Fin 128) :
    matmul dot_S10000x64_S10000x128_S64x128_0_0_1_1_n_n none l r (constant (F := Ideal) S64x128 .f32 0x00000000#32) (ix2 g q)
      = ∑ k : Fin 10000, l (ix2 k g) * r (ix2 k q) :=
  matmul_zero_lhsT_ix2 dot_S10000x64_S10000x128_S64x128_0_0_1_1_n_n rfl rfl
    pool_lhs_contr pool_lhs_row pool_rhs_contr pool_rhs_col none l r g q

/-! ## The final product: its operand indices, coordinate by coordinate -/

theorem final_lhs_row (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl

theorem final_lhs_contr (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q

theorem final_rhs_contr (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q

theorem final_rhs_col (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The 64 x 128 means times the final weight into the zero accumulator, at entry (g, q). -/
theorem finalProduct_apply (l : FVec Ideal S64x128 .bf16) (r : FVec Ideal S128x128 .bf16) (g : Fin 64) (q : Fin 128) :
    matmul dot_S64x128_S128x128_S64x128_1_0_0_1_n_n none l r (constant (F := Ideal) S64x128 .f32 0x00000000#32) (ix2 g q)
      = ∑ k : Fin 128, l (ix2 g k) * r (ix2 k q) :=
  Cert.LibMatmul.matmul_zero_ix2 dot_S64x128_S128x128_S64x128_1_0_0_1_n_n rfl rfl
    final_lhs_row final_lhs_contr final_rhs_contr final_rhs_col none l r g q

/-! ## Membership as a number -/

/-- The comparison of two words, widened to 32 bits and read as a signed integer, is one when they are equal and zero
    otherwise. -/
theorem membershipWord (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h]
    have hb : (a == b) = true := beq_iff_eq.mpr h
    have e : ((IntOp.cmpi .eq a b).setWidth 32).toInt = 1 := by
      show ((BitVec.ofBool (a == b)).setWidth 32).toInt = 1
      rw [hb]
      decide
    rw [e]
    norm_num
  · rw [if_neg h]
    have hb : (a == b) = false := beq_eq_false_iff_ne.mpr h
    have e : ((IntOp.cmpi .eq a b).setWidth 32).toInt = 0 := by
      show ((BitVec.ofBool (a == b)).setWidth 32).toInt = 0
      rw [hb]
      decide
    rw [e]
    norm_num

/-! ## The payloads at an entry -/

/-- Before the first point the accumulator is zero everywhere. -/
theorem pay6_1_apply (g : Fin 64) (q : Fin 128) : k6_pay1 (F := Ideal) (ix2 g q) = 0 := by
  unfold k6_pay1
  show shapeCast S64x128 (broadcast S64x128 (Scalar.ofBits (F := Ideal) .f32 0x00000000#32)) shapeCasts_S64x128_S64x128 (ix2 g q) = _
  rw [shapeCast_self, broadcast_apply]
  exact Ideal.ofBits_zero_f32

/-- One point's update: entry (g, q) of the accumulator grows by the sum, over the block's rows, of the membership
    of the row in graph g times the row's q-th feature. -/
theorem pay6_2_apply (x1 : IVec S10000x1 32) (x0 : FVec Ideal S10000x128 .f32) (xs : FVec Ideal S64x128 .f32)
    (g : Fin 64) (q : Fin 128) :
    k6_pay2 (F := Ideal) x1 x0 xs (ix2 g q) = xs (ix2 g q) + ∑ k : Fin 10000, ind (x1 (ix2 k (0 : Fin 1))) g * x0 (ix2 k q) := by
  unfold k6_pay2
  show shapeCast S64x128 (addf xs (matmul dot_S10000x64_S10000x128_S64x128_0_0_1_1_n_n none
      (truncf .bf16 (sitofp .f32 (extui 32 (cmpi .eq
        (broadcastTo S10000x64 (shapeCast S10000x1 x1 shapeCasts_S10000x1_S10000x1) broadcasts_S10000x1_S10000x64)
        (iota .tc S10000x64 32 [1] iota_S10000x64_d1_w32)) natLt_1_32)) bitsLt_bf16_f32)
      (truncf .bf16 (shapeCast S10000x128 x0 shapeCasts_S10000x128_S10000x128) bitsLt_bf16_f32)
      (constant (F := Ideal) S64x128 .f32 0x00000000#32))) shapeCasts_S64x128_S64x128 (ix2 g q) = _
  rw [shapeCast_self, addf_apply, shapeCast_self, shapeCast_self]
  refine congrArg (xs (ix2 g q) + ·) ?_
  rw [poolProduct_apply]
  refine Finset.sum_congr rfl fun k _ => ?_
  show FloatOps.sitofp (F := Ideal) .f32 ((IntOp.cmpi .eq (broadcastTo S10000x64 x1 broadcasts_S10000x1_S10000x64 (ix2 k g))
      (iota .tc S10000x64 32 [1] iota_S10000x64_d1_w32 (ix2 k g))).setWidth 32) * x0 (ix2 k q) = _
  rw [broadcastTo_a1_ab_apply x1 broadcasts_S10000x1_S10000x64 k g, iota_single_apply, membershipWord]
  rfl

/-- The last point's result: row g of the sums divided by the g-th count, times the final weight, plus the bias. -/
theorem pay6_3_apply (s : FVec Ideal S64x128 .f32) (cnt : FVec Ideal S64x1 .f32) (w : FVec Ideal S128x128 .f32)
    (b : FVec Ideal S1x128 .f32) (g : Fin 64) (q : Fin 128) :
    k6_pay3 (F := Ideal) s cnt w b (ix2 g q)
      = (∑ k : Fin 128, Ideal.div (s (ix2 g k)) (cnt (ix2 g (0 : Fin 1))) * w (ix2 k q)) + b (ix2 (0 : Fin 1) q) := by
  unfold k6_pay3
  show addf (matmul dot_S64x128_S128x128_S64x128_1_0_0_1_n_n none
      (truncf .bf16 (divf s (broadcastTo S64x128 (shapeCast S64x1 cnt shapeCasts_S64x1_S64x1) broadcasts_S64x1_S64x128)) bitsLt_bf16_f32)
      (truncf .bf16 w bitsLt_bf16_f32) (constant (F := Ideal) S64x128 .f32 0x00000000#32))
      (broadcastTo S64x128 (shapeCast S1x128 b shapeCasts_S1x128_S1x128) broadcasts_S1x128_S64x128) (ix2 g q) = _
  rw [addf_apply, shapeCast_self, shapeCast_self, finalProduct_apply, broadcastTo_1b_ab_apply b broadcasts_S1x128_S64x128 g q]
  refine congrArg (· + b (ix2 (0 : Fin 1) q)) (Finset.sum_congr rfl fun k _ => ?_)
  show Ideal.div (s (ix2 g k)) (broadcastTo S64x128 cnt broadcasts_S64x1_S64x128 (ix2 g k)) * w (ix2 k q) = _
  rw [broadcastTo_a1_ab_apply cnt broadcasts_S64x1_S64x128 g k]

end Cert.KernelIdeal.HandValue

end
-- ==== Proof.KI.V6c.lean ====
/-
  The pooling region's result as one function of the arrays the region finds.

  Point n reads rows 10000 n .. 10000 n + 9999 of the node features and of the graph ids and adds, to entry (g, q) of
  the accumulator, the sum over those rows of the membership of the row in graph g times the row's q-th feature. So
  after point n the accumulator holds the sum over the rows below 10000 (n + 1); after the tenth point, over all
  100000 rows: the per-graph sums. The last point divides by the counts, multiplies by the final weight and adds the
  bias.
-/
import proofs.«145604_j19911468384638_1_alg».proof.Proof.KI.V6b
import proofs.«145604_j19911468384638_1_alg».proof.Proof.KI.Pay6
import proofs.«145604_j19911468384638_1_alg».proof.Proof.KI.PoolSpec
import Idealize.ShloMosaic.Lib.Pipeline.Value

noncomputable section

open scoped BigOperators

namespace Cert.KernelIdeal.HandValue

open Cert.KernelIdeal Cert.KernelIdeal.Gen Cert.KernelIdeal.Hand Cert.PoolSpec
open Idealize.ShloMosaic Idealize.ShloMosaic.TcCoe Idealize.ShloMosaic.ValueIdx Idealize.SL.Sem
open Idealize.ShloMosaic.Pipeline (Dat)

/-! ## The per-graph sum as a sum over row numbers -/

/-- Row r's term of entry (g, q) of the per-graph sums, as a function of the row NUMBER (zero beyond the array). -/
def rowTerm (ids : IdsIdx → BitVec 32) (z : NodeIdx → EReal) (g : Fin 64) (q : Fin 128) (r : ℕ) : EReal :=
  if h : r < 100000 then ind (ids (ix2 (⟨r, h⟩ : Fin 100000) (0 : Fin 1))) g * z (ix2 (⟨r, h⟩ : Fin 100000) q) else 0

/-- The per-graph sum is the sum of the row terms over the first 100000 numbers. -/
theorem segSum_eq_range (ids : IdsIdx → BitVec 32) (z : NodeIdx → EReal) (g : Fin 64) (q : Fin 128) :
    segSum ids z (ix2 g q) = ∑ r ∈ Finset.range 100000, rowTerm ids z g q r := by
  rw [segSum_apply, ← Fin.sum_univ_eq_sum_range (fun r => rowTerm ids z g q r) 100000]
  refine Finset.sum_congr rfl fun r _ => ?_
  unfold rowTerm
  rw [dif_pos r.isLt]

/-- Row k of row block n, as a row of the whole array. -/
def blockRow (n : ℕ) (hn : n < 10) (k : Fin 10000) : Fin 100000 :=
  ⟨n * 10000 + k.val, by have := k.isLt; omega⟩

/-- One point's update of one accumulator entry: if the loaded blocks are rows 10000 n .. of the ids and of the
    features, and the entry held the sum over the rows below 10000 n, it now holds the sum over the rows below
    10000 (n + 1). -/
theorem accStep (ids : IdsIdx → BitVec 32) (z : NodeIdx → EReal)
    (x1 : IVec S10000x1 32) (x0 : FVec Ideal S10000x128 .f32) (xs : FVec Ideal S64x128 .f32)
    (n : ℕ) (hn : n < 10) (g : Fin 64) (q : Fin 128)
    (h1 : ∀ k : Fin 10000, x1 (ix2 k (0 : Fin 1)) = ids (ix2 (blockRow n hn k) (0 : Fin 1)))
    (h0 : ∀ k : Fin 10000, x0 (ix2 k q) = z (ix2 (blockRow n hn k) q))
    (hs : xs (ix2 g q) = ∑ r ∈ Finset.range (n * 10000), rowTerm ids z g q r) :
    k6_pay2 (F := Ideal) x1 x0 xs (ix2 g q) = ∑ r ∈ Finset.range ((n + 1) * 10000), rowTerm ids z g q r := by
  rw [pay6_2_apply, hs, show (n + 1) * 10000 = n * 10000 + 10000 by ring, Finset.sum_range_add]
  refine congrArg (∑ r ∈ Finset.range (n * 10000), rowTerm ids z g q r + ·) ?_
  rw [← Fin.sum_univ_eq_sum_range (fun k => rowTerm ids z g q (n * 10000 + k)) 10000]
  refine Finset.sum_congr rfl fun k _ => ?_
  have hlt : n * 10000 + k.val < 100000 := by have := k.isLt; omega
  unfold rowTerm
  rw [dif_pos hlt, h1 k, h0 k]
  rfl

/-! ## The accumulator after each point -/

variable (V : (c : Dev nD) → (b : Ref sig .tc) → Buf (Elt Ideal) ((c : Thread nD τ).loc b))

/-- The printed index maps of the two row-blocked windows over the grid: row block t, column block 0. -/
theorem blockIndex6in : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- Entry (k, 0) of point t's block of graph ids is the array's entry in row 10000 t + k. -/
theorem idsBlock (c : Dev nD) (t : Fin cfg6.N) (ht : t.val < 10) (k : Fin 10000) :
    iblk6 V c 1 t (ix2 k (0 : Fin 1)) = V c (Pipeline.arrRef spec6 1) (ix2 (blockRow t.val ht k) (0 : Fin 1)) := by
  obtain ⟨-, -, e0, e1⟩ := blockIndex6in t
  show V c (Pipeline.arrRef spec6 1) (((cfg6.win 1).blk t).view.emb (ix2 k (0 : Fin 1))) = _
  refine congrArg (V c (Pipeline.arrRef spec6 1)) (funext fun a => Fin.ext ?_)
  match a with
  | ⟨0, _⟩ => show win6_1.index t (0 : Fin 2) * 10000 + 1 * k.val = t.val * 10000 + k.val; omega
  | ⟨1, _⟩ => show win6_1.index t (1 : Fin 2) * 1 + 1 * 0 = 0; omega

/-- Entry (k, q) of point t's block of features is the array's entry in row 10000 t + k. -/
theorem featBlock (c : Dev nD) (t : Fin cfg6.N) (ht : t.val < 10) (k : Fin 10000) (q : Fin 128) :
    iblk6 V c 0 t (ix2 k q) = V c (Pipeline.arrRef spec6 0) (ix2 (blockRow t.val ht k) q) := by
  obtain ⟨e0, e1, -, -⟩ := blockIndex6in t
  show V c (Pipeline.arrRef spec6 0) (((cfg6.win 0).blk t).view.emb (ix2 k q)) = _
  refine congrArg (V c (Pipeline.arrRef spec6 0)) (funext fun a => Fin.ext ?_)
  match a with
  | ⟨0, _⟩ => show win6_0.index t (0 : Fin 2) * 10000 + 1 * k.val = t.val * 10000 + k.val; omega
  | ⟨1, _⟩ => show win6_0.index t (1 : Fin 2) * 128 + 1 * q.val = q.val; omega

/-- After point n, entry (g, q) of the accumulator is the sum of the row terms over the rows below 10000 (n + 1). -/
theorem acc6_range (c : Dev nD) (g : Fin 64) (q : Fin 128) : ∀ (n : ℕ) (hn : n < cfg6.N),
    acc6 V c n hn (ix2 g q)
      = ∑ r ∈ Finset.range ((n + 1) * 10000), rowTerm (V c (Pipeline.arrRef spec6 1)) (V c (Pipeline.arrRef spec6 0)) g q r
  | 0, hn => by
    show k6_pay2 (iblk6 V c 1 ⟨0, hn⟩) (iblk6 V c 0 ⟨0, hn⟩) (k6_pay1 (F := Ideal)) (ix2 g q) = _
    refine accStep _ _ _ _ _ 0 (by decide) g q (fun k => idsBlock V c ⟨0, hn⟩ (Nat.succ_pos 9) k)
      (fun k => featBlock V c ⟨0, hn⟩ (Nat.succ_pos 9) k q) ?_
    rw [pay6_1_apply]
    simp
  | n + 1, hn => by
    have hN : n + 1 < 10 := lt_of_lt_of_eq hn (show cfg6.N = 10 from N_6)
    show k6_pay2 (iblk6 V c 1 ⟨n + 1, hn⟩) (iblk6 V c 0 ⟨n + 1, hn⟩) (acc6 V c n (Nat.lt_of_succ_lt hn)) (ix2 g q) = _
    exact accStep _ _ _ _ _ (n + 1) hN g q (fun k => idsBlock V c ⟨n + 1, hn⟩ hN k)
      (fun k => featBlock V c ⟨n + 1, hn⟩ hN k q) (acc6_range c g q n (Nat.lt_of_succ_lt hn))

/-- After the last point the accumulator holds the per-graph sums of the features the region finds. -/
theorem acc6_last (c : Dev nD) (g : Fin 64) (q : Fin 128) :
    acc6 V c 9 (by rw [show cfg6.N = 10 from N_6]; decide) (ix2 g q)
      = segSum (V c (Pipeline.arrRef spec6 1)) (V c (Pipeline.arrRef spec6 0)) (ix2 g q) := by
  rw [acc6_range, segSum_eq_range]

/-- The region's result: the per-graph sums divided by the counts, times the final weight, plus the final bias. -/
theorem res6_eq (c : Dev nD) :
    res6 V c = poolOut (segSum (V c (Pipeline.arrRef spec6 1)) (V c (Pipeline.arrRef spec6 0)))
      (V c (Pipeline.arrRef spec6 2)) (V c (Pipeline.arrRef spec6 3)) (V c (Pipeline.arrRef spec6 4)) := by
  funext j
  obtain ⟨g, q, rfl⟩ : ∃ (g : Fin 64) (q : Fin 128), j = ix2 g q := ⟨j 0, j 1, eq_ix2 j⟩
  unfold res6
  rw [pay6_3_apply, poolOut_apply]
  refine congrArg (· + _) (Finset.sum_congr rfl fun k _ => ?_)
  rw [acc6_last]

end Cert.KernelIdeal.HandValue

end
-- ==== Proof.KI.RefStage.lean ====
/-
  The reference's dense stages are the specification's three maps of the stages before them.

  The reference computes each layer as: a matrix product of the node features with the layer's weights; a gather of
  its rows along the edges; the product of the gathered rows with the edge normalisation, broadcast from a column;
  a scatter-add back to the nodes; the bias row, broadcast down the rows, added; and in the first layer the maximum
  with the float zero. Read at an entry, the product stage is the projection, the multiplication stage is the row
  scaling of the gathered rows by the normalisation column, and the bias stages are the bias step of the scattered
  sums and the bias row. The gathers and scatters are never opened: they are the same arrays on both sides.
-/
import proofs.«145604_j19911468384638_1_alg».proof.Proof.KI.Spec
import proofs.«145604_j19911468384638_1_alg».proof.Proof.Gen.ReferenceIdeal.Read

noncomputable section

open scoped BigOperators

namespace Cert.KernelIdeal.RefStage

open Cert.ReferenceIdeal Cert.ReferenceIdeal.Read Cert.DenseSpec
open Idealize.ShloMosaic Idealize.ShloMosaic.ValueIdx

/-- First layer: the projection of the features by the first weights is the reference's first matrix product. -/
theorem proj_layer1 (x0 : (⟨S100000x128, .f32⟩ : BufTy).Contents (Elt Ideal)) (x4 : (⟨S128x128, .f32⟩ : BufTy).Contents (Elt Ideal)) :
    proj x0 x4 = val_main_v33 (F := Ideal) x0 x4 := by
  funext j
  obtain ⟨p, q, rfl⟩ : ∃ (p : Fin 100000) (q : Fin 128), j = ix2 p q := ⟨j 0, j 1, eq_ix2 j⟩
  rw [proj_apply, val_main_v33_apply]
  refine Finset.sum_congr rfl fun k _ => ?_
  have el : lidx_main_v33 (ix2 p q) k = ix2 p k := funext fun a => Fin.ext (by match a with | ⟨0, _⟩ => rfl | ⟨1, _⟩ => rfl)
  have er : ridx_main_v33 (ix2 p q) k = ix2 k q := funext fun a => Fin.ext (by match a with | ⟨0, _⟩ => rfl | ⟨1, _⟩ => rfl)
  rw [el, er]

/-- First layer: the gathered rows scaled by the normalisation column are the reference's multiplication stage. -/
theorem scale_layer1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) :
    scaleRows (val_main_v40 (F := Ideal) x0 x1 x4) (val_main_v41 (F := Ideal) x1 x2) = val_main_v43 (F := Ideal) x0 x1 x2 x4 := by
  funext j
  obtain ⟨p, q, rfl⟩ : ∃ (p : Fin 1700000) (q : Fin 128), j = ix2 p q := ⟨j 0, j 1, eq_ix2 j⟩
  rw [scaleRows_apply, val_main_v43_apply, val_main_v42_apply]
  have e : idx_main_v42 (ix2 p q) = ix2 p (0 : Fin 1) := funext fun a => Fin.ext (by match a with | ⟨0, _⟩ => rfl | ⟨1, _⟩ => rfl)
  rw [e]
  rfl

/-- First layer: the bias step with the rectifier of the scattered sums is the reference's rectified stage. -/
theorem bias_layer1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) :
    biasAct true (val_main_v46 (F := Ideal) x0 x1 x2 x4) (val_main_v47 (F := Ideal) x5) = val_main_v50 (F := Ideal) x0 x1 x2 x4 x5 := by
  funext j
  obtain ⟨p, q, rfl⟩ : ∃ (p : Fin 100000) (q : Fin 128), j = ix2 p q := ⟨j 0, j 1, eq_ix2 j⟩
  rw [biasAct_true_apply, val_main_v50_apply, val_main_v49_apply, val_main_v48_apply, val_main_call1_v0_apply, val_main_call1_cst_apply]
  have e : idx_main_v48 (ix2 p q) = ix2 (0 : Fin 1) q := funext fun a => Fin.ext (by match a with | ⟨0, _⟩ => rfl | ⟨1, _⟩ => rfl)
  rw [e]
  rfl

/-- Second layer: the projection of the first layer's output by the second weights is the reference's second product. -/
theorem proj_layer2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    proj (val_main_v50 (F := Ideal) x0 x1 x2 x4 x5) x6 = val_main_v80 (F := Ideal) x0 x1 x2 x4 x5 x6 := by
  funext j
  obtain ⟨p, q, rfl⟩ : ∃ (p : Fin 100000) (q : Fin 128), j = ix2 p q := ⟨j 0, j 1, eq_ix2 j⟩
  rw [proj_apply, val_main_v80_apply]
  refine Finset.sum_congr rfl fun k _ => ?_
  have el : lidx_main_v80 (ix2 p q) k = ix2 p k := funext fun a => Fin.ext (by match a with | ⟨0, _⟩ => rfl | ⟨1, _⟩ => rfl)
  have er : ridx_main_v80 (ix2 p q) k = ix2 k q := funext fun a => Fin.ext (by match a with | ⟨0, _⟩ => rfl | ⟨1, _⟩ => rfl)
  rw [el, er]

/-- Second layer: the gathered rows scaled by the normalisation column are the reference's multiplication stage. -/
theorem scale_layer2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    scaleRows (val_main_v87 (F := Ideal) x0 x1 x2 x4 x5 x6) (val_main_v88 (F := Ideal) x1 x2) = val_main_v90 (F := Ideal) x0 x1 x2 x4 x5 x6 := by
  funext j
  obtain ⟨p, q, rfl⟩ : ∃ (p : Fin 1700000) (q : Fin 128), j = ix2 p q := ⟨j 0, j 1, eq_ix2 j⟩
  rw [scaleRows_apply, val_main_v90_apply, val_main_v89_apply]
  have e : idx_main_v89 (ix2 p q) = ix2 p (0 : Fin 1) := funext fun a => Fin.ext (by match a with | ⟨0, _⟩ => rfl | ⟨1, _⟩ => rfl)
  rw [e]
  rfl

/-- Second layer: the plain bias step of the scattered sums is the reference's last node-level stage. -/
theorem bias_layer2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    biasAct false (val_main_v93 (F := Ideal) x0 x1 x2 x4 x5 x6) (val_main_v94 (F := Ideal) x7) = val_main_v96 (F := Ideal) x0 x1 x2 x4 x5 x6 x7 := by
  funext j
  obtain ⟨p, q, rfl⟩ : ∃ (p : Fin 100000) (q : Fin 128), j = ix2 p q := ⟨j 0, j 1, eq_ix2 j⟩
  rw [biasAct_false_apply, val_main_v96_apply, val_main_v95_apply]
  have e : idx_main_v95 (ix2 p q) = ix2 (0 : Fin 1) q := funext fun a => Fin.ext (by match a with | ⟨0, _⟩ => rfl | ⟨1, _⟩ => rfl)
  rw [e]
  rfl

end Cert.KernelIdeal.RefStage

end
-- ==== Proof.KI.PoolRef.lean ====
/-
  The reference's pooling stage is the specification's: per-graph sums of the node rows, divided by the per-graph
  counts, times the final weight, plus the final bias row.

  The reference scatters the rows of the last node-level array into a zero 64 x 128 array by graph id, adding
  collisions. Row r, column c of the updates lands at row id(r), column c, where id(r) is the id read as a signed
  integer, and is dropped when id(r) is no graph number. So entry (g, q) of the scatter is the sum over the nodes r
  with id(r) = g of entry (r, q): the per-graph sum. The division by the broadcast counts, the product with the final
  weight and the broadcast bias are then read entry by entry.
-/
import proofs.«145604_j19911468384638_1_alg».proof.Proof.Gen.ReferenceIdeal.Read
import proofs.«145604_j19911468384638_1_alg».proof.Proof.KI.PoolSpec

set_option maxRecDepth 16384
noncomputable section
open scoped BigOperators
namespace Cert.KernelIdeal.PoolRef
open Cert.ReferenceIdeal Cert.ReferenceIdeal.Gen Cert.ReferenceIdeal.Read Idealize.ShloMosaic Idealize.ShloMosaic.ValueIdx Cert.PoolSpec

/-- The scatter's dimension numbers: updates' axis 1 is the window, the operand's axis 0 takes the id. -/
abbrev dsc : ScatterDims S64x128 S100000x1 S100000x128 := scatter_S64x128_S100000x1_S100000x128_1_0_0_1

/-- The window of update (r, c) starts at row id(r), read signed, … -/
theorem start0 (r : Fin 100000) (q' : Fin 128) (ids : IVec S100000x1 32) :
    ScatterDims.start dsc (ix2 r q' : S100000x128.Idx) ids (0 : Fin 2) = (ids (ix2 r (0 : Fin 1))).toInt := by
  unfold ScatterDims.start
  rw [dif_pos (show (0 : Fin S64x128.rank) ∈ (dsc).scatterDimsToOperandDims by decide)]
  refine congrArg (fun i => (ids i).toInt) (funext fun b => Fin.ext ?_)
  match b with
  | ⟨0, _⟩ => rfl
  | ⟨1, _⟩ => rfl

/-- … and at column 0; … -/
theorem start1 (r : Fin 100000) (q' : Fin 128) (ids : IVec S100000x1 32) :
    ScatterDims.start dsc (ix2 r q' : S100000x128.Idx) ids (1 : Fin 2) = 0 := by
  unfold ScatterDims.start
  rw [dif_neg (show ¬ (1 : Fin S64x128.rank) ∈ (dsc).scatterDimsToOperandDims by decide)]

/-- … inside the window the update sits at row 0 … -/
theorem window0 (r : Fin 100000) (q' : Fin 128) :
    ScatterDims.window dsc (ix2 r q' : S100000x128.Idx) (0 : Fin 2) = 0 := by
  unfold ScatterDims.window
  rw [dif_neg (show ¬ (0 : Fin S64x128.rank) ∈ (dsc).sKept by decide)]

/-- … and column c. -/
theorem window1 (r : Fin 100000) (q' : Fin 128) :
    ScatterDims.window dsc (ix2 r q' : S100000x128.Idx) (1 : Fin 2) = q'.val := by
  unfold ScatterDims.window
  rw [dif_pos (show (1 : Fin S64x128.rank) ∈ (dsc).sKept by decide)]
  rfl

/-- Update (r, c) lands at (g, q) exactly when id(r) = g and c = q; an id that is no graph number lands nowhere. -/
theorem resultIdx_eq_some (r : Fin 100000) (q' : Fin 128) (ids : IVec S100000x1 32) (g : Fin 64) (q : Fin 128) :
    ScatterDims.resultIdx? dsc (ix2 r q' : S100000x128.Idx) ids = some (ix2 g q : S64x128.Idx)
      ↔ (ids (ix2 r (0 : Fin 1))).toInt = (g.val : ℤ) ∧ q' = q := by
  have s0 := start0 r q' ids
  have s1 := start1 r q' ids
  have w0 := window0 r q'
  have w1 := window1 r q'
  have hg : g.val < 64 := g.isLt
  have hq' : q'.val < 128 := q'.isLt
  unfold ScatterDims.resultIdx?
  split
  · rename_i h
    have h0 : 0 ≤ (ids (ix2 r (0 : Fin 1))).toInt + ((0 : ℕ) : ℤ) ∧ (ids (ix2 r (0 : Fin 1))).toInt + ((0 : ℕ) : ℤ) < ((64 : ℕ) : ℤ) := by
      have := h 0; rw [s0, w0] at this; exact this
    rw [Option.some.injEq]
    constructor
    · intro e
      have e0 : (ScatterDims.start dsc (ix2 r q' : S100000x128.Idx) ids (0 : Fin 2) + (ScatterDims.window dsc (ix2 r q' : S100000x128.Idx) (0 : Fin 2) : ℤ)).toNat = g.val := congrArg Fin.val (congrFun e 0)
      have e1 : (ScatterDims.start dsc (ix2 r q' : S100000x128.Idx) ids (1 : Fin 2) + (ScatterDims.window dsc (ix2 r q' : S100000x128.Idx) (1 : Fin 2) : ℤ)).toNat = q.val := congrArg Fin.val (congrFun e 1)
      rw [s0, w0] at e0
      rw [s1, w1] at e1
      exact ⟨by omega, Fin.ext (by omega)⟩
    · rintro ⟨e0, rfl⟩
      funext a
      apply Fin.ext
      match a with
      | ⟨0, _⟩ =>
        show (ScatterDims.start dsc (ix2 r q' : S100000x128.Idx) ids (0 : Fin 2) + (ScatterDims.window dsc (ix2 r q' : S100000x128.Idx) (0 : Fin 2) : ℤ)).toNat = g.val
        rw [s0, w0]; omega
      | ⟨1, _⟩ =>
        show (ScatterDims.start dsc (ix2 r q' : S100000x128.Idx) ids (1 : Fin 2) + (ScatterDims.window dsc (ix2 r q' : S100000x128.Idx) (1 : Fin 2) : ℤ)).toNat = q'.val
        rw [s1, w1]; omega
  · rename_i h
    constructor
    · intro e; exact absurd e (by simp)
    · rintro ⟨e0, rfl⟩
      exfalso
      apply h
      intro a
      match a with
      | ⟨0, _⟩ =>
        show 0 ≤ ScatterDims.start dsc (ix2 r q' : S100000x128.Idx) ids (0 : Fin 2) + (ScatterDims.window dsc (ix2 r q' : S100000x128.Idx) (0 : Fin 2) : ℤ) ∧ ScatterDims.start dsc (ix2 r q' : S100000x128.Idx) ids (0 : Fin 2) + (ScatterDims.window dsc (ix2 r q' : S100000x128.Idx) (0 : Fin 2) : ℤ) < ((64 : ℕ) : ℤ)
        rw [s0, w0]; omega
      | ⟨1, _⟩ =>
        show 0 ≤ ScatterDims.start dsc (ix2 r q' : S100000x128.Idx) ids (1 : Fin 2) + (ScatterDims.window dsc (ix2 r q' : S100000x128.Idx) (1 : Fin 2) : ℤ) ∧ ScatterDims.start dsc (ix2 r q' : S100000x128.Idx) ids (1 : Fin 2) + (ScatterDims.window dsc (ix2 r q' : S100000x128.Idx) (1 : Fin 2) : ℤ) < ((128 : ℕ) : ℤ)
        rw [s1, w1]; omega

/-- The scatter-add of the node rows by graph id, read at (g, q): the start value plus the sum, over the nodes whose
    id is g, of their q-th entries. -/
theorem scatter_apply (X : S64x128.Idx → EReal) (ids : IVec S100000x1 32) (Z : S100000x128.Idx → EReal) (g : Fin 64) (q : Fin 128) :
    Ideal.hostScatterAdd dsc X ids Z (ix2 g q) = X (ix2 g q) + ∑ r : Fin 100000, ind (ids (ix2 r (0 : Fin 1))) g * Z (ix2 r q) := by
  unfold Ideal.hostScatterAdd
  refine congrArg (X (ix2 g q) + ·) ?_
  rw [Finset.sum_filter, sum_idx2]
  refine Finset.sum_congr rfl fun r _ => ?_
  refine (Finset.sum_congr rfl fun q' _ => if_congr (resultIdx_eq_some r q' ids g q) rfl rfl).trans ?_
  unfold ind
  by_cases hid : ids (ix2 r (0 : Fin 1)) = BitVec.ofNat 32 g.val
  · have hi : (ids (ix2 r (0 : Fin 1))).toInt = (g.val : ℤ) := (eq_ofNat_iff_toInt _ g).mp hid
    rw [if_pos hid, one_mul]
    simp only [hi, true_and, Finset.sum_ite_eq', Finset.mem_univ, if_true]
  · have hi : ¬ (ids (ix2 r (0 : Fin 1))).toInt = (g.val : ℤ) := fun h => hid ((eq_ofNat_iff_toInt _ g).mpr h)
    rw [if_neg hid, zero_mul]
    simp only [hi, false_and, if_false, Finset.sum_const_zero]

/-- The reference's scatter of the last node-level stage by graph id is the per-graph sums. -/
theorem seg_ref (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v99 (F := Ideal) x0 x1 x2 x3 x4 x5 x6 x7
      = segSum (val_main_v98 (F := Ideal) x3) (val_main_v96 (F := Ideal) x0 x1 x2 x4 x5 x6 x7) := by
  unfold val_main_v99
  generalize val_main_v96 (F := Ideal) x0 x1 x2 x4 x5 x6 x7 = Z
  generalize val_main_v98 (F := Ideal) x3 = ids
  funext j
  obtain ⟨g, q, rfl⟩ : ∃ (g : Fin 64) (q : Fin 128), j = ix2 g q := ⟨j 0, j 1, eq_ix2 j⟩
  show Ideal.hostScatterAdd dsc (val_main_v97 (F := Ideal)) ids Z (ix2 g q) = _
  rw [scatter_apply, segSum_apply, val_main_v97_apply, val_main_cst_22_apply]
  show Ideal.ofBits .f32 0x00000000#32 + _ = _
  rw [Ideal.ofBits_zero_f32, zero_add]

/-- The reference's result is the pooled means times the final weight plus the final bias. -/
theorem pool_ref (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    poolOut (segSum (val_main_v98 (F := Ideal) x3) (val_main_v96 (F := Ideal) x0 x1 x2 x4 x5 x6 x7))
        (val_main_v106 (F := Ideal) x3) x8 (val_main_v110 (F := Ideal) x9)
      = val_main_v112 (F := Ideal) x0 x1 x2 x3 x4 x5 x6 x7 x8 x9 := by
  rw [← seg_ref x0 x1 x2 x3 x4 x5 x6 x7]
  funext j
  obtain ⟨g, q, rfl⟩ : ∃ (g : Fin 64) (q : Fin 128), j = ix2 g q := ⟨j 0, j 1, eq_ix2 j⟩
  rw [poolOut_apply, val_main_v112_apply, val_main_v109_apply, val_main_v111_apply]
  have eb : idx_main_v111 (ix2 g q) = ix2 (0 : Fin 1) q := funext fun a => Fin.ext (by match a with | ⟨0, _⟩ => rfl | ⟨1, _⟩ => rfl)
  rw [eb]
  refine congrArg (· + val_main_v110 (F := Ideal) x9 (ix2 (0 : Fin 1) q)) ?_
  refine Finset.sum_congr rfl fun k _ => ?_
  have el : lidx_main_v109 (ix2 g q) k = ix2 g k := funext fun a => Fin.ext (by match a with | ⟨0, _⟩ => rfl | ⟨1, _⟩ => rfl)
  have er : ridx_main_v109 (ix2 g q) k = ix2 k q := funext fun a => Fin.ext (by match a with | ⟨0, _⟩ => rfl | ⟨1, _⟩ => rfl)
  rw [el, er, val_main_v108_apply, val_main_v107_apply]
  have ec : idx_main_v107 (ix2 g k) = ix2 g (0 : Fin 1) := funext fun a => Fin.ext (by match a with | ⟨0, _⟩ => rfl | ⟨1, _⟩ => rfl)
  rw [ec]
  rfl

end Cert.KernelIdeal.PoolRef

end
-- ==== Proof.KI.Host0_1.lean ====
/-
  The outlined selection after the first degrees, read as a pure term.

  The three operations make the float zero a 100000-entry vector and select, node by node, the degree's power -1/2
  where the degree is positive and that zero elsewhere. The lemma says: if the buffers the stretch reads hold the
  reference's stages of the arguments, the selected vector holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The inverse square roots of the degrees of layer one, zero where the degree is not positive. -/
theorem hostOps0_1_main_v16 (W : Valuation τ sig (Elt F)) (x1 : (⟨S2x1600000, .i32⟩ : BufTy).Contents (Elt F)) (x2 : (⟨S1600000, .f32⟩ : BufTy).Contents (Elt F))
    (hc : W (Proc.devRef .tc main_cst_3) = val_main_cst_3 (F := F))
    (h13 : W (Proc.devRef .tc main_v13) = val_main_v13 (F := F) x1 x2)
    (h15 : W (Proc.devRef .tc main_v15) = val_main_v15 (F := F) x1 x2) :
    StableHlo.after hostOps0_1 W (Proc.devRef .tc main_v16) = val_main_v16 (F := F) x1 x2 := by
  after_results
  rw [hc, h13, h15]
  simp only [val_main_v16, val_main_call0_v1, val_main_call0_v0]
  rfl

end Cert.KernelIdeal.HostRead

end
-- ==== Proof.KI.Host0_2.lean ====
/-
  The host operations that compute the first layer's normalisation factors, read as pure terms.

  For each of the 1700000 messages the stretch wraps its source-node number and its target-node number (a negative
  number counts from the end: 100000 is added to it), gathers the inverse square root of the degree at each of the
  two, and multiplies the first by the message's weight and by the second. The lemma says: if the buffers the
  stretch reads hold the reference's stages of the arguments, the factors hold the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The normalisation factors of layer one. -/
theorem hostOps0_2_main_v32 (W : Valuation τ sig (Elt F)) (x1 : (⟨S2x1600000, .i32⟩ : BufTy).Contents (Elt F)) (x2 : (⟨S1600000, .f32⟩ : BufTy).Contents (Elt F))
    (h5 : W (Proc.devRef .tc main_v5) = val_main_v5 (F := F) x1)
    (h6 : W (Proc.devRef .tc main_v6) = val_main_v6 (F := F) x1)
    (h8 : W (Proc.devRef .tc main_v8) = val_main_v8 (F := F) x2)
    (h16 : W (Proc.devRef .tc main_v16) = val_main_v16 (F := F) x1 x2) :
    StableHlo.after hostOps0_2 W (Proc.devRef .tc main_v32) = val_main_v32 (F := F) x1 x2 := by
  after_results_simp
  rw [h5]
  rw [h6]
  rw [h8]
  rw [h16]
  simp only [val_main_v32, val_main_v31, val_main_v30, val_main_v29, val_main_v28, val_main_v27, val_main_c_6,
    val_main_v26, val_main_v25, val_main_c_5, val_main_v24, val_main_v23, val_main_v22, val_main_v21, val_main_v20,
    val_main_v19, val_main_c_4, val_main_v18, val_main_v17, val_main_c]
  rfl

end Cert.KernelIdeal.HostRead

end
-- ==== Proof.KI.HostTactic.lean ====
/-
  Reading a buffer after a stretch of host operations whose operands sit inside a joined list.

  The library reads a buffer after a list of host operations either by one simplification pass or by a loop of
  single rewrites. The pass does not enter the list of arrays a concatenation joins (the concatenation's side
  condition is stated over that list), so an operand there stays an unread buffer; the loop reads it. The tactic
  here runs the pass and then the loop on what the pass left: each operation's result at its own result buffer is
  its function's value, and at any other buffer what was there before.
-/
import Idealize.ShloMosaic.Lib.StableHlo.Run

namespace Cert.KernelIdeal.HostRead

open Idealize.ShloMosaic Idealize.ShloMosaic.StableHlo

/-- Reads `after ops W b` for a literal list of operations: one simplification pass, then single rewrites inside
    the operands of a concatenation. -/
macro "host_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.KernelIdeal.HostRead
-- ==== Proof.KI.Host0.lean ====
/-
  The first stretch of host operations — the graph's edge lists and the first layer's degrees —, read as pure terms.

  The stretch takes the two rows of the 2 x 1600000 edge list (source and target node of each edge) as vectors,
  appends to each the node numbers 0 … 99999 (one self loop per node) and to the 1600000 edge weights 100000 ones,
  sums the weights arriving at each node (a scatter-add into 100000 zeros), and prepares the degree's positivity test
  and its power -1/2. Each lemma says: if the arguments the stretch reads are given arrays, the buffer it writes holds
  the reference's stage of them.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostTactic

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The source nodes of the edges. -/
theorem hostOps0_main_v1 (W : Valuation τ sig (Elt F)) (x1 : (⟨S2x1600000, .i32⟩ : BufTy).Contents (Elt F))
    (h1 : W (Proc.devRef .tc main_arg1) = x1) :
    StableHlo.after hostOps0 W (Proc.devRef .tc main_v1) = val_main_v1 (F := F) x1 := by
  host_results
  rw [h1]
  simp only [val_main_v1, val_main_v0]
  first | done | rfl

/-- The target nodes of the edges. -/
theorem hostOps0_main_v3 (W : Valuation τ sig (Elt F)) (x1 : (⟨S2x1600000, .i32⟩ : BufTy).Contents (Elt F))
    (h1 : W (Proc.devRef .tc main_arg1) = x1) :
    StableHlo.after hostOps0 W (Proc.devRef .tc main_v3) = val_main_v3 (F := F) x1 := by
  host_results
  rw [h1]
  simp only [val_main_v3, val_main_v2]
  first | done | rfl

/-- The source nodes of the messages: the edges' followed by every node's own number. -/
theorem hostOps0_main_v5 (W : Valuation τ sig (Elt F)) (x1 : (⟨S2x1600000, .i32⟩ : BufTy).Contents (Elt F))
    (h1 : W (Proc.devRef .tc main_arg1) = x1) :
    StableHlo.after hostOps0 W (Proc.devRef .tc main_v5) = val_main_v5 (F := F) x1 := by
  host_results
  rw [h1]
  simp only [val_main_v5, val_main_v4, val_main_v1, val_main_v0]
  first | done | rfl

/-- The target nodes of the messages: the edges' followed by every node's own number. -/
theorem hostOps0_main_v6 (W : Valuation τ sig (Elt F)) (x1 : (⟨S2x1600000, .i32⟩ : BufTy).Contents (Elt F))
    (h1 : W (Proc.devRef .tc main_arg1) = x1) :
    StableHlo.after hostOps0 W (Proc.devRef .tc main_v6) = val_main_v6 (F := F) x1 := by
  host_results
  rw [h1]
  simp only [val_main_v6, val_main_v4, val_main_v3, val_main_v2]
  first | done | rfl

/-- The weights of the messages: the edges' followed by a one per self loop. -/
theorem hostOps0_main_v8 (W : Valuation τ sig (Elt F)) (x2 : (⟨S1600000, .f32⟩ : BufTy).Contents (Elt F))
    (h2 : W (Proc.devRef .tc main_arg2) = x2) :
    StableHlo.after hostOps0 W (Proc.devRef .tc main_v8) = val_main_v8 (F := F) x2 := by
  host_results
  rw [h2]
  simp only [val_main_v8, val_main_v7, val_main_cst]
  first | done | rfl

/-- Which nodes have a positive degree. -/
theorem hostOps0_main_v13 (W : Valuation τ sig (Elt F)) (x1 : (⟨S2x1600000, .i32⟩ : BufTy).Contents (Elt F)) (x2 : (⟨S1600000, .f32⟩ : BufTy).Contents (Elt F))
    (h1 : W (Proc.devRef .tc main_arg1) = x1) (h2 : W (Proc.devRef .tc main_arg2) = x2) :
    StableHlo.after hostOps0 W (Proc.devRef .tc main_v13) = val_main_v13 (F := F) x1 x2 := by
  host_results
  rw [h1]
  rw [h2]
  simp only [val_main_v13, val_main_v12, val_main_cst_1, val_main_v11, val_main_v10, val_main_v9, val_main_cst_0,
    val_main_v8, val_main_v7, val_main_cst, val_main_v6, val_main_v4, val_main_v3, val_main_v2]
  first | done | rfl

/-- The degrees to the power -1/2. -/
theorem hostOps0_main_v15 (W : Valuation τ sig (Elt F)) (x1 : (⟨S2x1600000, .i32⟩ : BufTy).Contents (Elt F)) (x2 : (⟨S1600000, .f32⟩ : BufTy).Contents (Elt F))
    (h1 : W (Proc.devRef .tc main_arg1) = x1) (h2 : W (Proc.devRef .tc main_arg2) = x2) :
    StableHlo.after hostOps0 W (Proc.devRef .tc main_v15) = val_main_v15 (F := F) x1 x2 := by
  host_results
  rw [h1]
  rw [h2]
  simp only [val_main_v15, val_main_v14, val_main_cst_2, val_main_v11, val_main_v10, val_main_v9, val_main_cst_0,
    val_main_v8, val_main_v7, val_main_cst, val_main_v6, val_main_v4, val_main_v3, val_main_v2]
  first | done | rfl

/-- The float zero that replaces the power where the degree is not positive. -/
theorem hostOps0_main_cst_3 (W : Valuation τ sig (Elt F)) :
    StableHlo.after hostOps0 W (Proc.devRef .tc main_cst_3) = val_main_cst_3 (F := F) := by
  host_results
  simp only [val_main_cst_3]

end Cert.KernelIdeal.HostRead

end
-- ==== Proof.KI.HostLayout.lean ====
/-
  Two views of a vector as a matrix with one unit axis, each equal to a broadcast.

  A vector of a entries can be made a 1 x a row, or an a x 1 column, either by re-reading its entries in
  row-major order (a shape cast) or by broadcasting it along the new unit axis. Both read the same entry of
  the vector at every index of the result: the row-major position of (0, i) in a 1 x a array, and of (i, 0) in
  an a x 1 array, is i.
-/
import Idealize.ShloMosaic.Lib.Pipeline.Value
import Idealize.ShloMosaic.Lib.ValueIdx

namespace Cert.KernelIdeal.HostRead

open Idealize.ShloMosaic Idealize.ShloMosaic.ValueIdx

variable {α : Type}

/-- A vector of `a` entries cast to a 1 x a row is the vector broadcast along a new leading unit axis. -/
theorem shapeCast_row_eq_broadcastInDim {a : ℕ} (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ (![1] : Fin 1 → Fin 2) hb x := by
  funext j
  have h0 : (j 0).val < 1 := (j 0).isLt
  have h1 : (j 1).val < a := (j 1).isLt
  have hu : (j 0).val = 0 := by omega
  rw [shapeCast_apply x hc j (ix1 ⟨(j 1).val, h1⟩) (by
        rw [Shape.rowMajor_val_one, Shape.rowMajor_val_two]
        show (j 1).val = (j 0).val * a + (j 1).val
        rw [hu, Nat.zero_mul, Nat.zero_add]),
    broadcastInDim_apply (![1] : Fin 1 → Fin 2) hb x j (ix1 ⟨(j 1).val, h1⟩) (fun d => match d with
      | ⟨0, _⟩ => by
          show (j 1).val = if a = 1 then 0 else (j 1).val
          split <;> omega)]

/-- A vector of `a` entries cast to an a x 1 column is the vector broadcast along a new trailing unit axis. -/
theorem shapeCast_col_eq_broadcastInDim {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ (![0] : Fin 1 → Fin 2) hb x := by
  funext j
  have h0 : (j 0).val < a := (j 0).isLt
  have h1 : (j 1).val < 1 := (j 1).isLt
  have hu : (j 1).val = 0 := by omega
  rw [shapeCast_apply x hc j (ix1 ⟨(j 0).val, h0⟩) (by
        rw [Shape.rowMajor_val_one, Shape.rowMajor_val_two]
        show (j 0).val = (j 0).val * 1 + (j 1).val
        rw [hu, Nat.mul_one, Nat.add_zero]),
    broadcastInDim_apply (![0] : Fin 1 → Fin 2) hb x j (ix1 ⟨(j 0).val, h0⟩) (fun d => match d with
      | ⟨0, _⟩ => by
          show (j 0).val = if a = 1 then 0 else (j 0).val
          split <;> omega)]

end Cert.KernelIdeal.HostRead
-- ==== Proof.KI.Host1.lean ====
/-
  The host operations between the first layer's projection and its row scaling, read as pure terms.

  The stretch wraps the 1700000 source-node numbers (a negative number counts from the end: 100000 is added to it),
  makes them a 1700000 x 1 column of gather indices, gathers the projected feature row of each message's source node,
  and views the 1700000 normalisation factors as a 1700000 x 1 column. Each lemma says: if the buffers the stretch
  reads hold the reference's stages of the arguments, the buffer it writes holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostLayout

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The messages of layer one: the projected feature row of each message's source node. -/
theorem hostOps1_main_v40 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F))
    (h5 : W (Proc.devRef .tc main_v5) = val_main_v5 (F := F) x1)
    (h33 : W (Proc.devRef .tc main_v33) = val_main_v33 (F := F) x0 x4) :
    StableHlo.after hostOps1 W (Proc.devRef .tc main_v40) = val_main_v40 (F := F) x0 x1 x4 := by
  after_results
  rw [h5, h33]
  simp only [val_main_v40, val_main_v39, val_main_v38, val_main_v37, val_main_v36, val_main_c_8, val_main_v35,
    val_main_v34, val_main_c_7]
  rfl

/-- The normalisation factors of layer one, viewed as a 1700000 x 1 column. -/
theorem hostOps1_main_v41 (W : Valuation τ sig (Elt F)) (x1 : (⟨S2x1600000, .i32⟩ : BufTy).Contents (Elt F)) (x2 : (⟨S1600000, .f32⟩ : BufTy).Contents (Elt F))
    (h32 : W (Proc.devRef .tc main_v32) = val_main_v32 (F := F) x1 x2) :
    StableHlo.after hostOps1 W (Proc.devRef .tc main_v41)
      = shapeCast S1700000x1 (val_main_v32 (F := F) x1 x2) shapeCasts_S1700000_S1700000x1 := by
  after_results
  rw [h32]
  rfl

/-- That column is the factors broadcast along a new trailing unit axis, the reference's stage. -/
theorem main_v41_eq_ref (x1 : (⟨S2x1600000, .i32⟩ : BufTy).Contents (Elt F)) (x2 : (⟨S1600000, .f32⟩ : BufTy).Contents (Elt F)) :
    shapeCast S1700000x1 (val_main_v32 (F := F) x1 x2) shapeCasts_S1700000_S1700000x1 = val_main_v41 (F := F) x1 x2 := by
  unfold val_main_v41
  generalize val_main_v32 (F := F) x1 x2 = y
  exact shapeCast_col_eq_broadcastInDim y _ _

/-- The column of factors as the reference's stage. -/
theorem hostOps1_main_v41_ref (W : Valuation τ sig (Elt F)) (x1 : (⟨S2x1600000, .i32⟩ : BufTy).Contents (Elt F)) (x2 : (⟨S1600000, .f32⟩ : BufTy).Contents (Elt F))
    (h32 : W (Proc.devRef .tc main_v32) = val_main_v32 (F := F) x1 x2) :
    StableHlo.after hostOps1 W (Proc.devRef .tc main_v41) = val_main_v41 (F := F) x1 x2 :=
  (hostOps1_main_v41 W x1 x2 h32).trans (main_v41_eq_ref x1 x2)

end Cert.KernelIdeal.HostRead

end
-- ==== Proof.KI.Host2.lean ====
/-
  The host operations between the first layer's row scaling and its bias step, read as pure terms.

  The stretch builds a 100000 x 128 array of float zeros, turns the 1700000 target-node numbers into a
  1700000 x 1 column of scatter indices, adds each scaled message row into the row of its target node, and
  views the 128-entry bias as a 1 x 128 row. Each lemma says: if the buffers the stretch reads hold the
  reference's stages of the arguments, the buffer it writes holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostLayout

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The aggregated messages of layer one: the scatter-add of the scaled message rows into a zero array. -/
theorem hostOps2_main_v45 (W : Valuation τ sig (Elt F)) (x0 : (⟨S100000x128, .f32⟩ : BufTy).Contents (Elt F)) (x1 : (⟨S2x1600000, .i32⟩ : BufTy).Contents (Elt F)) (x2 : (⟨S1600000, .f32⟩ : BufTy).Contents (Elt F)) (x4 : (⟨S128x128, .f32⟩ : BufTy).Contents (Elt F))
    (h6 : W (Proc.devRef .tc main_v6) = val_main_v6 (F := F) x1)
    (h42 : W (Proc.devRef .tc main_v42) = val_main_v43 (F := F) x0 x1 x2 x4) :
    StableHlo.after hostOps2 W (Proc.devRef .tc main_v45) = val_main_v46 (F := F) x0 x1 x2 x4 := by
  after_results
  rw [h6, h42]
  simp only [val_main_v46, val_main_v44, val_main_v45, val_main_cst_9]
  rfl

/-- The first layer's bias, viewed as a 1 x 128 row. -/
theorem hostOps2_main_v46 (W : Valuation τ sig (Elt F)) (x5 : (⟨S128, .f32⟩ : BufTy).Contents (Elt F))
    (h5 : W (Proc.devRef .tc main_arg5) = x5) :
    StableHlo.after hostOps2 W (Proc.devRef .tc main_v46) = shapeCast S1x128 x5 shapeCasts_S128_S1x128 := by
  after_results
  rw [h5]
  rfl

/-- That row is the bias broadcast along a new leading unit axis, the reference's stage. -/
theorem main_v46_eq_ref (x5 : (⟨S128, .f32⟩ : BufTy).Contents (Elt F)) :
    shapeCast S1x128 x5 shapeCasts_S128_S1x128 = val_main_v47 (F := F) x5 := by
  unfold val_main_v47
  exact shapeCast_row_eq_broadcastInDim x5 _ _

/-- The bias row as the reference's stage. -/
theorem hostOps2_main_v46_ref (W : Valuation τ sig (Elt F)) (x5 : (⟨S128, .f32⟩ : BufTy).Contents (Elt F))
    (h5 : W (Proc.devRef .tc main_arg5) = x5) :
    StableHlo.after hostOps2 W (Proc.devRef .tc main_v46) = val_main_v47 (F := F) x5 :=
  (hostOps2_main_v46 W x5 h5).trans (main_v46_eq_ref x5)

end Cert.KernelIdeal.HostRead

end
-- ==== Proof.KI.Host3_1.lean ====
/-
  The outlined selection after the second degrees, read as a pure term.

  The three operations make the float zero a 100000-entry vector and select, node by node, the degree's power -1/2
  where the degree is positive and that zero elsewhere. The lemma says: if the buffers the stretch reads hold the
  reference's stages of the arguments, the selected vector holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The inverse square roots of the degrees of layer two, zero where the degree is not positive. -/
theorem hostOps3_1_main_v60 (W : Valuation τ sig (Elt F)) (x1 : (⟨S2x1600000, .i32⟩ : BufTy).Contents (Elt F)) (x2 : (⟨S1600000, .f32⟩ : BufTy).Contents (Elt F))
    (hc : W (Proc.devRef .tc main_cst_14) = val_main_cst_14 (F := F))
    (h57 : W (Proc.devRef .tc main_v57) = val_main_v60 (F := F) x1 x2)
    (h59 : W (Proc.devRef .tc main_v59) = val_main_v62 (F := F) x1 x2) :
    StableHlo.after hostOps3_1 W (Proc.devRef .tc main_v60) = val_main_v63 (F := F) x1 x2 := by
  after_results
  rw [hc, h57, h59]
  simp only [val_main_v63, val_main_call2_v1, val_main_call2_v0]
  rfl

end Cert.KernelIdeal.HostRead

end
-- ==== Proof.KI.Host3_2.lean ====
/-
  The host operations that compute the second layer's normalisation factors, read as pure terms.

  For each of the 1700000 messages the stretch wraps its source-node number and its target-node number (a negative
  number counts from the end: 100000 is added to it), gathers the inverse square root of the degree at each of the
  two, and multiplies the first by the message's weight and by the second. The lemma says: if the buffers the
  stretch reads hold the reference's stages of the arguments, the factors hold the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The normalisation factors of layer two. -/
theorem hostOps3_2_main_v76 (W : Valuation τ sig (Elt F)) (x1 : (⟨S2x1600000, .i32⟩ : BufTy).Contents (Elt F)) (x2 : (⟨S1600000, .f32⟩ : BufTy).Contents (Elt F))
    (h49 : W (Proc.devRef .tc main_v49) = val_main_v52 (F := F) x1)
    (h50 : W (Proc.devRef .tc main_v50) = val_main_v53 (F := F) x1)
    (h52 : W (Proc.devRef .tc main_v52) = val_main_v55 (F := F) x2)
    (h60 : W (Proc.devRef .tc main_v60) = val_main_v63 (F := F) x1 x2) :
    StableHlo.after hostOps3_2 W (Proc.devRef .tc main_v76) = val_main_v79 (F := F) x1 x2 := by
  after_results_simp
  rw [h49]
  rw [h50]
  rw [h52]
  rw [h60]
  simp only [val_main_v79, val_main_v78, val_main_v77, val_main_v76, val_main_v75, val_main_v74, val_main_c_18,
    val_main_v73, val_main_v72, val_main_c_17, val_main_v71, val_main_v70, val_main_v69, val_main_v68, val_main_v67,
    val_main_v66, val_main_c_16, val_main_v65, val_main_v64, val_main_c_15]
  rfl

end Cert.KernelIdeal.HostRead

end
-- ==== Proof.KI.Host3.lean ====
/-
  The host operations before the second layer's projection — its edge lists and degrees —, read as pure terms.

  The stretch appends to the source and to the target nodes of the edges the node numbers 0 … 99999 (one self loop
  per node) and to the 1600000 edge weights 100000 ones, sums the weights arriving at each node (a scatter-add into
  100000 zeros), and prepares the degree's positivity test and its power -1/2. Each lemma says: if the buffers the
  stretch reads hold the reference's stages of the arguments, the buffer it writes holds the reference's next stage.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostTactic

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The source nodes of the messages: the edges' followed by every node's own number. -/
theorem hostOps3_main_v49 (W : Valuation τ sig (Elt F)) (x1 : (⟨S2x1600000, .i32⟩ : BufTy).Contents (Elt F))
    (h1 : W (Proc.devRef .tc main_v1) = val_main_v1 (F := F) x1) :
    StableHlo.after hostOps3 W (Proc.devRef .tc main_v49) = val_main_v52 (F := F) x1 := by
  host_results
  rw [h1]
  simp only [val_main_v52, val_main_v51]
  first | done | rfl

/-- The target nodes of the messages: the edges' followed by every node's own number. -/
theorem hostOps3_main_v50 (W : Valuation τ sig (Elt F)) (x1 : (⟨S2x1600000, .i32⟩ : BufTy).Contents (Elt F))
    (h3 : W (Proc.devRef .tc main_v3) = val_main_v3 (F := F) x1) :
    StableHlo.after hostOps3 W (Proc.devRef .tc main_v50) = val_main_v53 (F := F) x1 := by
  host_results
  rw [h3]
  simp only [val_main_v53, val_main_v51]
  first | done | rfl

/-- The weights of the messages: the edges' followed by a one per self loop. -/
theorem hostOps3_main_v52 (W : Valuation τ sig (Elt F)) (x2 : (⟨S1600000, .f32⟩ : BufTy).Contents (Elt F))
    (h2 : W (Proc.devRef .tc main_arg2) = x2) :
    StableHlo.after hostOps3 W (Proc.devRef .tc main_v52) = val_main_v55 (F := F) x2 := by
  host_results
  rw [h2]
  simp only [val_main_v55, val_main_v54, val_main_cst_10]
  first | done | rfl

/-- Which nodes have a positive degree. -/
theorem hostOps3_main_v57 (W : Valuation τ sig (Elt F)) (x1 : (⟨S2x1600000, .i32⟩ : BufTy).Contents (Elt F)) (x2 : (⟨S1600000, .f32⟩ : BufTy).Contents (Elt F))
    (h3 : W (Proc.devRef .tc main_v3) = val_main_v3 (F := F) x1) (h2 : W (Proc.devRef .tc main_arg2) = x2) :
    StableHlo.after hostOps3 W (Proc.devRef .tc main_v57) = val_main_v60 (F := F) x1 x2 := by
  host_results
  rw [h3]
  rw [h2]
  simp only [val_main_v60, val_main_v59, val_main_cst_12, val_main_v58, val_main_v57, val_main_v56, val_main_cst_11,
    val_main_v55, val_main_v54, val_main_cst_10, val_main_v53, val_main_v51]
  first | done | rfl

/-- The degrees to the power -1/2. -/
theorem hostOps3_main_v59 (W : Valuation τ sig (Elt F)) (x1 : (⟨S2x1600000, .i32⟩ : BufTy).Contents (Elt F)) (x2 : (⟨S1600000, .f32⟩ : BufTy).Contents (Elt F))
    (h3 : W (Proc.devRef .tc main_v3) = val_main_v3 (F := F) x1) (h2 : W (Proc.devRef .tc main_arg2) = x2) :
    StableHlo.after hostOps3 W (Proc.devRef .tc main_v59) = val_main_v62 (F := F) x1 x2 := by
  host_results
  rw [h3]
  rw [h2]
  simp only [val_main_v62, val_main_v61, val_main_cst_13, val_main_v58, val_main_v57, val_main_v56, val_main_cst_11,
    val_main_v55, val_main_v54, val_main_cst_10, val_main_v53, val_main_v51]
  first | done | rfl

/-- The float zero that replaces the power where the degree is not positive. -/
theorem hostOps3_main_cst_14 (W : Valuation τ sig (Elt F)) :
    StableHlo.after hostOps3 W (Proc.devRef .tc main_cst_14) = val_main_cst_14 (F := F) := by
  host_results
  simp only [val_main_cst_14]

end Cert.KernelIdeal.HostRead

end
-- ==== Proof.KI.Host4.lean ====
/-
  The host operations between the second layer's projection and its row scaling, read as pure terms.

  The stretch wraps the 1700000 source-node numbers (a negative number counts from the end: 100000 is added to it),
  makes them a 1700000 x 1 column of gather indices, gathers the projected feature row of each message's source node,
  and views the 1700000 normalisation factors as a 1700000 x 1 column. Each lemma says: if the buffers the stretch
  reads hold the reference's stages of the arguments, the buffer it writes holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostLayout

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The messages of layer two: the projected feature row of each message's source node. -/
theorem hostOps4_main_v84 (W : Valuation τ sig (Elt F)) (x0 : (⟨S100000x128, .f32⟩ : BufTy).Contents (Elt F)) (x1 : (⟨S2x1600000, .i32⟩ : BufTy).Contents (Elt F)) (x2 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F))
    (h49 : W (Proc.devRef .tc main_v49) = val_main_v52 (F := F) x1)
    (h77 : W (Proc.devRef .tc main_v77) = val_main_v80 (F := F) x0 x1 x2 x4 x5 x6) :
    StableHlo.after hostOps4 W (Proc.devRef .tc main_v84) = val_main_v87 (F := F) x0 x1 x2 x4 x5 x6 := by
  after_results
  rw [h49, h77]
  simp only [val_main_v87, val_main_v86, val_main_v85, val_main_v84, val_main_v83, val_main_c_20, val_main_v82,
    val_main_v81, val_main_c_19]
  rfl

/-- The normalisation factors of layer two, viewed as a 1700000 x 1 column. -/
theorem hostOps4_main_v85 (W : Valuation τ sig (Elt F)) (x1 : (⟨S2x1600000, .i32⟩ : BufTy).Contents (Elt F)) (x2 : (⟨S1600000, .f32⟩ : BufTy).Contents (Elt F))
    (h76 : W (Proc.devRef .tc main_v76) = val_main_v79 (F := F) x1 x2) :
    StableHlo.after hostOps4 W (Proc.devRef .tc main_v85)
      = shapeCast S1700000x1 (val_main_v79 (F := F) x1 x2) shapeCasts_S1700000_S1700000x1 := by
  after_results
  rw [h76]
  rfl

/-- That column is the factors broadcast along a new trailing unit axis, the reference's stage. -/
theorem main_v85_eq_ref (x1 : (⟨S2x1600000, .i32⟩ : BufTy).Contents (Elt F)) (x2 : (⟨S1600000, .f32⟩ : BufTy).Contents (Elt F)) :
    shapeCast S1700000x1 (val_main_v79 (F := F) x1 x2) shapeCasts_S1700000_S1700000x1 = val_main_v88 (F := F) x1 x2 := by
  unfold val_main_v88
  generalize val_main_v79 (F := F) x1 x2 = y
  exact shapeCast_col_eq_broadcastInDim y _ _

/-- The column of factors as the reference's stage. -/
theorem hostOps4_main_v85_ref (W : Valuation τ sig (Elt F)) (x1 : (⟨S2x1600000, .i32⟩ : BufTy).Contents (Elt F)) (x2 : (⟨S1600000, .f32⟩ : BufTy).Contents (Elt F))
    (h76 : W (Proc.devRef .tc main_v76) = val_main_v79 (F := F) x1 x2) :
    StableHlo.after hostOps4 W (Proc.devRef .tc main_v85) = val_main_v88 (F := F) x1 x2 :=
  (hostOps4_main_v85 W x1 x2 h76).trans (main_v85_eq_ref x1 x2)

end Cert.KernelIdeal.HostRead

end
-- ==== Proof.KI.Host5.lean ====
/-
  The host operations between the second layer's row scaling and its bias step, read as pure terms.

  The stretch builds a 100000 x 128 array of float zeros, turns the 1700000 target-node numbers into a
  1700000 x 1 column of scatter indices, adds each scaled message row into the row of its target node, and
  views the 128-entry bias as a 1 x 128 row. Each lemma says: if the buffers the stretch reads hold the
  reference's stages of the arguments, the buffer it writes holds the reference's next stage of them.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostLayout

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The aggregated messages of layer two: the scatter-add of the scaled message rows into a zero array. -/
theorem hostOps5_main_v89 (W : Valuation τ sig (Elt F)) (x0 : (⟨S100000x128, .f32⟩ : BufTy).Contents (Elt F)) (x1 : (⟨S2x1600000, .i32⟩ : BufTy).Contents (Elt F)) (x2 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F))
    (h50 : W (Proc.devRef .tc main_v50) = val_main_v53 (F := F) x1)
    (h86 : W (Proc.devRef .tc main_v86) = val_main_v90 (F := F) x0 x1 x2 x4 x5 x6) :
    StableHlo.after hostOps5 W (Proc.devRef .tc main_v89) = val_main_v93 (F := F) x0 x1 x2 x4 x5 x6 := by
  after_results
  rw [h50, h86]
  simp only [val_main_v93, val_main_v91, val_main_v92, val_main_cst_21]
  rfl

/-- The second layer's bias, viewed as a 1 x 128 row. -/
theorem hostOps5_main_v90 (W : Valuation τ sig (Elt F)) (x7 : (⟨S128, .f32⟩ : BufTy).Contents (Elt F))
    (h7 : W (Proc.devRef .tc main_arg7) = x7) :
    StableHlo.after hostOps5 W (Proc.devRef .tc main_v90) = shapeCast S1x128 x7 shapeCasts_S128_S1x128 := by
  after_results
  rw [h7]
  rfl

/-- That row is the bias broadcast along a new leading unit axis, the reference's stage. -/
theorem main_v90_eq_ref (x7 : (⟨S128, .f32⟩ : BufTy).Contents (Elt F)) :
    shapeCast S1x128 x7 shapeCasts_S128_S1x128 = val_main_v94 (F := F) x7 := by
  unfold val_main_v94
  exact shapeCast_row_eq_broadcastInDim x7 _ _

/-- The bias row as the reference's stage. -/
theorem hostOps5_main_v90_ref (W : Valuation τ sig (Elt F)) (x7 : (⟨S128, .f32⟩ : BufTy).Contents (Elt F))
    (h7 : W (Proc.devRef .tc main_arg7) = x7) :
    StableHlo.after hostOps5 W (Proc.devRef .tc main_v90) = val_main_v94 (F := F) x7 :=
  (hostOps5_main_v90 W x7 h7).trans (main_v90_eq_ref x7)

end Cert.KernelIdeal.HostRead

end
-- ==== Proof.KI.Host6.lean ====
/-
  The host operations before the pooling, read as pure terms.

  The stretch counts the nodes of each of the 64 graphs (a scatter-add of 100000 ones into 64 zeros at the nodes'
  graph numbers), replaces a count below one by one, and views three vectors as matrices with a unit axis: the
  100000 graph numbers as a 100000 x 1 column, the 64 counts as a 64 x 1 column, the 128-entry output bias as a
  1 x 128 row. Each lemma says: if the arguments the stretch reads are given arrays, the buffer it writes holds
  the stated term of them; each view is then shown equal to the broadcast the reference takes in its place.
-/
import proofs.«145604_j19911468384638_1_alg».proof.Proof.Gen.KernelIdeal.Launch
import proofs.«145604_j19911468384638_1_alg».proof.Proof.Gen.ReferenceIdeal.Read
import Idealize.ShloMosaic.Lib.StableHlo.Run
import proofs.«145604_j19911468384638_1_alg».proof.Proof.KI.HostLayout

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The graph numbers of the nodes, viewed as a 100000 x 1 column. -/
theorem hostOps6_main_v98 (W : Valuation τ sig (Elt F)) (x3 : (⟨S100000, .i32⟩ : BufTy).Contents (Elt F))
    (h3 : W (Proc.devRef .tc main_arg3) = x3) :
    StableHlo.after hostOps6 W (Proc.devRef .tc main_v98) = shapeCast S100000x1 x3 shapeCasts_S100000_S100000x1 := by
  after_results
  rw [h3]
  rfl

/-- That column is the graph numbers broadcast along a new trailing unit axis, the reference's stage. -/
theorem main_v98_eq_ref (x3 : (⟨S100000, .i32⟩ : BufTy).Contents (Elt F)) :
    shapeCast S100000x1 x3 shapeCasts_S100000_S100000x1 = val_main_v98 (F := F) x3 := by
  unfold val_main_v98
  exact shapeCast_col_eq_broadcastInDim x3 _ _

/-- The column of graph numbers as the reference's stage. -/
theorem hostOps6_main_v98_ref (W : Valuation τ sig (Elt F)) (x3 : (⟨S100000, .i32⟩ : BufTy).Contents (Elt F))
    (h3 : W (Proc.devRef .tc main_arg3) = x3) :
    StableHlo.after hostOps6 W (Proc.devRef .tc main_v98) = val_main_v98 (F := F) x3 :=
  (hostOps6_main_v98 W x3 h3).trans (main_v98_eq_ref x3)

/-- The node counts of the graphs, none below one, viewed as a 64 x 1 column. -/
theorem hostOps6_main_v99 (W : Valuation τ sig (Elt F)) (x3 : (⟨S100000, .i32⟩ : BufTy).Contents (Elt F))
    (h3 : W (Proc.devRef .tc main_arg3) = x3) :
    StableHlo.after hostOps6 W (Proc.devRef .tc main_v99)
      = shapeCast S64x1 (val_main_v105 (F := F) x3) shapeCasts_S64_S64x1 := by
  after_results
  rw [h3]
  simp only [val_main_v105, val_main_v104, val_main_cst_25, val_main_v103, val_main_v102, val_main_v101,
    val_main_cst_24, val_main_v100, val_main_cst_23]
  rfl

/-- That column is the counts broadcast along a new trailing unit axis, the reference's stage. -/
theorem main_v99_eq_ref (x3 : (⟨S100000, .i32⟩ : BufTy).Contents (Elt F)) :
    shapeCast S64x1 (val_main_v105 (F := F) x3) shapeCasts_S64_S64x1 = val_main_v106 (F := F) x3 := by
  unfold val_main_v106
  generalize val_main_v105 (F := F) x3 = y
  exact shapeCast_col_eq_broadcastInDim y _ _

/-- The column of counts as the reference's stage. -/
theorem hostOps6_main_v99_ref (W : Valuation τ sig (Elt F)) (x3 : (⟨S100000, .i32⟩ : BufTy).Contents (Elt F))
    (h3 : W (Proc.devRef .tc main_arg3) = x3) :
    StableHlo.after hostOps6 W (Proc.devRef .tc main_v99) = val_main_v106 (F := F) x3 :=
  (hostOps6_main_v99 W x3 h3).trans (main_v99_eq_ref x3)

/-- The output layer's bias, viewed as a 1 x 128 row. -/
theorem hostOps6_main_v100 (W : Valuation τ sig (Elt F)) (x9 : (⟨S128, .f32⟩ : BufTy).Contents (Elt F))
    (h9 : W (Proc.devRef .tc main_arg9) = x9) :
    StableHlo.after hostOps6 W (Proc.devRef .tc main_v100) = shapeCast S1x128 x9 shapeCasts_S128_S1x128 := by
  after_results
  rw [h9]
  rfl

/-- That row is the bias broadcast along a new leading unit axis, the reference's stage. -/
theorem main_v100_eq_ref (x9 : (⟨S128, .f32⟩ : BufTy).Contents (Elt F)) :
    shapeCast S1x128 x9 shapeCasts_S128_S1x128 = val_main_v110 (F := F) x9 := by
  unfold val_main_v110
  exact shapeCast_row_eq_broadcastInDim x9 _ _

/-- The bias row as the reference's stage. -/
theorem hostOps6_main_v100_ref (W : Valuation τ sig (Elt F)) (x9 : (⟨S128, .f32⟩ : BufTy).Contents (Elt F))
    (h9 : W (Proc.devRef .tc main_arg9) = x9) :
    StableHlo.after hostOps6 W (Proc.devRef .tc main_v100) = val_main_v110 (F := F) x9 :=
  (hostOps6_main_v100 W x9 h9).trans (main_v100_eq_ref x9)

end Cert.KernelIdeal.HostRead

end
-- ==== Proof.KI.Bridge.lean ====
import proofs.«145604_j19911468384638_1_alg».proof.Proof.Gen.KernelIdeal.Launch
import proofs.«145604_j19911468384638_1_alg».proof.Proof.Gen.KernelIdeal.Skeleton
import proofs.«145604_j19911468384638_1_alg».proof.Proof.Gen.KernelIdeal.Points
import proofs.«145604_j19911468384638_1_alg».proof.Proof.KI.Run
import proofs.«145604_j19911468384638_1_alg».proof.Proof.KI.V0
import proofs.«145604_j19911468384638_1_alg».proof.Proof.KI.V1
import proofs.«145604_j19911468384638_1_alg».proof.Proof.KI.V2
import proofs.«145604_j19911468384638_1_alg».proof.Proof.KI.V3
import proofs.«145604_j19911468384638_1_alg».proof.Proof.KI.V4
import proofs.«145604_j19911468384638_1_alg».proof.Proof.KI.V5
import proofs.«145604_j19911468384638_1_alg».proof.Proof.KI.V6b
import proofs.«145604_j19911468384638_1_alg».proof.Proof.KI.V6c
import proofs.«145604_j19911468384638_1_alg».proof.Proof.KI.RefStage
import proofs.«145604_j19911468384638_1_alg».proof.Proof.KI.PoolRef
import proofs.«145604_j19911468384638_1_alg».proof.Proof.KI.Host0_1
import proofs.«145604_j19911468384638_1_alg».proof.Proof.KI.Host0_2
import proofs.«145604_j19911468384638_1_alg».proof.Proof.KI.Host0
import proofs.«145604_j19911468384638_1_alg».proof.Proof.KI.Host1
import proofs.«145604_j19911468384638_1_alg».proof.Proof.KI.Host2
import proofs.«145604_j19911468384638_1_alg».proof.Proof.KI.Host3_1
import proofs.«145604_j19911468384638_1_alg».proof.Proof.KI.Host3_2
import proofs.«145604_j19911468384638_1_alg».proof.Proof.KI.Host3
import proofs.«145604_j19911468384638_1_alg».proof.Proof.KI.Host4
import proofs.«145604_j19911468384638_1_alg».proof.Proof.KI.Host5
import proofs.«145604_j19911468384638_1_alg».proof.Proof.KI.Host6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.ReferenceIdeal.Read

/-! # The kernel's result is the reference's result

Walking @main's eighteen segments from the launch: at every boundary each buffer a later segment reads holds the reference's
stage for that buffer, as a function of the ten arguments. A host stretch applies the same operations as the reference; a
dense region leaves the projection, the row scaling or the bias step of its two operands, which is the reference's next
stage; the pooling region leaves the reference's last stage. -/

variable (m : (ℓ : Loc nD τ sig) → Buf (Elt Ideal) ℓ) (ρ : Dev nD → PrngReg)

/-- Argument 0 on core `c` at launch. -/
abbrev ar0 (c : Dev nD) : (⟨S100000x128, .f32⟩ : BufTy).Contents (Elt Ideal) := m ((c : Thread nD τ).loc main_arg0)
/-- Argument 1 on core `c` at launch. -/
abbrev ar1 (c : Dev nD) : (⟨S2x1600000, .i32⟩ : BufTy).Contents (Elt Ideal) := m ((c : Thread nD τ).loc main_arg1)
/-- Argument 2 on core `c` at launch. -/
abbrev ar2 (c : Dev nD) : (⟨S1600000, .f32⟩ : BufTy).Contents (Elt Ideal) := m ((c : Thread nD τ).loc main_arg2)
/-- Argument 3 on core `c` at launch. -/
abbrev ar3 (c : Dev nD) : (⟨S100000, .i32⟩ : BufTy).Contents (Elt Ideal) := m ((c : Thread nD τ).loc main_arg3)
/-- Argument 4 on core `c` at launch. -/
abbrev ar4 (c : Dev nD) : (⟨S128x128, .f32⟩ : BufTy).Contents (Elt Ideal) := m ((c : Thread nD τ).loc main_arg4)
/-- Argument 5 on core `c` at launch. -/
abbrev ar5 (c : Dev nD) : (⟨S128, .f32⟩ : BufTy).Contents (Elt Ideal) := m ((c : Thread nD τ).loc main_arg5)
/-- Argument 6 on core `c` at launch. -/
abbrev ar6 (c : Dev nD) : (⟨S128x128, .f32⟩ : BufTy).Contents (Elt Ideal) := m ((c : Thread nD τ).loc main_arg6)
/-- Argument 7 on core `c` at launch. -/
abbrev ar7 (c : Dev nD) : (⟨S128, .f32⟩ : BufTy).Contents (Elt Ideal) := m ((c : Thread nD τ).loc main_arg7)
/-- Argument 8 on core `c` at launch. -/
abbrev ar8 (c : Dev nD) : (⟨S128x128, .f32⟩ : BufTy).Contents (Elt Ideal) := m ((c : Thread nD τ).loc main_arg8)
/-- Argument 9 on core `c` at launch. -/
abbrev ar9 (c : Dev nD) : (⟨S128, .f32⟩ : BufTy).Contents (Elt Ideal) := m ((c : Thread nD τ).loc main_arg9)

set_option maxHeartbeats 4000000 in
/-- The result array after the run is the reference's last stage of the launch arguments. -/
theorem result_eq (c : Dev nD) :
    result m ρ c = val_main_v112 (F := Ideal) (ar0 m c) (ar1 m c) (ar2 m c) (ar3 m c) (ar4 m c) (ar5 m c) (ar6 m c) (ar7 m c) (ar8 m c) (ar9 m c) := by
  have f0_main_arg1 : Bd0 m ρ c (Proc.devRef .tc main_arg1) = (ar1 m c) := rfl
  have f1_main_v3 : Bd1 m ρ c (Proc.devRef .tc main_v3) = val_main_v3 (F := Ideal) (ar1 m c) :=
    Cert.KernelIdeal.HostRead.hostOps0_main_v3 (F := Ideal) (Bd0 m ρ c) (ar1 m c) f0_main_arg1
  have f2_main_v3 : Bd2 m ρ c (Proc.devRef .tc main_v3) = val_main_v3 (F := Ideal) (ar1 m c) :=
    (StableHlo.after_of_writes_sub hostOps0_1 _ hostOps0_1_writes (by decide)).trans f1_main_v3
  have f3_main_v3 : Bd3 m ρ c (Proc.devRef .tc main_v3) = val_main_v3 (F := Ideal) (ar1 m c) :=
    (StableHlo.after_of_writes_sub hostOps0_2 _ hostOps0_2_writes (by decide)).trans f2_main_v3
  have f4_main_v3 : Bd4 m ρ c (Proc.devRef .tc main_v3) = val_main_v3 (F := Ideal) (ar1 m c) :=
    (Bd4_of_ne m ρ c main_v3 (by decide)).trans f3_main_v3
  have f5_main_v3 : Bd5 m ρ c (Proc.devRef .tc main_v3) = val_main_v3 (F := Ideal) (ar1 m c) :=
    (StableHlo.after_of_writes_sub hostOps1 _ hostOps1_writes (by decide)).trans f4_main_v3
  have f6_main_v3 : Bd6 m ρ c (Proc.devRef .tc main_v3) = val_main_v3 (F := Ideal) (ar1 m c) :=
    (Bd6_of_ne m ρ c main_v3 (by decide)).trans f5_main_v3
  have f7_main_v3 : Bd7 m ρ c (Proc.devRef .tc main_v3) = val_main_v3 (F := Ideal) (ar1 m c) :=
    (StableHlo.after_of_writes_sub hostOps2 _ hostOps2_writes (by decide)).trans f6_main_v3
  have f8_main_v3 : Bd8 m ρ c (Proc.devRef .tc main_v3) = val_main_v3 (F := Ideal) (ar1 m c) :=
    (Bd8_of_ne m ρ c main_v3 (by decide)).trans f7_main_v3
  have f9_main_v50 : Bd9 m ρ c (Proc.devRef .tc main_v50) = val_main_v53 (F := Ideal) (ar1 m c) :=
    Cert.KernelIdeal.HostRead.hostOps3_main_v50 (F := Ideal) (Bd8 m ρ c) (ar1 m c) f8_main_v3
  have f10_main_v50 : Bd10 m ρ c (Proc.devRef .tc main_v50) = val_main_v53 (F := Ideal) (ar1 m c) :=
    (StableHlo.after_of_writes_sub hostOps3_1 _ hostOps3_1_writes (by decide)).trans f9_main_v50
  have f11_main_v50 : Bd11 m ρ c (Proc.devRef .tc main_v50) = val_main_v53 (F := Ideal) (ar1 m c) :=
    (StableHlo.after_of_writes_sub hostOps3_2 _ hostOps3_2_writes (by decide)).trans f10_main_v50
  have f12_main_v50 : Bd12 m ρ c (Proc.devRef .tc main_v50) = val_main_v53 (F := Ideal) (ar1 m c) :=
    (Bd12_of_ne m ρ c main_v50 (by decide)).trans f11_main_v50
  have f13_main_v50 : Bd13 m ρ c (Proc.devRef .tc main_v50) = val_main_v53 (F := Ideal) (ar1 m c) :=
    (StableHlo.after_of_writes_sub hostOps4 _ hostOps4_writes (by decide)).trans f12_main_v50
  have f14_main_v50 : Bd14 m ρ c (Proc.devRef .tc main_v50) = val_main_v53 (F := Ideal) (ar1 m c) :=
    (Bd14_of_ne m ρ c main_v50 (by decide)).trans f13_main_v50
  have f1_main_v1 : Bd1 m ρ c (Proc.devRef .tc main_v1) = val_main_v1 (F := Ideal) (ar1 m c) :=
    Cert.KernelIdeal.HostRead.hostOps0_main_v1 (F := Ideal) (Bd0 m ρ c) (ar1 m c) f0_main_arg1
  have f2_main_v1 : Bd2 m ρ c (Proc.devRef .tc main_v1) = val_main_v1 (F := Ideal) (ar1 m c) :=
    (StableHlo.after_of_writes_sub hostOps0_1 _ hostOps0_1_writes (by decide)).trans f1_main_v1
  have f3_main_v1 : Bd3 m ρ c (Proc.devRef .tc main_v1) = val_main_v1 (F := Ideal) (ar1 m c) :=
    (StableHlo.after_of_writes_sub hostOps0_2 _ hostOps0_2_writes (by decide)).trans f2_main_v1
  have f4_main_v1 : Bd4 m ρ c (Proc.devRef .tc main_v1) = val_main_v1 (F := Ideal) (ar1 m c) :=
    (Bd4_of_ne m ρ c main_v1 (by decide)).trans f3_main_v1
  have f5_main_v1 : Bd5 m ρ c (Proc.devRef .tc main_v1) = val_main_v1 (F := Ideal) (ar1 m c) :=
    (StableHlo.after_of_writes_sub hostOps1 _ hostOps1_writes (by decide)).trans f4_main_v1
  have f6_main_v1 : Bd6 m ρ c (Proc.devRef .tc main_v1) = val_main_v1 (F := Ideal) (ar1 m c) :=
    (Bd6_of_ne m ρ c main_v1 (by decide)).trans f5_main_v1
  have f7_main_v1 : Bd7 m ρ c (Proc.devRef .tc main_v1) = val_main_v1 (F := Ideal) (ar1 m c) :=
    (StableHlo.after_of_writes_sub hostOps2 _ hostOps2_writes (by decide)).trans f6_main_v1
  have f8_main_v1 : Bd8 m ρ c (Proc.devRef .tc main_v1) = val_main_v1 (F := Ideal) (ar1 m c) :=
    (Bd8_of_ne m ρ c main_v1 (by decide)).trans f7_main_v1
  have f9_main_v49 : Bd9 m ρ c (Proc.devRef .tc main_v49) = val_main_v52 (F := Ideal) (ar1 m c) :=
    Cert.KernelIdeal.HostRead.hostOps3_main_v49 (F := Ideal) (Bd8 m ρ c) (ar1 m c) f8_main_v1
  have f10_main_v49 : Bd10 m ρ c (Proc.devRef .tc main_v49) = val_main_v52 (F := Ideal) (ar1 m c) :=
    (StableHlo.after_of_writes_sub hostOps3_1 _ hostOps3_1_writes (by decide)).trans f9_main_v49
  have f11_main_v49 : Bd11 m ρ c (Proc.devRef .tc main_v49) = val_main_v52 (F := Ideal) (ar1 m c) :=
    (StableHlo.after_of_writes_sub hostOps3_2 _ hostOps3_2_writes (by decide)).trans f10_main_v49
  have f12_main_v49 : Bd12 m ρ c (Proc.devRef .tc main_v49) = val_main_v52 (F := Ideal) (ar1 m c) :=
    (Bd12_of_ne m ρ c main_v49 (by decide)).trans f11_main_v49
  have f1_main_v6 : Bd1 m ρ c (Proc.devRef .tc main_v6) = val_main_v6 (F := Ideal) (ar1 m c) :=
    Cert.KernelIdeal.HostRead.hostOps0_main_v6 (F := Ideal) (Bd0 m ρ c) (ar1 m c) f0_main_arg1
  have f2_main_v6 : Bd2 m ρ c (Proc.devRef .tc main_v6) = val_main_v6 (F := Ideal) (ar1 m c) :=
    (StableHlo.after_of_writes_sub hostOps0_1 _ hostOps0_1_writes (by decide)).trans f1_main_v6
  have f3_main_v6 : Bd3 m ρ c (Proc.devRef .tc main_v6) = val_main_v6 (F := Ideal) (ar1 m c) :=
    (StableHlo.after_of_writes_sub hostOps0_2 _ hostOps0_2_writes (by decide)).trans f2_main_v6
  have f4_main_v6 : Bd4 m ρ c (Proc.devRef .tc main_v6) = val_main_v6 (F := Ideal) (ar1 m c) :=
    (Bd4_of_ne m ρ c main_v6 (by decide)).trans f3_main_v6
  have f5_main_v6 : Bd5 m ρ c (Proc.devRef .tc main_v6) = val_main_v6 (F := Ideal) (ar1 m c) :=
    (StableHlo.after_of_writes_sub hostOps1 _ hostOps1_writes (by decide)).trans f4_main_v6
  have f6_main_v6 : Bd6 m ρ c (Proc.devRef .tc main_v6) = val_main_v6 (F := Ideal) (ar1 m c) :=
    (Bd6_of_ne m ρ c main_v6 (by decide)).trans f5_main_v6
  have f1_main_v5 : Bd1 m ρ c (Proc.devRef .tc main_v5) = val_main_v5 (F := Ideal) (ar1 m c) :=
    Cert.KernelIdeal.HostRead.hostOps0_main_v5 (F := Ideal) (Bd0 m ρ c) (ar1 m c) f0_main_arg1
  have f2_main_v5 : Bd2 m ρ c (Proc.devRef .tc main_v5) = val_main_v5 (F := Ideal) (ar1 m c) :=
    (StableHlo.after_of_writes_sub hostOps0_1 _ hostOps0_1_writes (by decide)).trans f1_main_v5
  have f3_main_v5 : Bd3 m ρ c (Proc.devRef .tc main_v5) = val_main_v5 (F := Ideal) (ar1 m c) :=
    (StableHlo.after_of_writes_sub hostOps0_2 _ hostOps0_2_writes (by decide)).trans f2_main_v5
  have f4_main_v5 : Bd4 m ρ c (Proc.devRef .tc main_v5) = val_main_v5 (F := Ideal) (ar1 m c) :=
    (Bd4_of_ne m ρ c main_v5 (by decide)).trans f3_main_v5
  have f0_main_arg0 : Bd0 m ρ c (Proc.devRef .tc main_arg0) = (ar0 m c) := rfl
  have f1_main_arg0 : Bd1 m ρ c (Proc.devRef .tc main_arg0) = (ar0 m c) :=
    (StableHlo.after_of_writes_sub hostOps0 _ hostOps0_writes (by decide)).trans f0_main_arg0
  have f2_main_arg0 : Bd2 m ρ c (Proc.devRef .tc main_arg0) = (ar0 m c) :=
    (StableHlo.after_of_writes_sub hostOps0_1 _ hostOps0_1_writes (by decide)).trans f1_main_arg0
  have f3_main_arg0 : Bd3 m ρ c (Proc.devRef .tc main_arg0) = (ar0 m c) :=
    (StableHlo.after_of_writes_sub hostOps0_2 _ hostOps0_2_writes (by decide)).trans f2_main_arg0
  have f0_main_arg4 : Bd0 m ρ c (Proc.devRef .tc main_arg4) = (ar4 m c) := rfl
  have f1_main_arg4 : Bd1 m ρ c (Proc.devRef .tc main_arg4) = (ar4 m c) :=
    (StableHlo.after_of_writes_sub hostOps0 _ hostOps0_writes (by decide)).trans f0_main_arg4
  have f2_main_arg4 : Bd2 m ρ c (Proc.devRef .tc main_arg4) = (ar4 m c) :=
    (StableHlo.after_of_writes_sub hostOps0_1 _ hostOps0_1_writes (by decide)).trans f1_main_arg4
  have f3_main_arg4 : Bd3 m ρ c (Proc.devRef .tc main_arg4) = (ar4 m c) :=
    (StableHlo.after_of_writes_sub hostOps0_2 _ hostOps0_2_writes (by decide)).trans f2_main_arg4
  have f4_main_v33 : Bd4 m ρ c (Proc.devRef .tc main_v33) = val_main_v33 (F := Ideal) (ar0 m c) (ar4 m c) := by
    refine (Bd4_arr m ρ c 2).trans ((Cert.KernelIdeal.HandValue.final0 (Vd3 m ρ) c).trans ?_)
    show Cert.DenseSpec.proj (Bd3 m ρ c (Proc.devRef .tc main_arg0)) (Bd3 m ρ c (Proc.devRef .tc main_arg4)) = _
    rw [f3_main_arg0, f3_main_arg4]
    exact Cert.KernelIdeal.RefStage.proj_layer1 (ar0 m c) (ar4 m c)
  have f5_main_v40 : Bd5 m ρ c (Proc.devRef .tc main_v40) = val_main_v40 (F := Ideal) (ar0 m c) (ar1 m c) (ar4 m c) :=
    Cert.KernelIdeal.HostRead.hostOps1_main_v40 (F := Ideal) (Bd4 m ρ c) (ar0 m c) (ar1 m c) (ar4 m c) f4_main_v5 f4_main_v33
  have f0_main_arg2 : Bd0 m ρ c (Proc.devRef .tc main_arg2) = (ar2 m c) := rfl
  have f1_main_v8 : Bd1 m ρ c (Proc.devRef .tc main_v8) = val_main_v8 (F := Ideal) (ar2 m c) :=
    Cert.KernelIdeal.HostRead.hostOps0_main_v8 (F := Ideal) (Bd0 m ρ c) (ar2 m c) f0_main_arg2
  have f2_main_v8 : Bd2 m ρ c (Proc.devRef .tc main_v8) = val_main_v8 (F := Ideal) (ar2 m c) :=
    (StableHlo.after_of_writes_sub hostOps0_1 _ hostOps0_1_writes (by decide)).trans f1_main_v8
  have f1_main_cst_3 : Bd1 m ρ c (Proc.devRef .tc main_cst_3) = val_main_cst_3 (F := Ideal) :=
    Cert.KernelIdeal.HostRead.hostOps0_main_cst_3 (F := Ideal) (Bd0 m ρ c)
  have f1_main_v13 : Bd1 m ρ c (Proc.devRef .tc main_v13) = val_main_v13 (F := Ideal) (ar1 m c) (ar2 m c) :=
    Cert.KernelIdeal.HostRead.hostOps0_main_v13 (F := Ideal) (Bd0 m ρ c) (ar1 m c) (ar2 m c) f0_main_arg1 f0_main_arg2
  have f1_main_v15 : Bd1 m ρ c (Proc.devRef .tc main_v15) = val_main_v15 (F := Ideal) (ar1 m c) (ar2 m c) :=
    Cert.KernelIdeal.HostRead.hostOps0_main_v15 (F := Ideal) (Bd0 m ρ c) (ar1 m c) (ar2 m c) f0_main_arg1 f0_main_arg2
  have f2_main_v16 : Bd2 m ρ c (Proc.devRef .tc main_v16) = val_main_v16 (F := Ideal) (ar1 m c) (ar2 m c) :=
    Cert.KernelIdeal.HostRead.hostOps0_1_main_v16 (F := Ideal) (Bd1 m ρ c) (ar1 m c) (ar2 m c) f1_main_cst_3 f1_main_v13 f1_main_v15
  have f3_main_v32 : Bd3 m ρ c (Proc.devRef .tc main_v32) = val_main_v32 (F := Ideal) (ar1 m c) (ar2 m c) :=
    Cert.KernelIdeal.HostRead.hostOps0_2_main_v32 (F := Ideal) (Bd2 m ρ c) (ar1 m c) (ar2 m c) f2_main_v5 f2_main_v6 f2_main_v8 f2_main_v16
  have f4_main_v32 : Bd4 m ρ c (Proc.devRef .tc main_v32) = val_main_v32 (F := Ideal) (ar1 m c) (ar2 m c) :=
    (Bd4_of_ne m ρ c main_v32 (by decide)).trans f3_main_v32
  have f5_main_v41 : Bd5 m ρ c (Proc.devRef .tc main_v41) = val_main_v41 (F := Ideal) (ar1 m c) (ar2 m c) :=
    Cert.KernelIdeal.HostRead.hostOps1_main_v41_ref (F := Ideal) (Bd4 m ρ c) (ar1 m c) (ar2 m c) f4_main_v32
  have f6_main_v42 : Bd6 m ρ c (Proc.devRef .tc main_v42) = val_main_v43 (F := Ideal) (ar0 m c) (ar1 m c) (ar2 m c) (ar4 m c) := by
    refine (Bd6_arr m ρ c 2).trans ((Cert.KernelIdeal.HandValue.final1 (Vd5 m ρ) c).trans ?_)
    show Cert.DenseSpec.scaleRows (Bd5 m ρ c (Proc.devRef .tc main_v40)) (Bd5 m ρ c (Proc.devRef .tc main_v41)) = _
    rw [f5_main_v40, f5_main_v41]
    exact Cert.KernelIdeal.RefStage.scale_layer1 (ar0 m c) (ar1 m c) (ar2 m c) (ar4 m c)
  have f7_main_v45 : Bd7 m ρ c (Proc.devRef .tc main_v45) = val_main_v46 (F := Ideal) (ar0 m c) (ar1 m c) (ar2 m c) (ar4 m c) :=
    Cert.KernelIdeal.HostRead.hostOps2_main_v45 (F := Ideal) (Bd6 m ρ c) (ar0 m c) (ar1 m c) (ar2 m c) (ar4 m c) f6_main_v6 f6_main_v42
  have f0_main_arg5 : Bd0 m ρ c (Proc.devRef .tc main_arg5) = (ar5 m c) := rfl
  have f1_main_arg5 : Bd1 m ρ c (Proc.devRef .tc main_arg5) = (ar5 m c) :=
    (StableHlo.after_of_writes_sub hostOps0 _ hostOps0_writes (by decide)).trans f0_main_arg5
  have f2_main_arg5 : Bd2 m ρ c (Proc.devRef .tc main_arg5) = (ar5 m c) :=
    (StableHlo.after_of_writes_sub hostOps0_1 _ hostOps0_1_writes (by decide)).trans f1_main_arg5
  have f3_main_arg5 : Bd3 m ρ c (Proc.devRef .tc main_arg5) = (ar5 m c) :=
    (StableHlo.after_of_writes_sub hostOps0_2 _ hostOps0_2_writes (by decide)).trans f2_main_arg5
  have f4_main_arg5 : Bd4 m ρ c (Proc.devRef .tc main_arg5) = (ar5 m c) :=
    (Bd4_of_ne m ρ c main_arg5 (by decide)).trans f3_main_arg5
  have f5_main_arg5 : Bd5 m ρ c (Proc.devRef .tc main_arg5) = (ar5 m c) :=
    (StableHlo.after_of_writes_sub hostOps1 _ hostOps1_writes (by decide)).trans f4_main_arg5
  have f6_main_arg5 : Bd6 m ρ c (Proc.devRef .tc main_arg5) = (ar5 m c) :=
    (Bd6_of_ne m ρ c main_arg5 (by decide)).trans f5_main_arg5
  have f7_main_v46 : Bd7 m ρ c (Proc.devRef .tc main_v46) = val_main_v47 (F := Ideal) (ar5 m c) :=
    Cert.KernelIdeal.HostRead.hostOps2_main_v46_ref (F := Ideal) (Bd6 m ρ c) (ar5 m c) f6_main_arg5
  have f8_main_v47 : Bd8 m ρ c (Proc.devRef .tc main_v47) = val_main_v50 (F := Ideal) (ar0 m c) (ar1 m c) (ar2 m c) (ar4 m c) (ar5 m c) := by
    refine (Bd8_arr m ρ c 2).trans ((Cert.KernelIdeal.HandValue.final2 (Vd7 m ρ) c).trans ?_)
    show Cert.DenseSpec.biasAct true (Bd7 m ρ c (Proc.devRef .tc main_v45)) (Bd7 m ρ c (Proc.devRef .tc main_v46)) = _
    rw [f7_main_v45, f7_main_v46]
    exact Cert.KernelIdeal.RefStage.bias_layer1 (ar0 m c) (ar1 m c) (ar2 m c) (ar4 m c) (ar5 m c)
  have f9_main_v47 : Bd9 m ρ c (Proc.devRef .tc main_v47) = val_main_v50 (F := Ideal) (ar0 m c) (ar1 m c) (ar2 m c) (ar4 m c) (ar5 m c) :=
    (StableHlo.after_of_writes_sub hostOps3 _ hostOps3_writes (by decide)).trans f8_main_v47
  have f10_main_v47 : Bd10 m ρ c (Proc.devRef .tc main_v47) = val_main_v50 (F := Ideal) (ar0 m c) (ar1 m c) (ar2 m c) (ar4 m c) (ar5 m c) :=
    (StableHlo.after_of_writes_sub hostOps3_1 _ hostOps3_1_writes (by decide)).trans f9_main_v47
  have f11_main_v47 : Bd11 m ρ c (Proc.devRef .tc main_v47) = val_main_v50 (F := Ideal) (ar0 m c) (ar1 m c) (ar2 m c) (ar4 m c) (ar5 m c) :=
    (StableHlo.after_of_writes_sub hostOps3_2 _ hostOps3_2_writes (by decide)).trans f10_main_v47
  have f0_main_arg6 : Bd0 m ρ c (Proc.devRef .tc main_arg6) = (ar6 m c) := rfl
  have f1_main_arg6 : Bd1 m ρ c (Proc.devRef .tc main_arg6) = (ar6 m c) :=
    (StableHlo.after_of_writes_sub hostOps0 _ hostOps0_writes (by decide)).trans f0_main_arg6
  have f2_main_arg6 : Bd2 m ρ c (Proc.devRef .tc main_arg6) = (ar6 m c) :=
    (StableHlo.after_of_writes_sub hostOps0_1 _ hostOps0_1_writes (by decide)).trans f1_main_arg6
  have f3_main_arg6 : Bd3 m ρ c (Proc.devRef .tc main_arg6) = (ar6 m c) :=
    (StableHlo.after_of_writes_sub hostOps0_2 _ hostOps0_2_writes (by decide)).trans f2_main_arg6
  have f4_main_arg6 : Bd4 m ρ c (Proc.devRef .tc main_arg6) = (ar6 m c) :=
    (Bd4_of_ne m ρ c main_arg6 (by decide)).trans f3_main_arg6
  have f5_main_arg6 : Bd5 m ρ c (Proc.devRef .tc main_arg6) = (ar6 m c) :=
    (StableHlo.after_of_writes_sub hostOps1 _ hostOps1_writes (by decide)).trans f4_main_arg6
  have f6_main_arg6 : Bd6 m ρ c (Proc.devRef .tc main_arg6) = (ar6 m c) :=
    (Bd6_of_ne m ρ c main_arg6 (by decide)).trans f5_main_arg6
  have f7_main_arg6 : Bd7 m ρ c (Proc.devRef .tc main_arg6) = (ar6 m c) :=
    (StableHlo.after_of_writes_sub hostOps2 _ hostOps2_writes (by decide)).trans f6_main_arg6
  have f8_main_arg6 : Bd8 m ρ c (Proc.devRef .tc main_arg6) = (ar6 m c) :=
    (Bd8_of_ne m ρ c main_arg6 (by decide)).trans f7_main_arg6
  have f9_main_arg6 : Bd9 m ρ c (Proc.devRef .tc main_arg6) = (ar6 m c) :=
    (StableHlo.after_of_writes_sub hostOps3 _ hostOps3_writes (by decide)).trans f8_main_arg6
  have f10_main_arg6 : Bd10 m ρ c (Proc.devRef .tc main_arg6) = (ar6 m c) :=
    (StableHlo.after_of_writes_sub hostOps3_1 _ hostOps3_1_writes (by decide)).trans f9_main_arg6
  have f11_main_arg6 : Bd11 m ρ c (Proc.devRef .tc main_arg6) = (ar6 m c) :=
    (StableHlo.after_of_writes_sub hostOps3_2 _ hostOps3_2_writes (by decide)).trans f10_main_arg6
  have f12_main_v77 : Bd12 m ρ c (Proc.devRef .tc main_v77) = val_main_v80 (F := Ideal) (ar0 m c) (ar1 m c) (ar2 m c) (ar4 m c) (ar5 m c) (ar6 m c) := by
    refine (Bd12_arr m ρ c 2).trans ((Cert.KernelIdeal.HandValue.final3 (Vd11 m ρ) c).trans ?_)
    show Cert.DenseSpec.proj (Bd11 m ρ c (Proc.devRef .tc main_v47)) (Bd11 m ρ c (Proc.devRef .tc main_arg6)) = _
    rw [f11_main_v47, f11_main_arg6]
    exact Cert.KernelIdeal.RefStage.proj_layer2 (ar0 m c) (ar1 m c) (ar2 m c) (ar4 m c) (ar5 m c) (ar6 m c)
  have f13_main_v84 : Bd13 m ρ c (Proc.devRef .tc main_v84) = val_main_v87 (F := Ideal) (ar0 m c) (ar1 m c) (ar2 m c) (ar4 m c) (ar5 m c) (ar6 m c) :=
    Cert.KernelIdeal.HostRead.hostOps4_main_v84 (F := Ideal) (Bd12 m ρ c) (ar0 m c) (ar1 m c) (ar2 m c) (ar4 m c) (ar5 m c) (ar6 m c) f12_main_v49 f12_main_v77
  have f1_main_arg2 : Bd1 m ρ c (Proc.devRef .tc main_arg2) = (ar2 m c) :=
    (StableHlo.after_of_writes_sub hostOps0 _ hostOps0_writes (by decide)).trans f0_main_arg2
  have f2_main_arg2 : Bd2 m ρ c (Proc.devRef .tc main_arg2) = (ar2 m c) :=
    (StableHlo.after_of_writes_sub hostOps0_1 _ hostOps0_1_writes (by decide)).trans f1_main_arg2
  have f3_main_arg2 : Bd3 m ρ c (Proc.devRef .tc main_arg2) = (ar2 m c) :=
    (StableHlo.after_of_writes_sub hostOps0_2 _ hostOps0_2_writes (by decide)).trans f2_main_arg2
  have f4_main_arg2 : Bd4 m ρ c (Proc.devRef .tc main_arg2) = (ar2 m c) :=
    (Bd4_of_ne m ρ c main_arg2 (by decide)).trans f3_main_arg2
  have f5_main_arg2 : Bd5 m ρ c (Proc.devRef .tc main_arg2) = (ar2 m c) :=
    (StableHlo.after_of_writes_sub hostOps1 _ hostOps1_writes (by decide)).trans f4_main_arg2
  have f6_main_arg2 : Bd6 m ρ c (Proc.devRef .tc main_arg2) = (ar2 m c) :=
    (Bd6_of_ne m ρ c main_arg2 (by decide)).trans f5_main_arg2
  have f7_main_arg2 : Bd7 m ρ c (Proc.devRef .tc main_arg2) = (ar2 m c) :=
    (StableHlo.after_of_writes_sub hostOps2 _ hostOps2_writes (by decide)).trans f6_main_arg2
  have f8_main_arg2 : Bd8 m ρ c (Proc.devRef .tc main_arg2) = (ar2 m c) :=
    (Bd8_of_ne m ρ c main_arg2 (by decide)).trans f7_main_arg2
  have f9_main_v52 : Bd9 m ρ c (Proc.devRef .tc main_v52) = val_main_v55 (F := Ideal) (ar2 m c) :=
    Cert.KernelIdeal.HostRead.hostOps3_main_v52 (F := Ideal) (Bd8 m ρ c) (ar2 m c) f8_main_arg2
  have f10_main_v52 : Bd10 m ρ c (Proc.devRef .tc main_v52) = val_main_v55 (F := Ideal) (ar2 m c) :=
    (StableHlo.after_of_writes_sub hostOps3_1 _ hostOps3_1_writes (by decide)).trans f9_main_v52
  have f9_main_cst_14 : Bd9 m ρ c (Proc.devRef .tc main_cst_14) = val_main_cst_14 (F := Ideal) :=
    Cert.KernelIdeal.HostRead.hostOps3_main_cst_14 (F := Ideal) (Bd8 m ρ c)
  have f9_main_v57 : Bd9 m ρ c (Proc.devRef .tc main_v57) = val_main_v60 (F := Ideal) (ar1 m c) (ar2 m c) :=
    Cert.KernelIdeal.HostRead.hostOps3_main_v57 (F := Ideal) (Bd8 m ρ c) (ar1 m c) (ar2 m c) f8_main_v3 f8_main_arg2
  have f9_main_v59 : Bd9 m ρ c (Proc.devRef .tc main_v59) = val_main_v62 (F := Ideal) (ar1 m c) (ar2 m c) :=
    Cert.KernelIdeal.HostRead.hostOps3_main_v59 (F := Ideal) (Bd8 m ρ c) (ar1 m c) (ar2 m c) f8_main_v3 f8_main_arg2
  have f10_main_v60 : Bd10 m ρ c (Proc.devRef .tc main_v60) = val_main_v63 (F := Ideal) (ar1 m c) (ar2 m c) :=
    Cert.KernelIdeal.HostRead.hostOps3_1_main_v60 (F := Ideal) (Bd9 m ρ c) (ar1 m c) (ar2 m c) f9_main_cst_14 f9_main_v57 f9_main_v59
  have f11_main_v76 : Bd11 m ρ c (Proc.devRef .tc main_v76) = val_main_v79 (F := Ideal) (ar1 m c) (ar2 m c) :=
    Cert.KernelIdeal.HostRead.hostOps3_2_main_v76 (F := Ideal) (Bd10 m ρ c) (ar1 m c) (ar2 m c) f10_main_v49 f10_main_v50 f10_main_v52 f10_main_v60
  have f12_main_v76 : Bd12 m ρ c (Proc.devRef .tc main_v76) = val_main_v79 (F := Ideal) (ar1 m c) (ar2 m c) :=
    (Bd12_of_ne m ρ c main_v76 (by decide)).trans f11_main_v76
  have f13_main_v85 : Bd13 m ρ c (Proc.devRef .tc main_v85) = val_main_v88 (F := Ideal) (ar1 m c) (ar2 m c) :=
    Cert.KernelIdeal.HostRead.hostOps4_main_v85_ref (F := Ideal) (Bd12 m ρ c) (ar1 m c) (ar2 m c) f12_main_v76
  have f14_main_v86 : Bd14 m ρ c (Proc.devRef .tc main_v86) = val_main_v90 (F := Ideal) (ar0 m c) (ar1 m c) (ar2 m c) (ar4 m c) (ar5 m c) (ar6 m c) := by
    refine (Bd14_arr m ρ c 2).trans ((Cert.KernelIdeal.HandValue.final4 (Vd13 m ρ) c).trans ?_)
    show Cert.DenseSpec.scaleRows (Bd13 m ρ c (Proc.devRef .tc main_v84)) (Bd13 m ρ c (Proc.devRef .tc main_v85)) = _
    rw [f13_main_v84, f13_main_v85]
    exact Cert.KernelIdeal.RefStage.scale_layer2 (ar0 m c) (ar1 m c) (ar2 m c) (ar4 m c) (ar5 m c) (ar6 m c)
  have f15_main_v89 : Bd15 m ρ c (Proc.devRef .tc main_v89) = val_main_v93 (F := Ideal) (ar0 m c) (ar1 m c) (ar2 m c) (ar4 m c) (ar5 m c) (ar6 m c) :=
    Cert.KernelIdeal.HostRead.hostOps5_main_v89 (F := Ideal) (Bd14 m ρ c) (ar0 m c) (ar1 m c) (ar2 m c) (ar4 m c) (ar5 m c) (ar6 m c) f14_main_v50 f14_main_v86
  have f0_main_arg7 : Bd0 m ρ c (Proc.devRef .tc main_arg7) = (ar7 m c) := rfl
  have f1_main_arg7 : Bd1 m ρ c (Proc.devRef .tc main_arg7) = (ar7 m c) :=
    (StableHlo.after_of_writes_sub hostOps0 _ hostOps0_writes (by decide)).trans f0_main_arg7
  have f2_main_arg7 : Bd2 m ρ c (Proc.devRef .tc main_arg7) = (ar7 m c) :=
    (StableHlo.after_of_writes_sub hostOps0_1 _ hostOps0_1_writes (by decide)).trans f1_main_arg7
  have f3_main_arg7 : Bd3 m ρ c (Proc.devRef .tc main_arg7) = (ar7 m c) :=
    (StableHlo.after_of_writes_sub hostOps0_2 _ hostOps0_2_writes (by decide)).trans f2_main_arg7
  have f4_main_arg7 : Bd4 m ρ c (Proc.devRef .tc main_arg7) = (ar7 m c) :=
    (Bd4_of_ne m ρ c main_arg7 (by decide)).trans f3_main_arg7
  have f5_main_arg7 : Bd5 m ρ c (Proc.devRef .tc main_arg7) = (ar7 m c) :=
    (StableHlo.after_of_writes_sub hostOps1 _ hostOps1_writes (by decide)).trans f4_main_arg7
  have f6_main_arg7 : Bd6 m ρ c (Proc.devRef .tc main_arg7) = (ar7 m c) :=
    (Bd6_of_ne m ρ c main_arg7 (by decide)).trans f5_main_arg7
  have f7_main_arg7 : Bd7 m ρ c (Proc.devRef .tc main_arg7) = (ar7 m c) :=
    (StableHlo.after_of_writes_sub hostOps2 _ hostOps2_writes (by decide)).trans f6_main_arg7
  have f8_main_arg7 : Bd8 m ρ c (Proc.devRef .tc main_arg7) = (ar7 m c) :=
    (Bd8_of_ne m ρ c main_arg7 (by decide)).trans f7_main_arg7
  have f9_main_arg7 : Bd9 m ρ c (Proc.devRef .tc main_arg7) = (ar7 m c) :=
    (StableHlo.after_of_writes_sub hostOps3 _ hostOps3_writes (by decide)).trans f8_main_arg7
  have f10_main_arg7 : Bd10 m ρ c (Proc.devRef .tc main_arg7) = (ar7 m c) :=
    (StableHlo.after_of_writes_sub hostOps3_1 _ hostOps3_1_writes (by decide)).trans f9_main_arg7
  have f11_main_arg7 : Bd11 m ρ c (Proc.devRef .tc main_arg7) = (ar7 m c) :=
    (StableHlo.after_of_writes_sub hostOps3_2 _ hostOps3_2_writes (by decide)).trans f10_main_arg7
  have f12_main_arg7 : Bd12 m ρ c (Proc.devRef .tc main_arg7) = (ar7 m c) :=
    (Bd12_of_ne m ρ c main_arg7 (by decide)).trans f11_main_arg7
  have f13_main_arg7 : Bd13 m ρ c (Proc.devRef .tc main_arg7) = (ar7 m c) :=
    (StableHlo.after_of_writes_sub hostOps4 _ hostOps4_writes (by decide)).trans f12_main_arg7
  have f14_main_arg7 : Bd14 m ρ c (Proc.devRef .tc main_arg7) = (ar7 m c) :=
    (Bd14_of_ne m ρ c main_arg7 (by decide)).trans f13_main_arg7
  have f15_main_v90 : Bd15 m ρ c (Proc.devRef .tc main_v90) = val_main_v94 (F := Ideal) (ar7 m c) :=
    Cert.KernelIdeal.HostRead.hostOps5_main_v90_ref (F := Ideal) (Bd14 m ρ c) (ar7 m c) f14_main_arg7
  have f16_main_v91 : Bd16 m ρ c (Proc.devRef .tc main_v91) = val_main_v96 (F := Ideal) (ar0 m c) (ar1 m c) (ar2 m c) (ar4 m c) (ar5 m c) (ar6 m c) (ar7 m c) := by
    refine (Bd16_arr m ρ c 2).trans ((Cert.KernelIdeal.HandValue.final5 (Vd15 m ρ) c).trans ?_)
    show Cert.DenseSpec.biasAct false (Bd15 m ρ c (Proc.devRef .tc main_v89)) (Bd15 m ρ c (Proc.devRef .tc main_v90)) = _
    rw [f15_main_v89, f15_main_v90]
    exact Cert.KernelIdeal.RefStage.bias_layer2 (ar0 m c) (ar1 m c) (ar2 m c) (ar4 m c) (ar5 m c) (ar6 m c) (ar7 m c)
  have f17_main_v91 : Bd17 m ρ c (Proc.devRef .tc main_v91) = val_main_v96 (F := Ideal) (ar0 m c) (ar1 m c) (ar2 m c) (ar4 m c) (ar5 m c) (ar6 m c) (ar7 m c) :=
    (StableHlo.after_of_writes_sub hostOps6 _ hostOps6_writes (by decide)).trans f16_main_v91
  have f0_main_arg3 : Bd0 m ρ c (Proc.devRef .tc main_arg3) = (ar3 m c) := rfl
  have f1_main_arg3 : Bd1 m ρ c (Proc.devRef .tc main_arg3) = (ar3 m c) :=
    (StableHlo.after_of_writes_sub hostOps0 _ hostOps0_writes (by decide)).trans f0_main_arg3
  have f2_main_arg3 : Bd2 m ρ c (Proc.devRef .tc main_arg3) = (ar3 m c) :=
    (StableHlo.after_of_writes_sub hostOps0_1 _ hostOps0_1_writes (by decide)).trans f1_main_arg3
  have f3_main_arg3 : Bd3 m ρ c (Proc.devRef .tc main_arg3) = (ar3 m c) :=
    (StableHlo.after_of_writes_sub hostOps0_2 _ hostOps0_2_writes (by decide)).trans f2_main_arg3
  have f4_main_arg3 : Bd4 m ρ c (Proc.devRef .tc main_arg3) = (ar3 m c) :=
    (Bd4_of_ne m ρ c main_arg3 (by decide)).trans f3_main_arg3
  have f5_main_arg3 : Bd5 m ρ c (Proc.devRef .tc main_arg3) = (ar3 m c) :=
    (StableHlo.after_of_writes_sub hostOps1 _ hostOps1_writes (by decide)).trans f4_main_arg3
  have f6_main_arg3 : Bd6 m ρ c (Proc.devRef .tc main_arg3) = (ar3 m c) :=
    (Bd6_of_ne m ρ c main_arg3 (by decide)).trans f5_main_arg3
  have f7_main_arg3 : Bd7 m ρ c (Proc.devRef .tc main_arg3) = (ar3 m c) :=
    (StableHlo.after_of_writes_sub hostOps2 _ hostOps2_writes (by decide)).trans f6_main_arg3
  have f8_main_arg3 : Bd8 m ρ c (Proc.devRef .tc main_arg3) = (ar3 m c) :=
    (Bd8_of_ne m ρ c main_arg3 (by decide)).trans f7_main_arg3
  have f9_main_arg3 : Bd9 m ρ c (Proc.devRef .tc main_arg3) = (ar3 m c) :=
    (StableHlo.after_of_writes_sub hostOps3 _ hostOps3_writes (by decide)).trans f8_main_arg3
  have f10_main_arg3 : Bd10 m ρ c (Proc.devRef .tc main_arg3) = (ar3 m c) :=
    (StableHlo.after_of_writes_sub hostOps3_1 _ hostOps3_1_writes (by decide)).trans f9_main_arg3
  have f11_main_arg3 : Bd11 m ρ c (Proc.devRef .tc main_arg3) = (ar3 m c) :=
    (StableHlo.after_of_writes_sub hostOps3_2 _ hostOps3_2_writes (by decide)).trans f10_main_arg3
  have f12_main_arg3 : Bd12 m ρ c (Proc.devRef .tc main_arg3) = (ar3 m c) :=
    (Bd12_of_ne m ρ c main_arg3 (by decide)).trans f11_main_arg3
  have f13_main_arg3 : Bd13 m ρ c (Proc.devRef .tc main_arg3) = (ar3 m c) :=
    (StableHlo.after_of_writes_sub hostOps4 _ hostOps4_writes (by decide)).trans f12_main_arg3
  have f14_main_arg3 : Bd14 m ρ c (Proc.devRef .tc main_arg3) = (ar3 m c) :=
    (Bd14_of_ne m ρ c main_arg3 (by decide)).trans f13_main_arg3
  have f15_main_arg3 : Bd15 m ρ c (Proc.devRef .tc main_arg3) = (ar3 m c) :=
    (StableHlo.after_of_writes_sub hostOps5 _ hostOps5_writes (by decide)).trans f14_main_arg3
  have f16_main_arg3 : Bd16 m ρ c (Proc.devRef .tc main_arg3) = (ar3 m c) :=
    (Bd16_of_ne m ρ c main_arg3 (by decide)).trans f15_main_arg3
  have f17_main_v98 : Bd17 m ρ c (Proc.devRef .tc main_v98) = val_main_v98 (F := Ideal) (ar3 m c) :=
    Cert.KernelIdeal.HostRead.hostOps6_main_v98_ref (F := Ideal) (Bd16 m ρ c) (ar3 m c) f16_main_arg3
  have f17_main_v99 : Bd17 m ρ c (Proc.devRef .tc main_v99) = val_main_v106 (F := Ideal) (ar3 m c) :=
    Cert.KernelIdeal.HostRead.hostOps6_main_v99_ref (F := Ideal) (Bd16 m ρ c) (ar3 m c) f16_main_arg3
  have f0_main_arg8 : Bd0 m ρ c (Proc.devRef .tc main_arg8) = (ar8 m c) := rfl
  have f1_main_arg8 : Bd1 m ρ c (Proc.devRef .tc main_arg8) = (ar8 m c) :=
    (StableHlo.after_of_writes_sub hostOps0 _ hostOps0_writes (by decide)).trans f0_main_arg8
  have f2_main_arg8 : Bd2 m ρ c (Proc.devRef .tc main_arg8) = (ar8 m c) :=
    (StableHlo.after_of_writes_sub hostOps0_1 _ hostOps0_1_writes (by decide)).trans f1_main_arg8
  have f3_main_arg8 : Bd3 m ρ c (Proc.devRef .tc main_arg8) = (ar8 m c) :=
    (StableHlo.after_of_writes_sub hostOps0_2 _ hostOps0_2_writes (by decide)).trans f2_main_arg8
  have f4_main_arg8 : Bd4 m ρ c (Proc.devRef .tc main_arg8) = (ar8 m c) :=
    (Bd4_of_ne m ρ c main_arg8 (by decide)).trans f3_main_arg8
  have f5_main_arg8 : Bd5 m ρ c (Proc.devRef .tc main_arg8) = (ar8 m c) :=
    (StableHlo.after_of_writes_sub hostOps1 _ hostOps1_writes (by decide)).trans f4_main_arg8
  have f6_main_arg8 : Bd6 m ρ c (Proc.devRef .tc main_arg8) = (ar8 m c) :=
    (Bd6_of_ne m ρ c main_arg8 (by decide)).trans f5_main_arg8
  have f7_main_arg8 : Bd7 m ρ c (Proc.devRef .tc main_arg8) = (ar8 m c) :=
    (StableHlo.after_of_writes_sub hostOps2 _ hostOps2_writes (by decide)).trans f6_main_arg8
  have f8_main_arg8 : Bd8 m ρ c (Proc.devRef .tc main_arg8) = (ar8 m c) :=
    (Bd8_of_ne m ρ c main_arg8 (by decide)).trans f7_main_arg8
  have f9_main_arg8 : Bd9 m ρ c (Proc.devRef .tc main_arg8) = (ar8 m c) :=
    (StableHlo.after_of_writes_sub hostOps3 _ hostOps3_writes (by decide)).trans f8_main_arg8
  have f10_main_arg8 : Bd10 m ρ c (Proc.devRef .tc main_arg8) = (ar8 m c) :=
    (StableHlo.after_of_writes_sub hostOps3_1 _ hostOps3_1_writes (by decide)).trans f9_main_arg8
  have f11_main_arg8 : Bd11 m ρ c (Proc.devRef .tc main_arg8) = (ar8 m c) :=
    (StableHlo.after_of_writes_sub hostOps3_2 _ hostOps3_2_writes (by decide)).trans f10_main_arg8
  have f12_main_arg8 : Bd12 m ρ c (Proc.devRef .tc main_arg8) = (ar8 m c) :=
    (Bd12_of_ne m ρ c main_arg8 (by decide)).trans f11_main_arg8
  have f13_main_arg8 : Bd13 m ρ c (Proc.devRef .tc main_arg8) = (ar8 m c) :=
    (StableHlo.after_of_writes_sub hostOps4 _ hostOps4_writes (by decide)).trans f12_main_arg8
  have f14_main_arg8 : Bd14 m ρ c (Proc.devRef .tc main_arg8) = (ar8 m c) :=
    (Bd14_of_ne m ρ c main_arg8 (by decide)).trans f13_main_arg8
  have f15_main_arg8 : Bd15 m ρ c (Proc.devRef .tc main_arg8) = (ar8 m c) :=
    (StableHlo.after_of_writes_sub hostOps5 _ hostOps5_writes (by decide)).trans f14_main_arg8
  have f16_main_arg8 : Bd16 m ρ c (Proc.devRef .tc main_arg8) = (ar8 m c) :=
    (Bd16_of_ne m ρ c main_arg8 (by decide)).trans f15_main_arg8
  have f17_main_arg8 : Bd17 m ρ c (Proc.devRef .tc main_arg8) = (ar8 m c) :=
    (StableHlo.after_of_writes_sub hostOps6 _ hostOps6_writes (by decide)).trans f16_main_arg8
  have f0_main_arg9 : Bd0 m ρ c (Proc.devRef .tc main_arg9) = (ar9 m c) := rfl
  have f1_main_arg9 : Bd1 m ρ c (Proc.devRef .tc main_arg9) = (ar9 m c) :=
    (StableHlo.after_of_writes_sub hostOps0 _ hostOps0_writes (by decide)).trans f0_main_arg9
  have f2_main_arg9 : Bd2 m ρ c (Proc.devRef .tc main_arg9) = (ar9 m c) :=
    (StableHlo.after_of_writes_sub hostOps0_1 _ hostOps0_1_writes (by decide)).trans f1_main_arg9
  have f3_main_arg9 : Bd3 m ρ c (Proc.devRef .tc main_arg9) = (ar9 m c) :=
    (StableHlo.after_of_writes_sub hostOps0_2 _ hostOps0_2_writes (by decide)).trans f2_main_arg9
  have f4_main_arg9 : Bd4 m ρ c (Proc.devRef .tc main_arg9) = (ar9 m c) :=
    (Bd4_of_ne m ρ c main_arg9 (by decide)).trans f3_main_arg9
  have f5_main_arg9 : Bd5 m ρ c (Proc.devRef .tc main_arg9) = (ar9 m c) :=
    (StableHlo.after_of_writes_sub hostOps1 _ hostOps1_writes (by decide)).trans f4_main_arg9
  have f6_main_arg9 : Bd6 m ρ c (Proc.devRef .tc main_arg9) = (ar9 m c) :=
    (Bd6_of_ne m ρ c main_arg9 (by decide)).trans f5_main_arg9
  have f7_main_arg9 : Bd7 m ρ c (Proc.devRef .tc main_arg9) = (ar9 m c) :=
    (StableHlo.after_of_writes_sub hostOps2 _ hostOps2_writes (by decide)).trans f6_main_arg9
  have f8_main_arg9 : Bd8 m ρ c (Proc.devRef .tc main_arg9) = (ar9 m c) :=
    (Bd8_of_ne m ρ c main_arg9 (by decide)).trans f7_main_arg9
  have f9_main_arg9 : Bd9 m ρ c (Proc.devRef .tc main_arg9) = (ar9 m c) :=
    (StableHlo.after_of_writes_sub hostOps3 _ hostOps3_writes (by decide)).trans f8_main_arg9
  have f10_main_arg9 : Bd10 m ρ c (Proc.devRef .tc main_arg9) = (ar9 m c) :=
    (StableHlo.after_of_writes_sub hostOps3_1 _ hostOps3_1_writes (by decide)).trans f9_main_arg9
  have f11_main_arg9 : Bd11 m ρ c (Proc.devRef .tc main_arg9) = (ar9 m c) :=
    (StableHlo.after_of_writes_sub hostOps3_2 _ hostOps3_2_writes (by decide)).trans f10_main_arg9
  have f12_main_arg9 : Bd12 m ρ c (Proc.devRef .tc main_arg9) = (ar9 m c) :=
    (Bd12_of_ne m ρ c main_arg9 (by decide)).trans f11_main_arg9
  have f13_main_arg9 : Bd13 m ρ c (Proc.devRef .tc main_arg9) = (ar9 m c) :=
    (StableHlo.after_of_writes_sub hostOps4 _ hostOps4_writes (by decide)).trans f12_main_arg9
  have f14_main_arg9 : Bd14 m ρ c (Proc.devRef .tc main_arg9) = (ar9 m c) :=
    (Bd14_of_ne m ρ c main_arg9 (by decide)).trans f13_main_arg9
  have f15_main_arg9 : Bd15 m ρ c (Proc.devRef .tc main_arg9) = (ar9 m c) :=
    (StableHlo.after_of_writes_sub hostOps5 _ hostOps5_writes (by decide)).trans f14_main_arg9
  have f16_main_arg9 : Bd16 m ρ c (Proc.devRef .tc main_arg9) = (ar9 m c) :=
    (Bd16_of_ne m ρ c main_arg9 (by decide)).trans f15_main_arg9
  have f17_main_v100 : Bd17 m ρ c (Proc.devRef .tc main_v100) = val_main_v110 (F := Ideal) (ar9 m c) :=
    Cert.KernelIdeal.HostRead.hostOps6_main_v100_ref (F := Ideal) (Bd16 m ρ c) (ar9 m c) f16_main_arg9
  refine (Cert.KernelIdeal.Hand.final6 (Vd17 m ρ) c).trans ((Cert.KernelIdeal.HandValue.res6_eq (Vd17 m ρ) c).trans ?_)
  show Cert.PoolSpec.poolOut (Cert.PoolSpec.segSum (Bd17 m ρ c (Proc.devRef .tc main_v98)) (Bd17 m ρ c (Proc.devRef .tc main_v91)))
      (Bd17 m ρ c (Proc.devRef .tc main_v99)) (Bd17 m ρ c (Proc.devRef .tc main_arg8)) (Bd17 m ρ c (Proc.devRef .tc main_v100)) = _
  rw [f17_main_v91, f17_main_v98, f17_main_v99, f17_main_arg8, f17_main_v100]
  exact Cert.KernelIdeal.PoolRef.pool_ref (ar0 m c) (ar1 m c) (ar2 m c) (ar3 m c) (ar4 m c) (ar5 m c) (ar6 m c) (ar7 m c) (ar8 m c) (ar9 m c)

end Cert.KernelIdeal.Hand

end
-- ==== Proof.lean ====
/-
  A two-layer graph convolution with mean pooling and a final linear map, as a TPU kernel program against its jnp
  reference, over the extended reals.

  Both programs compute, from node features x, an edge list with weights, graph ids and three weight/bias pairs:
  the symmetric normalisation norm = dinv[s] * w * dinv[d] with dinv = deg^(-1/2) where the weighted in-degree deg is
  positive and 0 elsewhere (self loops added); per layer h = x W, the messages h[s] scaled row by row by norm and summed
  into their destination rows, plus the bias (the first layer followed by the maximum with zero); then per graph the sum
  of the node rows divided by the node count (at least one), times the final weight, plus the final bias.

  The kernel program does the gathers, the scatter-additions and the degree arithmetic with the same host operations
  as the reference, in the same order, and replaces the dense steps by seven pipelined kernels: the projection in row
  blocks of 10000 (a matrix product into a zero accumulator: entry (p, q) is the sum over k of x (p, k) W (k, q), the
  reference's dot_general; the changes of float format are the identity on extended reals), the row scaling in blocks of
  10000 rows (the reference's product with the broadcast column), the bias step (the reference's sum with the broadcast
  row, and its maximum with zero), and the pooling, which accumulates over ten row blocks the product of the
  transposed one-hot matrix of the graph ids with the block of rows — the sum, over the nodes of a graph, of their rows:
  the reference's scatter-addition into zeros, since 0 * y = 0 and 1 * y = y for every extended real y and a sum of
  extended reals may be regrouped and reordered — and at the last block divides by the counts, multiplies by the final
  weight and adds the bias, as the reference does. No step needs the inputs to be finite.

  The frames: each program runs to the end without a fault and leaves its ten argument arrays as launched. For the two
  kernel programs this is the launch of seven kernel regions among eleven stretches of host operations; the six dense
  kernels load their blocks, compute and store one block; the pooling kernel carries its 64 x 128 accumulator in a scratch
  buffer from grid point to grid point (reset at the first point, read and overwritten at every point, and read once more
  at the last point, the only one at which the output block is stored and written back).
-/
import proofs.«145604_j19911468384638_1_alg».proof.Defs
import proofs.«145604_j19911468384638_1_alg».proof.Proof.Gen.Kernel
import proofs.«145604_j19911468384638_1_alg».proof.Proof.Gen.KernelIdeal
import proofs.«145604_j19911468384638_1_alg».proof.Proof.Gen.ReferenceIdeal
import proofs.«145604_j19911468384638_1_alg».proof.Proof.Gen.ReferenceIdeal.Run
import proofs.«145604_j19911468384638_1_alg».proof.Proof.Gen.ReferenceIdeal.Read
import proofs.«145604_j19911468384638_1_alg».proof.Proof.Gen.Pre_finite_inputs
import proofs.«145604_j19911468384638_1_alg».proof.Proof.K.Run
import proofs.«145604_j19911468384638_1_alg».proof.Proof.KI.Run
import proofs.«145604_j19911468384638_1_alg».proof.Proof.KI.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the reference's last stage of those
    arguments in their result array. -/
theorem algebraic : Cert.algebraic_KernelIdeal_ReferenceIdeal := by
  intro m ρ m' ρ' _ hagree
  refine ⟨fun c => Cert.KernelIdeal.Hand.result m ρ c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq]
  obtain ⟨h0, h1, h2, h3, h4, h5, h6, h7, h8, h9⟩ := hagree c
  rw [h0, h1, h2, h3, h4, h5, h6, h7, h8, h9]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
